-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16384x512 .f32) (main_arg1 : FVec F S1024x256 .f32) (main_arg2 : FVec F S256 .f32) (main_arg3 : FVec F S256x256 .f32) (main_arg4 : FVec F S256 .f32) (main_arg5 : FVec F S256x1 .f32) (main_arg6 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16384x512 : Shape := ⟨2, ![16384, 512]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x1024 : Shape := ⟨2, ![256, 1024]⟩
abbrev S1x256 : Shape := ⟨2, ![1, 256]⟩
abbrev S_ : Shape := ⟨0, ![]⟩
abbrev S16384x1024 : Shape := ⟨2, ![16384, 1024]⟩
abbrev S1024x1024 : Shape := ⟨2, ![1024, 1024]⟩

abbrev nBuf : Space → Nat
  | .hbm => 102
  | .vmem => 99
  | .smem => 0
  | _ => 0

abbrev bufTy : (tb : Table) → Fin (tcTables nBuf tb) → BufTy
  | .hbm, ⟨0, _⟩ => ⟨S16384x512, .f32⟩
  | .hbm, ⟨1, _⟩ => ⟨S1024x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S1024x256, .bf16⟩
  | .hbm, ⟨8, _⟩ => ⟨S256x256, .bf16⟩
  | .hbm, ⟨9, _⟩ => ⟨S256x1024, .bf16⟩
  | .hbm, ⟨10, _⟩ => ⟨S256x256, .bf16⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S_, .f32⟩
  | .hbm, ⟨15, _⟩ => ⟨S16384x512, .f32⟩
  | .hbm, ⟨16, _⟩ => ⟨S16384x1024, .f32⟩
  | .hbm, ⟨17, _⟩ => ⟨S16384x512, .f32⟩
  | .hbm, ⟨18, _⟩ => ⟨S16384x512, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x1024, .f32⟩
  | .hbm, ⟨29, _⟩ => ⟨S16384x1024, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x1024, .f32⟩
  | .hbm, ⟨45, _⟩ => ⟨S16384x512, .f32⟩
  | .hbm, ⟨46, _⟩ => ⟨S16384x512, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S16384x1024, .f32⟩
  | .hbm, ⟨57, _⟩ => ⟨S16384x1024, .f32⟩
  | .hbm, ⟨58, _⟩ => ⟨S16384x512, .f32⟩
  | .hbm, ⟨59, _⟩ => ⟨S_, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x1024, .f32⟩
  | .hbm, ⟨73, _⟩ => ⟨S16384x512, .f32⟩
  | .hbm, ⟨74, _⟩ => ⟨S16384x512, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x512, .f32⟩
  | .hbm, ⟨84, _⟩ => ⟨S16384x1024, .f32⟩
  | .hbm, ⟨85, _⟩ => ⟨S16384x1024, .f32⟩
  | .hbm, ⟨86, _⟩ => ⟨S16384x512, .f32⟩
  | .hbm, ⟨87, _⟩ => ⟨S_, .f32⟩
  | .hbm, ⟨88, _⟩ => ⟨S16384x512, .f32⟩
  | .hbm, ⟨89, _⟩ => ⟨S16384x512, .f32⟩
  | .hbm, ⟨90, _⟩ => ⟨S16384x512, .f32⟩
  | .hbm, ⟨91, _⟩ => ⟨S16384x1024, .f32⟩
  | .hbm, ⟨92, _⟩ => ⟨S16384x1024, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S16384x512, .f32⟩
  | .hbm, ⟨97, _⟩ => ⟨S16384x512, .f32⟩
  | .hbm, ⟨98, _⟩ => ⟨S16384x512, .f32⟩
  | .hbm, ⟨99, _⟩ => ⟨S16384x512, .f32⟩
  | .hbm, ⟨100, _⟩ => ⟨S16384x1024, .f32⟩
  | .hbm, ⟨101, _⟩ => ⟨S16384x512, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S256x1024, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x256, .bf16⟩
  | .local _ .vmem, ⟨14, _⟩ => ⟨S256x1024, .bf16⟩
  | .local _ .vmem, ⟨15, _⟩ => ⟨S256x256, .bf16⟩
  | .local _ .vmem, ⟨16, _⟩ => ⟨S256x256, .bf16⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x256, .bf16⟩
  | .local _ .vmem, ⟨25, _⟩ => ⟨S256x1024, .bf16⟩
  | .local _ .vmem, ⟨26, _⟩ => ⟨S256x256, .bf16⟩
  | .local _ .vmem, ⟨27, _⟩ => ⟨S256x256, .bf16⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1024x1024, .f32⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S1024x256, .bf16⟩
  | .local _ .vmem, ⟨36, _⟩ => ⟨S256x1024, .bf16⟩
  | .local _ .vmem, ⟨37, _⟩ => ⟨S256x256, .bf16⟩
  | .local _ .vmem, ⟨38, _⟩ => ⟨S256x256, .bf16⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1024x1024, .f32⟩
  | .local _ .vmem, ⟨43, _⟩ => ⟨S1024x1024, .f32⟩
  | .local _ .vmem, ⟨44, _⟩ => ⟨S1024x1024, .f32⟩
  | .local _ .vmem, ⟨45, _⟩ => ⟨S1024x1024, .f32⟩
  | .local _ .vmem, ⟨46, _⟩ => ⟨S1024x256, .bf16⟩
  | .local _ .vmem, ⟨47, _⟩ => ⟨S256x1024, .bf16⟩
  | .local _ .vmem, ⟨48, _⟩ => ⟨S256x256, .bf16⟩
  | .local _ .vmem, ⟨49, _⟩ => ⟨S256x256, .bf16⟩
  | .local _ .vmem, ⟨50, _⟩ => ⟨S1x256, .f32⟩
  | .local _ .vmem, ⟨51, _⟩ => ⟨S1x256, .f32⟩
  | .local _ .vmem, ⟨52, _⟩ => ⟨S1x256, .f32⟩
  | .local _ .vmem, ⟨53, _⟩ => ⟨S1024x1024, .f32⟩
  | .local _ .vmem, ⟨54, _⟩ => ⟨S1024x1024, .f32⟩
  | .local _ .vmem, ⟨55, _⟩ => ⟨S1024x1024, .f32⟩
  | .local _ .vmem, ⟨56, _⟩ => ⟨S1024x1024, .f32⟩
  | .local _ .vmem, ⟨57, _⟩ => ⟨S1024x256, .bf16⟩
  | .local _ .vmem, ⟨58, _⟩ => ⟨S256x1024, .bf16⟩
  | .local _ .vmem, ⟨59, _⟩ => ⟨S256x256, .bf16⟩
  | .local _ .vmem, ⟨60, _⟩ => ⟨S256x256, .bf16⟩
  | .local _ .vmem, ⟨61, _⟩ => ⟨S1x256, .f32⟩
  | .local _ .vmem, ⟨62, _⟩ => ⟨S1x256, .f32⟩
  | .local _ .vmem, ⟨63, _⟩ => ⟨S1x256, .f32⟩
  | .local _ .vmem, ⟨64, _⟩ => ⟨S1024x1024, .f32⟩
  | .local _ .vmem, ⟨65, _⟩ => ⟨S1024x1024, .f32⟩
  | .local _ .vmem, ⟨66, _⟩ => ⟨S1024x1024, .f32⟩
  | .local _ .vmem, ⟨67, _⟩ => ⟨S1024x1024, .f32⟩
  | .local _ .vmem, ⟨68, _⟩ => ⟨S1024x256, .bf16⟩
  | .local _ .vmem, ⟨69, _⟩ => ⟨S256x1024, .bf16⟩
  | .local _ .vmem, ⟨70, _⟩ => ⟨S256x256, .bf16⟩
  | .local _ .vmem, ⟨71, _⟩ => ⟨S256x256, .bf16⟩
  | .local _ .vmem, ⟨72, _⟩ => ⟨S1x256, .f32⟩
  | .local _ .vmem, ⟨73, _⟩ => ⟨S1x256, .f32⟩
  | .local _ .vmem, ⟨74, _⟩ => ⟨S1x256, .f32⟩
  | .local _ .vmem, ⟨75, _⟩ => ⟨S1024x1024, .f32⟩
  | .local _ .vmem, ⟨76, _⟩ => ⟨S1024x1024, .f32⟩
  | .local _ .vmem, ⟨77, _⟩ => ⟨S1024x1024, .f32⟩
  | .local _ .vmem, ⟨78, _⟩ => ⟨S1024x1024, .f32⟩
  | .local _ .vmem, ⟨79, _⟩ => ⟨S1024x256, .bf16⟩
  | .local _ .vmem, ⟨80, _⟩ => ⟨S256x1024, .bf16⟩
  | .local _ .vmem, ⟨81, _⟩ => ⟨S256x256, .bf16⟩
  | .local _ .vmem, ⟨82, _⟩ => ⟨S256x256, .bf16⟩
  | .local _ .vmem, ⟨83, _⟩ => ⟨S1x256, .f32⟩
  | .local _ .vmem, ⟨84, _⟩ => ⟨S1x256, .f32⟩
  | .local _ .vmem, ⟨85, _⟩ => ⟨S1x256, .f32⟩
  | .local _ .vmem, ⟨86, _⟩ => ⟨S1024x1024, .f32⟩
  | .local _ .vmem, ⟨87, _⟩ => ⟨S1024x1024, .f32⟩
  | .local _ .vmem, ⟨88, _⟩ => ⟨S1024x1024, .f32⟩
  | .local _ .vmem, ⟨89, _⟩ => ⟨S1024x1024, .f32⟩
  | .local _ .vmem, ⟨90, _⟩ => ⟨S1024x256, .bf16⟩
  | .local _ .vmem, ⟨91, _⟩ => ⟨S256x1024, .bf16⟩
  | .local _ .vmem, ⟨92, _⟩ => ⟨S256x256, .bf16⟩
  | .local _ .vmem, ⟨93, _⟩ => ⟨S256x256, .bf16⟩
  | .local _ .vmem, ⟨94, _⟩ => ⟨S1x256, .f32⟩
  | .local _ .vmem, ⟨95, _⟩ => ⟨S1x256, .f32⟩
  | .local _ .vmem, ⟨96, _⟩ => ⟨S1x256, .f32⟩
  | .local _ .vmem, ⟨97, _⟩ => ⟨S1024x1024, .f32⟩
  | .local _ .vmem, ⟨98, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | _, _ => false

abbrev semScoped : Fin 0 → Bool
  | ⟨_, h⟩ => absurd h (Nat.not_lt_zero _)

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  ofTc nBuf bufTy 0 99 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_12 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg8_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg8_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg8_0 : Ref sig .tc := ⟨.vmem, 53, rfl⟩
abbrev cc4_stg8_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg7_0 : Ref sig .tc := ⟨.vmem, 63, rfl⟩
abbrev cc5_stg8_0 : Ref sig .tc := ⟨.vmem, 64, rfl⟩
abbrev cc5_stg8_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg7_0 : Ref sig .tc := ⟨.vmem, 74, rfl⟩
abbrev cc6_stg8_0 : Ref sig .tc := ⟨.vmem, 75, rfl⟩
abbrev cc6_stg8_1 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg2_0 : Ref sig .tc := ⟨.vmem, 80, rfl⟩
abbrev cc7_stg3_0 : Ref sig .tc := ⟨.vmem, 81, rfl⟩
abbrev cc7_stg4_0 : Ref sig .tc := ⟨.vmem, 82, rfl⟩
abbrev cc7_stg5_0 : Ref sig .tc := ⟨.vmem, 83, rfl⟩
abbrev cc7_stg6_0 : Ref sig .tc := ⟨.vmem, 84, rfl⟩
abbrev cc7_stg7_0 : Ref sig .tc := ⟨.vmem, 85, rfl⟩
abbrev cc7_stg8_0 : Ref sig .tc := ⟨.vmem, 86, rfl⟩
abbrev cc7_stg8_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg2_0 : Ref sig .tc := ⟨.vmem, 91, rfl⟩
abbrev cc8_stg3_0 : Ref sig .tc := ⟨.vmem, 92, rfl⟩
abbrev cc8_stg4_0 : Ref sig .tc := ⟨.vmem, 93, rfl⟩
abbrev cc8_stg5_0 : Ref sig .tc := ⟨.vmem, 94, rfl⟩
abbrev cc8_stg6_0 : Ref sig .tc := ⟨.vmem, 95, rfl⟩
abbrev cc8_stg7_0 : Ref sig .tc := ⟨.vmem, 96, rfl⟩
abbrev cc8_stg8_0 : Ref sig .tc := ⟨.vmem, 97, rfl⟩
abbrev cc8_stg8_1 : Ref sig .tc := ⟨.vmem, 98, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem8_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem8_0 : DmaSem sig := 53
abbrev cc4_sem8_1 : DmaSem sig := 54
abbrev cc5_sem0_0 : DmaSem sig := 55
abbrev cc5_sem0_1 : DmaSem sig := 56
abbrev cc5_sem1_0 : DmaSem sig := 57
abbrev cc5_sem2_0 : DmaSem sig := 58
abbrev cc5_sem3_0 : DmaSem sig := 59
abbrev cc5_sem4_0 : DmaSem sig := 60
abbrev cc5_sem5_0 : DmaSem sig := 61
abbrev cc5_sem6_0 : DmaSem sig := 62
abbrev cc5_sem7_0 : DmaSem sig := 63
abbrev cc5_sem8_0 : DmaSem sig := 64
abbrev cc5_sem8_1 : DmaSem sig := 65
abbrev cc6_sem0_0 : DmaSem sig := 66
abbrev cc6_sem0_1 : DmaSem sig := 67
abbrev cc6_sem1_0 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem6_0 : DmaSem sig := 73
abbrev cc6_sem7_0 : DmaSem sig := 74
abbrev cc6_sem8_0 : DmaSem sig := 75
abbrev cc6_sem8_1 : DmaSem sig := 76
abbrev cc7_sem0_0 : DmaSem sig := 77
abbrev cc7_sem0_1 : DmaSem sig := 78
abbrev cc7_sem1_0 : DmaSem sig := 79
abbrev cc7_sem2_0 : DmaSem sig := 80
abbrev cc7_sem3_0 : DmaSem sig := 81
abbrev cc7_sem4_0 : DmaSem sig := 82
abbrev cc7_sem5_0 : DmaSem sig := 83
abbrev cc7_sem6_0 : DmaSem sig := 84
abbrev cc7_sem7_0 : DmaSem sig := 85
abbrev cc7_sem8_0 : DmaSem sig := 86
abbrev cc7_sem8_1 : DmaSem sig := 87
abbrev cc8_sem0_0 : DmaSem sig := 88
abbrev cc8_sem0_1 : DmaSem sig := 89
abbrev cc8_sem1_0 : DmaSem sig := 90
abbrev cc8_sem2_0 : DmaSem sig := 91
abbrev cc8_sem3_0 : DmaSem sig := 92
abbrev cc8_sem4_0 : DmaSem sig := 93
abbrev cc8_sem5_0 : DmaSem sig := 94
abbrev cc8_sem6_0 : DmaSem sig := 95
abbrev cc8_sem7_0 : DmaSem sig := 96
abbrev cc8_sem8_0 : DmaSem sig := 97
abbrev cc8_sem8_1 : DmaSem sig := 98

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1024x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1024x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S1024x1024 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x1024 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S1024x1024 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x256 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S1024x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S256x1024 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x256 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256x256 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S1024x1024 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1024x256 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256x1024 .bf16 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x256 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S256x256 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x256 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 2 → Memref sig .tc .vmem S1024x1024 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

class Facts₀ : Prop where
  bitsLt_bf16_f32 : FTy.bits .bf16 < FTy.bits .f32
  transposes_S1024x256_S256x1024_1_0 : S1024x256.Transposes [1, 0] S256x1024
  transposes_S256x256_S256x256_1_0 : S256x256.Transposes [1, 0] S256x256
  shapeCasts_S256_S1x256 : S256.ShapeCasts S1x256
  shapeCasts_S256x1_S1x256 : S256x1.ShapeCasts S1x256
  bcast_S_S16384x512 : S_.BroadcastsInDim S16384x512 (![] : Fin 0 → Fin S16384x512.rank)
  concatenates_S16384x512_S16384x512_S16384x1024_d1 : Shape.Concatenates [S16384x512, S16384x512] S16384x1024 1
  slices_S16384x1024_S16384x512_0_0 : S16384x1024.Slices ![0, 0] S16384x512
  slices_S16384x1024_S16384x512_0_512 : S16384x1024.Slices ![0, 512] S16384x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S16384x1024.size a
  hwx0_8 : ∀ i : grid0.Coords, EltTy.bits .f32 = 32 ∨ (Rect.block (s := S16384x1024) S1024x1024.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S1024x256.size a
  hwx1_1 : ∀ i : grid1.Coords, EltTy.bits .bf16 = 32 ∨ (Rect.block (s := S1024x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x1024.size a ≤ S16384x1024.size a
  hwx1_8 : ∀ i : grid1.Coords, EltTy.bits .f32 = 32 ∨ (Rect.block (s := S16384x1024) S1024x1024.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .f32 = 32 ∨ (Rect.block (s := S16384x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .bf16 = 32 ∨ (Rect.block (s := S1024x256) S1024x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x1024.size a ≤ S256x1024.size a
  hwx2_2 : ∀ i : grid2.Coords, EltTy.bits .bf16 = 32 ∨ (Rect.block (s := S256x1024) S256x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .bf16 = 32 ∨ (Rect.block (s := S256x256) S256x256.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1024x1024.size a ≤ S16384x1024.size a
  hwx2_8 : ∀ i : grid2.Coords, EltTy.bits .f32 = 32 ∨ (Rect.block (s := S16384x1024) S1024x1024.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S16384x1024.size a
  hwx3_0 : ∀ i : grid3.Coords, EltTy.bits .f32 = 32 ∨ (Rect.block (s := S16384x1024) S1024x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S1024x256.size a
  hwx3_1 : ∀ i : grid3.Coords, EltTy.bits .bf16 = 32 ∨ (Rect.block (s := S1024x256) S1024x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S256x1024.size a
  hwx3_2 : ∀ i : grid3.Coords, EltTy.bits .bf16 = 32 ∨ (Rect.block (s := S256x1024) S256x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .bf16 = 32 ∨ (Rect.block (s := S256x256) S256x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .bf16 = 32 ∨ (Rect.block (s := S256x256) S256x256.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1024x1024.size a ≤ S16384x1024.size a
  hwx3_8 : ∀ i : grid3.Coords, EltTy.bits .f32 = 32 ∨ (Rect.block (s := S16384x1024) S1024x1024.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S16384x1024.size a
  hwx4_0 : ∀ i : grid4.Coords, EltTy.bits .f32 = 32 ∨ (Rect.block (s := S16384x1024) S1024x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S1024x256.size a
  hwx4_1 : ∀ i : grid4.Coords, EltTy.bits .bf16 = 32 ∨ (Rect.block (s := S1024x256) S1024x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x1024.size a ≤ S256x1024.size a
  hwx4_2 : ∀ i : grid4.Coords, EltTy.bits .bf16 = 32 ∨ (Rect.block (s := S256x1024) S256x1024.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .bf16 = 32 ∨ (Rect.block (s := S256x256) S256x256.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .bf16 = 32 ∨ (Rect.block (s := S256x256) S256x256.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1024x1024.size a ≤ S16384x1024.size a
  hwx4_8 : ∀ i : grid4.Coords, EltTy.bits .f32 = 32 ∨ (Rect.block (s := S16384x1024) S1024x1024.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S16384x1024.size a
  hwx5_0 : ∀ i : grid5.Coords, EltTy.bits .f32 = 32 ∨ (Rect.block (s := S16384x1024) S1024x1024.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x256.size a ≤ S1024x256.size a
  hwx5_1 : ∀ i : grid5.Coords, EltTy.bits .bf16 = 32 ∨ (Rect.block (s := S1024x256) S1024x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x1024.size a ≤ S256x1024.size a
  hwx5_2 : ∀ i : grid5.Coords, EltTy.bits .bf16 = 32 ∨ (Rect.block (s := S256x1024) S256x1024.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .bf16 = 32 ∨ (Rect.block (s := S256x256) S256x256.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .bf16 = 32 ∨ (Rect.block (s := S256x256) S256x256.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1024x1024.size a ≤ S16384x1024.size a
  hwx5_8 : ∀ i : grid5.Coords, EltTy.bits .f32 = 32 ∨ (Rect.block (s := S16384x1024) S1024x1024.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x1024.size a ≤ S16384x1024.size a
  hwx6_0 : ∀ i : grid6.Coords, EltTy.bits .f32 = 32 ∨ (Rect.block (s := S16384x1024) S1024x1024.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x256.size a ≤ S1024x256.size a
  hwx6_1 : ∀ i : grid6.Coords, EltTy.bits .bf16 = 32 ∨ (Rect.block (s := S1024x256) S1024x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x1024.size a ≤ S256x1024.size a
  hwx6_2 : ∀ i : grid6.Coords, EltTy.bits .bf16 = 32 ∨ (Rect.block (s := S256x1024) S256x1024.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .bf16 = 32 ∨ (Rect.block (s := S256x256) S256x256.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .bf16 = 32 ∨ (Rect.block (s := S256x256) S256x256.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x256.size a ≤ S1x256.size a
  hwx6_7 : ∀ i : grid6.Coords, EltTy.bits .f32 = 32 ∨ (Rect.block (s := S1x256) S1x256.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1024x1024.size a ≤ S16384x1024.size a
  hwx6_8 : ∀ i : grid6.Coords, EltTy.bits .f32 = 32 ∨ (Rect.block (s := S16384x1024) S1024x1024.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x1024.size a ≤ S16384x1024.size a
  hwx7_0 : ∀ i : grid7.Coords, EltTy.bits .f32 = 32 ∨ (Rect.block (s := S16384x1024) S1024x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x256.size a ≤ S1024x256.size a
  hwx7_1 : ∀ i : grid7.Coords, EltTy.bits .bf16 = 32 ∨ (Rect.block (s := S1024x256) S1024x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x1024.size a ≤ S256x1024.size a
  hwx7_2 : ∀ i : grid7.Coords, EltTy.bits .bf16 = 32 ∨ (Rect.block (s := S256x1024) S256x1024.size (cc7_transform_2 i) (hinb7_2 i)).WholeWords (EltTy.packing .bf16)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .bf16 = 32 ∨ (Rect.block (s := S256x256) S256x256.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x256.size a ≤ S256x256.size a
  hwx7_4 : ∀ i : grid7.Coords, EltTy.bits .bf16 = 32 ∨ (Rect.block (s := S256x256) S256x256.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x256.size a ≤ S1x256.size a
  hwx7_7 : ∀ i : grid7.Coords, EltTy.bits .f32 = 32 ∨ (Rect.block (s := S1x256) S1x256.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S1024x1024.size a ≤ S16384x1024.size a
  hwx7_8 : ∀ i : grid7.Coords, EltTy.bits .f32 = 32 ∨ (Rect.block (s := S16384x1024) S1024x1024.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x1024.size a ≤ S16384x1024.size a
  hwx8_0 : ∀ i : grid8.Coords, EltTy.bits .f32 = 32 ∨ (Rect.block (s := S16384x1024) S1024x1024.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1024x256.size a ≤ S1024x256.size a
  hwx8_1 : ∀ i : grid8.Coords, EltTy.bits .bf16 = 32 ∨ (Rect.block (s := S1024x256) S1024x256.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x1024.size a ≤ S256x1024.size a
  hwx8_2 : ∀ i : grid8.Coords, EltTy.bits .bf16 = 32 ∨ (Rect.block (s := S256x1024) S256x1024.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .bf16 = 32 ∨ (Rect.block (s := S256x256) S256x256.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256x256.size a ≤ S256x256.size a
  hwx8_4 : ∀ i : grid8.Coords, EltTy.bits .bf16 = 32 ∨ (Rect.block (s := S256x256) S256x256.size (cc8_transform_4 i) (hinb8_4 i)).WholeWords (EltTy.packing .bf16)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x256.size a ≤ S1x256.size a
  hwx8_5 : ∀ i : grid8.Coords, EltTy.bits .f32 = 32 ∨ (Rect.block (s := S1x256) S1x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x256.size a ≤ S1x256.size a
  hwx8_6 : ∀ i : grid8.Coords, EltTy.bits .f32 = 32 ∨ (Rect.block (s := S1x256) S1x256.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x256.size a ≤ S1x256.size a
  hwx8_7 : ∀ i : grid8.Coords, EltTy.bits .f32 = 32 ∨ (Rect.block (s := S1x256) S1x256.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S1024x1024.size a ≤ S16384x1024.size a
  hwx8_8 : ∀ i : grid8.Coords, EltTy.bits .f32 = 32 ∨ (Rect.block (s := S16384x1024) S1024x1024.size (cc8_transform_8 i) (hinb8_8 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v11) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v18) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19) S1024x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v24) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v4) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v25) S1024x1024.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v34) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S1024x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v2) S256x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v5) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v6) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v35) S1024x1024.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v41) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1024x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S256x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v1) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v3) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v4) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v5) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v6) S1x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v42) S1024x1024.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v47) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0) S1024x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v2) S256x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v1) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v3) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v4) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v5) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v6) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v48) S1024x1024.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v57) S1024x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v0) S1024x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v2) S256x1024.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v1) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v3) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v4) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v5) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v6) S1x256.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v58) S1024x1024.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v64) S1024x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v0) S1024x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v2) S256x1024.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v1) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v3) S256x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v4) S1x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v5) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v6) S1x256.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v65) S1024x1024.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v70) S1024x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v0) S1024x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v2) S256x1024.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v1) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v3) S256x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v4) S1x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v5) S1x256.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v6) S1x256.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v71) S1024x1024.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

class Facts : Prop extends Facts₀ where

variable [Facts]
-- ==== ReferenceIdeal.lean ====
abbrev S16384x512 : Shape := ⟨2, ![16384, 512]⟩
abbrev S1024x256 : Shape := ⟨2, ![1024, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S16384x1024 : Shape := ⟨2, ![16384, 1024]⟩
abbrev S16384x256 : Shape := ⟨2, ![16384, 256]⟩
abbrev S1x256 : Shape := ⟨2, ![1, 256]⟩
abbrev S16384x1 : Shape := ⟨2, ![16384, 1]⟩
abbrev S1x1 : Shape := ⟨2, ![1, 1]⟩

abbrev nBuf : Space → Nat
  | .hbm => 383
  | .vmem => 0
  | .smem => 0
  | _ => 0

abbrev hbmTy0_0 (i : Nat) : BufTy := match i % 128 with
  | 0 => ⟨S16384x512, .f32⟩
  | 1 => ⟨S1024x256, .f32⟩
  | 2 => ⟨S256, .f32⟩
  | 3 => ⟨S256x256, .f32⟩
  | 4 => ⟨S256, .f32⟩
  | 5 => ⟨S256x1, .f32⟩
  | 6 => ⟨S1, .f32⟩
  | 7 => ⟨S_, .f32⟩
  | 8 => ⟨S16384x512, .f32⟩
  | 9 => ⟨S16384x1024, .f32⟩
  | 10 => ⟨S16384x512, .f32⟩
  | 11 => ⟨S16384x512, .f32⟩
  | 12 => ⟨S16384x1024, .f32⟩
  | 13 => ⟨S16384x256, .f32⟩
  | 14 => ⟨S1x256, .f32⟩
  | 15 => ⟨S16384x256, .f32⟩
  | 16 => ⟨S16384x256, .f32⟩
  | 17 => ⟨S16384x256, .f32⟩
  | 18 => ⟨S_, .f32⟩
  | 19 => ⟨S16384x256, .f32⟩
  | 20 => ⟨S16384x256, .f32⟩
  | 21 => ⟨S16384x256, .f32⟩
  | 22 => ⟨S1x256, .f32⟩
  | 23 => ⟨S16384x256, .f32⟩
  | 24 => ⟨S16384x256, .f32⟩
  | 25 => ⟨S16384x256, .f32⟩
  | 26 => ⟨S_, .f32⟩
  | 27 => ⟨S16384x256, .f32⟩
  | 28 => ⟨S16384x256, .f32⟩
  | 29 => ⟨S16384x1, .f32⟩
  | 30 => ⟨S1x1, .f32⟩
  | 31 => ⟨S16384x1, .f32⟩
  | 32 => ⟨S16384x1, .f32⟩
  | 33 => ⟨S_, .f32⟩
  | 34 => ⟨S_, .f32⟩
  | 35 => ⟨S_, .f32⟩
  | 36 => ⟨S16384x1, .f32⟩
  | 37 => ⟨S16384x256, .f32⟩
  | 38 => ⟨S16384x256, .f32⟩
  | 39 => ⟨S16384x256, .f32⟩
  | 40 => ⟨S16384x256, .f32⟩
  | 41 => ⟨S16384x256, .f32⟩
  | 42 => ⟨S16384x256, .f32⟩
  | 43 => ⟨S16384x256, .f32⟩
  | 44 => ⟨S16384x256, .f32⟩
  | 45 => ⟨S16384x1024, .f32⟩
  | 46 => ⟨S_, .f32⟩
  | 47 => ⟨S_, .f32⟩
  | 48 => ⟨S_, .f32⟩
  | 49 => ⟨S16384x512, .f32⟩
  | 50 => ⟨S16384x512, .f32⟩
  | 51 => ⟨S16384x512, .f32⟩
  | 52 => ⟨S16384x512, .f32⟩
  | 53 => ⟨S16384x1024, .f32⟩
  | 54 => ⟨S16384x256, .f32⟩
  | 55 => ⟨S1x256, .f32⟩
  | 56 => ⟨S16384x256, .f32⟩
  | 57 => ⟨S16384x256, .f32⟩
  | 58 => ⟨S16384x256, .f32⟩
  | 59 => ⟨S_, .f32⟩
  | 60 => ⟨S16384x256, .f32⟩
  | 61 => ⟨S16384x256, .f32⟩
  | 62 => ⟨S16384x256, .f32⟩
  | 63 => ⟨S1x256, .f32⟩
  | 64 => ⟨S16384x256, .f32⟩
  | 65 => ⟨S16384x256, .f32⟩
  | 66 => ⟨S16384x256, .f32⟩
  | 67 => ⟨S_, .f32⟩
  | 68 => ⟨S16384x256, .f32⟩
  | 69 => ⟨S16384x256, .f32⟩
  | 70 => ⟨S16384x1, .f32⟩
  | 71 => ⟨S1x1, .f32⟩
  | 72 => ⟨S16384x1, .f32⟩
  | 73 => ⟨S16384x1, .f32⟩
  | 74 => ⟨S_, .f32⟩
  | 75 => ⟨S_, .f32⟩
  | 76 => ⟨S_, .f32⟩
  | 77 => ⟨S16384x1, .f32⟩
  | 78 => ⟨S16384x256, .f32⟩
  | 79 => ⟨S16384x256, .f32⟩
  | 80 => ⟨S16384x256, .f32⟩
  | 81 => ⟨S16384x256, .f32⟩
  | 82 => ⟨S16384x256, .f32⟩
  | 83 => ⟨S16384x256, .f32⟩
  | 84 => ⟨S16384x256, .f32⟩
  | 85 => ⟨S16384x256, .f32⟩
  | 86 => ⟨S16384x1024, .f32⟩
  | 87 => ⟨S16384x512, .f32⟩
  | 88 => ⟨S_, .f32⟩
  | 89 => ⟨S16384x512, .f32⟩
  | 90 => ⟨S16384x512, .f32⟩
  | 91 => ⟨S16384x512, .f32⟩
  | 92 => ⟨S16384x1024, .f32⟩
  | 93 => ⟨S16384x256, .f32⟩
  | 94 => ⟨S1x256, .f32⟩
  | 95 => ⟨S16384x256, .f32⟩
  | 96 => ⟨S16384x256, .f32⟩
  | 97 => ⟨S16384x256, .f32⟩
  | 98 => ⟨S_, .f32⟩
  | 99 => ⟨S16384x256, .f32⟩
  | 100 => ⟨S16384x256, .f32⟩
  | 101 => ⟨S16384x256, .f32⟩
  | 102 => ⟨S1x256, .f32⟩
  | 103 => ⟨S16384x256, .f32⟩
  | 104 => ⟨S16384x256, .f32⟩
  | 105 => ⟨S16384x256, .f32⟩
  | 106 => ⟨S_, .f32⟩
  | 107 => ⟨S16384x256, .f32⟩
  | 108 => ⟨S16384x256, .f32⟩
  | 109 => ⟨S16384x1, .f32⟩
  | 110 => ⟨S1x1, .f32⟩
  | 111 => ⟨S16384x1, .f32⟩
  | 112 => ⟨S16384x1, .f32⟩
  | 113 => ⟨S_, .f32⟩
  | 114 => ⟨S_, .f32⟩
  | 115 => ⟨S_, .f32⟩
  | 116 => ⟨S16384x1, .f32⟩
  | 117 => ⟨S16384x256, .f32⟩
  | 118 => ⟨S16384x256, .f32⟩
  | 119 => ⟨S16384x256, .f32⟩
  | 120 => ⟨S16384x256, .f32⟩
  | 121 => ⟨S16384x256, .f32⟩
  | 122 => ⟨S16384x256, .f32⟩
  | 123 => ⟨S16384x256, .f32⟩
  | 124 => ⟨S16384x256, .f32⟩
  | 125 => ⟨S16384x1024, .f32⟩
  | 126 => ⟨S_, .f32⟩
  | 127 => ⟨S_, .f32⟩
  | _ => ⟨S16384x512, .f32⟩

abbrev hbmTy0_1 (i : Nat) : BufTy := match i % 128 with
  | 0 => ⟨S_, .f32⟩
  | 1 => ⟨S16384x512, .f32⟩
  | 2 => ⟨S16384x512, .f32⟩
  | 3 => ⟨S16384x512, .f32⟩
  | 4 => ⟨S16384x512, .f32⟩
  | 5 => ⟨S16384x1024, .f32⟩
  | 6 => ⟨S16384x512, .f32⟩
  | 7 => ⟨S16384x512, .f32⟩
  | 8 => ⟨S16384x1024, .f32⟩
  | 9 => ⟨S16384x256, .f32⟩
  | 10 => ⟨S1x256, .f32⟩
  | 11 => ⟨S16384x256, .f32⟩
  | 12 => ⟨S16384x256, .f32⟩
  | 13 => ⟨S16384x256, .f32⟩
  | 14 => ⟨S_, .f32⟩
  | 15 => ⟨S16384x256, .f32⟩
  | 16 => ⟨S16384x256, .f32⟩
  | 17 => ⟨S16384x256, .f32⟩
  | 18 => ⟨S1x256, .f32⟩
  | 19 => ⟨S16384x256, .f32⟩
  | 20 => ⟨S16384x256, .f32⟩
  | 21 => ⟨S16384x256, .f32⟩
  | 22 => ⟨S_, .f32⟩
  | 23 => ⟨S16384x256, .f32⟩
  | 24 => ⟨S16384x256, .f32⟩
  | 25 => ⟨S16384x1, .f32⟩
  | 26 => ⟨S1x1, .f32⟩
  | 27 => ⟨S16384x1, .f32⟩
  | 28 => ⟨S16384x1, .f32⟩
  | 29 => ⟨S_, .f32⟩
  | 30 => ⟨S_, .f32⟩
  | 31 => ⟨S_, .f32⟩
  | 32 => ⟨S16384x1, .f32⟩
  | 33 => ⟨S16384x256, .f32⟩
  | 34 => ⟨S16384x256, .f32⟩
  | 35 => ⟨S16384x256, .f32⟩
  | 36 => ⟨S16384x256, .f32⟩
  | 37 => ⟨S16384x256, .f32⟩
  | 38 => ⟨S16384x256, .f32⟩
  | 39 => ⟨S16384x256, .f32⟩
  | 40 => ⟨S16384x256, .f32⟩
  | 41 => ⟨S16384x1024, .f32⟩
  | 42 => ⟨S_, .f32⟩
  | 43 => ⟨S_, .f32⟩
  | 44 => ⟨S_, .f32⟩
  | 45 => ⟨S16384x512, .f32⟩
  | 46 => ⟨S16384x512, .f32⟩
  | 47 => ⟨S16384x512, .f32⟩
  | 48 => ⟨S16384x512, .f32⟩
  | 49 => ⟨S16384x1024, .f32⟩
  | 50 => ⟨S16384x256, .f32⟩
  | 51 => ⟨S1x256, .f32⟩
  | 52 => ⟨S16384x256, .f32⟩
  | 53 => ⟨S16384x256, .f32⟩
  | 54 => ⟨S16384x256, .f32⟩
  | 55 => ⟨S_, .f32⟩
  | 56 => ⟨S16384x256, .f32⟩
  | 57 => ⟨S16384x256, .f32⟩
  | 58 => ⟨S16384x256, .f32⟩
  | 59 => ⟨S1x256, .f32⟩
  | 60 => ⟨S16384x256, .f32⟩
  | 61 => ⟨S16384x256, .f32⟩
  | 62 => ⟨S16384x256, .f32⟩
  | 63 => ⟨S_, .f32⟩
  | 64 => ⟨S16384x256, .f32⟩
  | 65 => ⟨S16384x256, .f32⟩
  | 66 => ⟨S16384x1, .f32⟩
  | 67 => ⟨S1x1, .f32⟩
  | 68 => ⟨S16384x1, .f32⟩
  | 69 => ⟨S16384x1, .f32⟩
  | 70 => ⟨S_, .f32⟩
  | 71 => ⟨S_, .f32⟩
  | 72 => ⟨S_, .f32⟩
  | 73 => ⟨S16384x1, .f32⟩
  | 74 => ⟨S16384x256, .f32⟩
  | 75 => ⟨S16384x256, .f32⟩
  | 76 => ⟨S16384x256, .f32⟩
  | 77 => ⟨S16384x256, .f32⟩
  | 78 => ⟨S16384x256, .f32⟩
  | 79 => ⟨S16384x256, .f32⟩
  | 80 => ⟨S16384x256, .f32⟩
  | 81 => ⟨S16384x256, .f32⟩
  | 82 => ⟨S16384x1024, .f32⟩
  | 83 => ⟨S16384x512, .f32⟩
  | 84 => ⟨S_, .f32⟩
  | 85 => ⟨S16384x512, .f32⟩
  | 86 => ⟨S16384x512, .f32⟩
  | 87 => ⟨S16384x512, .f32⟩
  | 88 => ⟨S16384x1024, .f32⟩
  | 89 => ⟨S16384x256, .f32⟩
  | 90 => ⟨S1x256, .f32⟩
  | 91 => ⟨S16384x256, .f32⟩
  | 92 => ⟨S16384x256, .f32⟩
  | 93 => ⟨S16384x256, .f32⟩
  | 94 => ⟨S_, .f32⟩
  | 95 => ⟨S16384x256, .f32⟩
  | 96 => ⟨S16384x256, .f32⟩
  | 97 => ⟨S16384x256, .f32⟩
  | 98 => ⟨S1x256, .f32⟩
  | 99 => ⟨S16384x256, .f32⟩
  | 100 => ⟨S16384x256, .f32⟩
  | 101 => ⟨S16384x256, .f32⟩
  | 102 => ⟨S_, .f32⟩
  | 103 => ⟨S16384x256, .f32⟩
  | 104 => ⟨S16384x256, .f32⟩
  | 105 => ⟨S16384x1, .f32⟩
  | 106 => ⟨S1x1, .f32⟩
  | 107 => ⟨S16384x1, .f32⟩
  | 108 => ⟨S16384x1, .f32⟩
  | 109 => ⟨S_, .f32⟩
  | 110 => ⟨S_, .f32⟩
  | 111 => ⟨S_, .f32⟩
  | 112 => ⟨S16384x1, .f32⟩
  | 113 => ⟨S16384x256, .f32⟩
  | 114 => ⟨S16384x256, .f32⟩
  | 115 => ⟨S16384x256, .f32⟩
  | 116 => ⟨S16384x256, .f32⟩
  | 117 => ⟨S16384x256, .f32⟩
  | 118 => ⟨S16384x256, .f32⟩
  | 119 => ⟨S16384x256, .f32⟩
  | 120 => ⟨S16384x256, .f32⟩
  | 121 => ⟨S16384x1024, .f32⟩
  | 122 => ⟨S_, .f32⟩
  | 123 => ⟨S_, .f32⟩
  | 124 => ⟨S_, .f32⟩
  | 125 => ⟨S16384x512, .f32⟩
  | 126 => ⟨S16384x512, .f32⟩
  | 127 => ⟨S16384x512, .f32⟩
  | _ => ⟨S16384x512, .f32⟩

abbrev hbmTy0_2 (i : Nat) : BufTy := match i % 128 with
  | 0 => ⟨S16384x512, .f32⟩
  | 1 => ⟨S16384x1024, .f32⟩
  | 2 => ⟨S16384x512, .f32⟩
  | 3 => ⟨S16384x512, .f32⟩
  | 4 => ⟨S16384x1024, .f32⟩
  | 5 => ⟨S16384x256, .f32⟩
  | 6 => ⟨S1x256, .f32⟩
  | 7 => ⟨S16384x256, .f32⟩
  | 8 => ⟨S16384x256, .f32⟩
  | 9 => ⟨S16384x256, .f32⟩
  | 10 => ⟨S_, .f32⟩
  | 11 => ⟨S16384x256, .f32⟩
  | 12 => ⟨S16384x256, .f32⟩
  | 13 => ⟨S16384x256, .f32⟩
  | 14 => ⟨S1x256, .f32⟩
  | 15 => ⟨S16384x256, .f32⟩
  | 16 => ⟨S16384x256, .f32⟩
  | 17 => ⟨S16384x256, .f32⟩
  | 18 => ⟨S_, .f32⟩
  | 19 => ⟨S16384x256, .f32⟩
  | 20 => ⟨S16384x256, .f32⟩
  | 21 => ⟨S16384x1, .f32⟩
  | 22 => ⟨S1x1, .f32⟩
  | 23 => ⟨S16384x1, .f32⟩
  | 24 => ⟨S16384x1, .f32⟩
  | 25 => ⟨S_, .f32⟩
  | 26 => ⟨S_, .f32⟩
  | 27 => ⟨S_, .f32⟩
  | 28 => ⟨S16384x1, .f32⟩
  | 29 => ⟨S16384x256, .f32⟩
  | 30 => ⟨S16384x256, .f32⟩
  | 31 => ⟨S16384x256, .f32⟩
  | 32 => ⟨S16384x256, .f32⟩
  | 33 => ⟨S16384x256, .f32⟩
  | 34 => ⟨S16384x256, .f32⟩
  | 35 => ⟨S16384x256, .f32⟩
  | 36 => ⟨S16384x256, .f32⟩
  | 37 => ⟨S16384x1024, .f32⟩
  | 38 => ⟨S_, .f32⟩
  | 39 => ⟨S_, .f32⟩
  | 40 => ⟨S_, .f32⟩
  | 41 => ⟨S16384x512, .f32⟩
  | 42 => ⟨S16384x512, .f32⟩
  | 43 => ⟨S16384x512, .f32⟩
  | 44 => ⟨S16384x512, .f32⟩
  | 45 => ⟨S16384x1024, .f32⟩
  | 46 => ⟨S16384x256, .f32⟩
  | 47 => ⟨S1x256, .f32⟩
  | 48 => ⟨S16384x256, .f32⟩
  | 49 => ⟨S16384x256, .f32⟩
  | 50 => ⟨S16384x256, .f32⟩
  | 51 => ⟨S_, .f32⟩
  | 52 => ⟨S16384x256, .f32⟩
  | 53 => ⟨S16384x256, .f32⟩
  | 54 => ⟨S16384x256, .f32⟩
  | 55 => ⟨S1x256, .f32⟩
  | 56 => ⟨S16384x256, .f32⟩
  | 57 => ⟨S16384x256, .f32⟩
  | 58 => ⟨S16384x256, .f32⟩
  | 59 => ⟨S_, .f32⟩
  | 60 => ⟨S16384x256, .f32⟩
  | 61 => ⟨S16384x256, .f32⟩
  | 62 => ⟨S16384x1, .f32⟩
  | 63 => ⟨S1x1, .f32⟩
  | 64 => ⟨S16384x1, .f32⟩
  | 65 => ⟨S16384x1, .f32⟩
  | 66 => ⟨S_, .f32⟩
  | 67 => ⟨S_, .f32⟩
  | 68 => ⟨S_, .f32⟩
  | 69 => ⟨S16384x1, .f32⟩
  | 70 => ⟨S16384x256, .f32⟩
  | 71 => ⟨S16384x256, .f32⟩
  | 72 => ⟨S16384x256, .f32⟩
  | 73 => ⟨S16384x256, .f32⟩
  | 74 => ⟨S16384x256, .f32⟩
  | 75 => ⟨S16384x256, .f32⟩
  | 76 => ⟨S16384x256, .f32⟩
  | 77 => ⟨S16384x256, .f32⟩
  | 78 => ⟨S16384x1024, .f32⟩
  | 79 => ⟨S16384x512, .f32⟩
  | 80 => ⟨S_, .f32⟩
  | 81 => ⟨S16384x512, .f32⟩
  | 82 => ⟨S16384x512, .f32⟩
  | 83 => ⟨S16384x512, .f32⟩
  | 84 => ⟨S16384x1024, .f32⟩
  | 85 => ⟨S16384x256, .f32⟩
  | 86 => ⟨S1x256, .f32⟩
  | 87 => ⟨S16384x256, .f32⟩
  | 88 => ⟨S16384x256, .f32⟩
  | 89 => ⟨S16384x256, .f32⟩
  | 90 => ⟨S_, .f32⟩
  | 91 => ⟨S16384x256, .f32⟩
  | 92 => ⟨S16384x256, .f32⟩
  | 93 => ⟨S16384x256, .f32⟩
  | 94 => ⟨S1x256, .f32⟩
  | 95 => ⟨S16384x256, .f32⟩
  | 96 => ⟨S16384x256, .f32⟩
  | 97 => ⟨S16384x256, .f32⟩
  | 98 => ⟨S_, .f32⟩
  | 99 => ⟨S16384x256, .f32⟩
  | 100 => ⟨S16384x256, .f32⟩
  | 101 => ⟨S16384x1, .f32⟩
  | 102 => ⟨S1x1, .f32⟩
  | 103 => ⟨S16384x1, .f32⟩
  | 104 => ⟨S16384x1, .f32⟩
  | 105 => ⟨S_, .f32⟩
  | 106 => ⟨S_, .f32⟩
  | 107 => ⟨S_, .f32⟩
  | 108 => ⟨S16384x1, .f32⟩
  | 109 => ⟨S16384x256, .f32⟩
  | 110 => ⟨S16384x256, .f32⟩
  | 111 => ⟨S16384x256, .f32⟩
  | 112 => ⟨S16384x256, .f32⟩
  | 113 => ⟨S16384x256, .f32⟩
  | 114 => ⟨S16384x256, .f32⟩
  | 115 => ⟨S16384x256, .f32⟩
  | 116 => ⟨S16384x256, .f32⟩
  | 117 => ⟨S16384x1024, .f32⟩
  | 118 => ⟨S_, .f32⟩
  | 119 => ⟨S_, .f32⟩
  | 120 => ⟨S_, .f32⟩
  | 121 => ⟨S16384x512, .f32⟩
  | 122 => ⟨S16384x512, .f32⟩
  | 123 => ⟨S16384x512, .f32⟩
  | 124 => ⟨S16384x512, .f32⟩
  | 125 => ⟨S16384x1024, .f32⟩
  | 126 => ⟨S16384x512, .f32⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_13 : Ref sig .tc := ⟨.hbm, 113, rfl⟩
abbrev main_v92 : Ref sig .tc := ⟨.hbm, 114, rfl⟩
abbrev main_cst_14 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_15 : Ref sig .tc := ⟨.hbm, 126, rfl⟩
abbrev main_cst_16 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_17 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_18 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_cst_19 : Ref sig .tc := ⟨.hbm, 157, rfl⟩
abbrev main_v130 : Ref sig .tc := ⟨.hbm, 158, rfl⟩
abbrev main_cst_20 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_21 : Ref sig .tc := ⟨.hbm, 170, rfl⟩
abbrev main_cst_22 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_23 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_cst_24 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_cst_25 : Ref sig .tc := ⟨.hbm, 198, rfl⟩
abbrev main_v165 : Ref sig .tc := ⟨.hbm, 199, rfl⟩
abbrev main_cst_26 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_cst_27 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_cst_28 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_cst_29 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_cst_30 : Ref sig .tc := ⟨.hbm, 237, rfl⟩
abbrev main_v199 : Ref sig .tc := ⟨.hbm, 238, rfl⟩
abbrev main_cst_31 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_cst_32 : Ref sig .tc := ⟨.hbm, 250, rfl⟩
abbrev main_cst_33 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_cst_34 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_cst_35 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_cst_36 : Ref sig .tc := ⟨.hbm, 281, rfl⟩
abbrev main_v237 : Ref sig .tc := ⟨.hbm, 282, rfl⟩
abbrev main_cst_37 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_cst_38 : Ref sig .tc := ⟨.hbm, 294, rfl⟩
abbrev main_cst_39 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_cst_40 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_cst_41 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_cst_42 : Ref sig .tc := ⟨.hbm, 322, rfl⟩
abbrev main_v272 : Ref sig .tc := ⟨.hbm, 323, rfl⟩
abbrev main_cst_43 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_cst_44 : Ref sig .tc := ⟨.hbm, 336, rfl⟩
abbrev main_v284 : Ref sig .tc := ⟨.hbm, 337, rfl⟩
abbrev main_v285 : Ref sig .tc := ⟨.hbm, 338, rfl⟩
abbrev main_v286 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_cst_45 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_cst_46 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_cst_47 : Ref sig .tc := ⟨.hbm, 361, rfl⟩
abbrev main_v306 : Ref sig .tc := ⟨.hbm, 362, rfl⟩
abbrev main_cst_48 : Ref sig .tc := ⟨.hbm, 363, rfl⟩
abbrev main_v307 : Ref sig .tc := ⟨.hbm, 364, rfl⟩
abbrev main_v308 : Ref sig .tc := ⟨.hbm, 365, rfl⟩
abbrev main_v309 : Ref sig .tc := ⟨.hbm, 366, rfl⟩
abbrev main_v310 : Ref sig .tc := ⟨.hbm, 367, rfl⟩
abbrev main_v311 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_cst_49 : Ref sig .tc := ⟨.hbm, 374, rfl⟩
abbrev main_cst_50 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩

abbrev nD : Nat := 1
abbrev τ : Topo := Topo.v7x

variable {F : FTy → Type} [FloatOps F]

class Facts₀ : Prop where
  bcast_S_S16384x512 : S_.BroadcastsInDim S16384x512 (![] : Fin 0 → Fin S16384x512.rank)
  concatenates_S16384x512_S16384x512_S16384x1024_d1 : Shape.Concatenates [S16384x512, S16384x512] S16384x1024 1
  slices_S16384x1024_S16384x512_0_0 : S16384x1024.Slices ![0, 0] S16384x512
  slices_S16384x1024_S16384x512_0_512 : S16384x1024.Slices ![0, 512] S16384x512
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S_d0_1 : S16384x1.ReducesTo [0, 1] S_
  h_S_ : 0 < S_.numel
  bcast_S_S16384x1 : S_.BroadcastsInDim S16384x1 (![] : Fin 0 → Fin S16384x1.rank)
  dot_S16384x1024_S1024x256_S16384x256_1_0_0_1_n_n_wf : DotDims.WF S16384x1024 S1024x256 S16384x256 [1] [0] [0] [1] [] []
  dot_S16384x256_S256x256_S16384x256_1_0_0_1_n_n_wf : DotDims.WF S16384x256 S256x256 S16384x256 [1] [0] [0] [1] [] []
  dot_S16384x256_S256x1_S16384x1_1_0_0_1_n_n_wf : DotDims.WF S16384x256 S256x1 S16384x1 [1] [0] [0] [1] [] []
  dot_S16384x1_S256x1_S16384x256_1_1_0_0_n_n_wf : DotDims.WF S16384x1 S256x1 S16384x256 [1] [1] [0] [0] [] []
  dot_S16384x256_S256x256_S16384x256_1_1_0_0_n_n_wf : DotDims.WF S16384x256 S256x256 S16384x256 [1] [1] [0] [0] [] []
  dot_S16384x256_S1024x256_S16384x1024_1_1_0_0_n_n_wf : DotDims.WF S16384x256 S1024x256 S16384x1024 [1] [1] [0] [0] [] []

variable [Facts₀]

def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S16384x1_S256x1_S16384x256_1_1_0_0_n_n : DotDims S16384x1 S256x1 S16384x256 where
  lhsContracting := [1]
  rhsContracting := [1]
  lhsNonContracting := [0]
  rhsNonContracting := [0]
  lhsBatch := []
  rhsBatch := []
  wf := dot_S16384x1_S256x1_S16384x256_1_1_0_0_n_n_wf
def dot_S16384x256_S256x256_S16384x256_1_1_0_0_n_n : DotDims S16384x256 S256x256 S16384x256 where
  lhsContracting := [1]
  rhsContracting := [1]
  lhsNonContracting := [0]
  rhsNonContracting := [0]
  lhsBatch := []
  rhsBatch := []
  wf := dot_S16384x256_S256x256_S16384x256_1_1_0_0_n_n_wf
def dot_S16384x256_S1024x256_S16384x1024_1_1_0_0_n_n : DotDims S16384x256 S1024x256 S16384x1024 where
  lhsContracting := [1]
  rhsContracting := [1]
  lhsNonContracting := [0]
  rhsNonContracting := [0]
  lhsBatch := []
  rhsBatch := []
  wf := dot_S16384x256_S1024x256_S16384x1024_1_1_0_0_n_n_wf

class Facts : Prop extends Facts₀ where

variable [Facts]
-- ==== Proof.KernelRun.lean ====
/-
  The idealized kernel program's run with its result NAMED: every weakly fair execution of the whole program — ten
  stretches of host operations around nine launches of the gradient kernel — terminates without a fault, the result
  array holding the last boundary's contents of its buffer (the fold of every host stretch and every launch's
  write-backs over the launch memory), the seven argument arrays as launched.  The launch, the segments and the
  thread states are those of the frame; only the fact read off the final state is larger.
-/
import proofs.«124128_j83270825935573_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v78) = W19 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v78 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c)⟩)

end Cert.KernelIdeal.Whole

end
-- ==== Proof.RefGradDef.lean ====
/-
  One gradient call of the reference, as whole-array functions of the phase-space array `zp` and the weights:
  the two hidden layers  h1 = tanh(zp·W1 + b1),  h2 = tanh(h1·W2 + b2),  and the cotangents that automatic
  differentiation of  Σ (h2·W3 + b3)  sends back through them.  A tanh of value a turns a cotangent g into
  g·(1 − a) + (g·(1 − a))·a;  the seed is the all-ones column contracted with W3 along its unit axis.
  `refD2` and `refD1` hold the factor g·(1 − a) of each layer; the gradient contracts the completed cotangent with W1.
-/
import proofs.«124128_j83270825935573_1_alg».proof.ReferenceIdeal

noncomputable section

namespace Cert.RefGrad

open Idealize.ShloMosaic Cert.ReferenceIdeal Cert.ReferenceIdeal.Facts₀ Cert.ReferenceIdeal.Facts

variable {F : FTy → Type} [FloatOps F] [Cert.ReferenceIdeal.Facts]

/-- First hidden layer, every sample. -/
def refH1 (zp : FVec F S16384x1024 .f32) (W1 : FVec F S1024x256 .f32) (b1 : FVec F S256 .f32) : FVec F S16384x256 .f32 :=
  Host.tanh (addf (Host.dotGeneral dot_S16384x1024_S1024x256_S16384x256_1_0_0_1_n_n none zp W1) (broadcastInDim S16384x256 ![0, 1] bcast_S1x256_S16384x256_0_1 (broadcastInDim S1x256 ![1] bcast_S256_S1x256_1 b1)))

/-- Second hidden layer, from the first. -/
def refH2 (h1 : FVec F S16384x256 .f32) (W2 : FVec F S256x256 .f32) (b2 : FVec F S256 .f32) : FVec F S16384x256 .f32 :=
  Host.tanh (addf (Host.dotGeneral dot_S16384x256_S256x256_S16384x256_1_0_0_1_n_n none h1 W2) (broadcastInDim S16384x256 ![0, 1] bcast_S1x256_S16384x256_0_1 (broadcastInDim S1x256 ![1] bcast_S256_S1x256_1 b2)))

/-- The seed cotangent times (1 − h2). -/
def refD2 (h2 : FVec F S16384x256 .f32) (W3 : FVec F S256x1 .f32) : FVec F S16384x256 .f32 :=
  mulf (Host.dotGeneral dot_S16384x1_S256x1_S16384x256_1_1_0_0_n_n none (broadcastInDim S16384x1 ![] bcast_S_S16384x1 (constant S_ .f32 0x3F800000#32)) W3) (subf (broadcastInDim S16384x256 ![] bcast_S_S16384x256 (constant S_ .f32 0x3F800000#32)) h2)

/-- The cotangent arriving at the first layer times (1 − h1). -/
def refD1 (d2 h2 h1 : FVec F S16384x256 .f32) (W2 : FVec F S256x256 .f32) : FVec F S16384x256 .f32 :=
  mulf (Host.dotGeneral dot_S16384x256_S256x256_S16384x256_1_1_0_0_n_n none (addf d2 (mulf d2 h2)) W2) (subf (broadcastInDim S16384x256 ![] bcast_S_S16384x256 (constant S_ .f32 0x3F800000#32)) h1)

/-- The gradient with respect to `zp`, from the first layer's cotangent factor. -/
def refOut (d1 h1 : FVec F S16384x256 .f32) (W1 : FVec F S1024x256 .f32) : FVec F S16384x1024 .f32 :=
  Host.dotGeneral dot_S16384x256_S1024x256_S16384x1024_1_1_0_0_n_n none (addf d1 (mulf d1 h1)) W1

/-- One whole gradient call. -/
def refGrad (zp : FVec F S16384x1024 .f32) (W1 : FVec F S1024x256 .f32) (b1 : FVec F S256 .f32)
    (W2 : FVec F S256x256 .f32) (b2 : FVec F S256 .f32) (W3 : FVec F S256x1 .f32) : FVec F S16384x1024 .f32 :=
  refOut (refD1 (refD2 (refH2 (refH1 zp W1 b1) W2 b2) W3) (refH2 (refH1 zp W1 b1) W2 b2) (refH1 zp W1 b1) W2) (refH1 zp W1 b1) W1

end Cert.RefGrad

end
-- ==== Proof.RowGrad.lean ====
/-
  One sample's gradient of the energy  H(x) = W3ᵀ·tanh(W2ᵀ·tanh(W1ᵀ·x + b1) + b2) + b3  with respect to x, on the
  extended reals, written the two ways the two programs compute it.

  Forward, both ways:  h1 = tanh(xᵀW1 + b1),  h2 = tanh(h1ᵀW2 + b2).
  Backward through a tanh whose value is `a`, with incoming cotangent `g`:
    * analytic form      g · (1 − a·a)                      (`dK`),
    * differentiated form g·(1 − a) + (g·(1 − a))·a          (`dR`),
  and the seed cotangent of the last (linear) layer is W3 itself (`w3 l`) in the first form and `1 · w3 l` in the second.
  The first form contracts against the transposed weight matrices handed to it (`W2T`, `W1T`); the second contracts the
  weight matrices along their second axis.  The constant 1 is kept as the float word both programs print (`c1`).
-/
import Idealize.ShloMosaic.PureOps.Ideal

noncomputable section

namespace Cert.RowGrad

open Idealize.ShloMosaic

/-- The float word of 1.0 at the ideal instance. -/
def c1 : EReal := Ideal.ofBits .f32 0x3F800000#32

/-- Cotangent through a tanh of value `a`, analytic form. -/
def dK (g a : EReal) : EReal := g * (c1 - a * a)

/-- Cotangent through a tanh of value `a`, the form automatic differentiation emits. -/
def dR (g a : EReal) : EReal := g * (c1 - a) + g * (c1 - a) * a

variable (x : Fin 1024 → EReal) (W1 : Fin 1024 → Fin 256 → EReal) (b1 : Fin 256 → EReal)
  (W2 : Fin 256 → Fin 256 → EReal) (b2 : Fin 256 → EReal) (w3 : Fin 256 → EReal)

/-- First hidden layer of one sample. -/
def h1 (j : Fin 256) : EReal := Ideal.tanh ((∑ k : Fin 1024, x k * W1 k j) + b1 j)

/-- Second hidden layer of one sample. -/
def h2 (j : Fin 256) : EReal := Ideal.tanh ((∑ k : Fin 256, h1 x W1 b1 k * W2 k j) + b2 j)

/-- The gradient of one sample, analytic form, against transposed weights `W2T l j`, `W1T j i`. -/
def rowK (W2T : Fin 256 → Fin 256 → EReal) (W1T : Fin 256 → Fin 1024 → EReal) (i : Fin 1024) : EReal :=
  ∑ j : Fin 256, dK (∑ l : Fin 256, dK (w3 l) (h2 x W1 b1 W2 b2 l) * W2T l j) (h1 x W1 b1 j) * W1T j i

/-- The gradient of one sample, differentiated form, contracting `W2 j l` and `W1 i j` along their second axis. -/
def rowR (i : Fin 1024) : EReal :=
  ∑ j : Fin 256, dR (∑ l : Fin 256, dR (c1 * w3 l) (h2 x W1 b1 W2 b2 l) * W2 j l) (h1 x W1 b1 j) * W1 i j

end Cert.RowGrad

end
-- ==== Proof.GKDef.lean ====
/-
  The gradient of the summed energy at a whole phase-space array, in the analytic form: row b of the result is the
  one-sample gradient (`Cert.RowGrad.rowK`) of row b of the array, every row against the same weights.  The weights
  arrive as the kernel receives them: W1 and its transpose, W2 and its transpose, and b1, b2, W3 as single rows.
-/
import proofs.«124128_j83270825935573_1_alg».proof.Proof.RowGrad
import Idealize.ShloMosaic.Lib.ValueIdx

noncomputable section

namespace Cert.GK

open Idealize.ShloMosaic Idealize.ShloMosaic.ValueIdx

/-- Row `i 0`, column `i 1` of the gradient array. -/
def GK (zp : (⟨2, ![16384, 1024]⟩ : Shape).Idx → EReal) (w1 : (⟨2, ![1024, 256]⟩ : Shape).Idx → EReal)
    (w1t : (⟨2, ![256, 1024]⟩ : Shape).Idx → EReal) (w2 w2t : (⟨2, ![256, 256]⟩ : Shape).Idx → EReal)
    (b1 b2 w3 : (⟨2, ![1, 256]⟩ : Shape).Idx → EReal) : (⟨2, ![16384, 1024]⟩ : Shape).Idx → EReal :=
  fun i => Cert.RowGrad.rowK (fun k => zp (ix2 (i 0) k)) (fun k j => w1 (ix2 k j)) (fun j => b1 (ix2 0 j))
    (fun k j => w2 (ix2 k j)) (fun j => b2 (ix2 0 j)) (fun j => w3 (ix2 0 j)) (fun l j => w2t (ix2 l j))
    (fun j i' => w1t (ix2 j i')) (i 1)

/-- The same at explicit coordinates. -/
theorem GK_apply (zp : (⟨2, ![16384, 1024]⟩ : Shape).Idx → EReal) (w1 : (⟨2, ![1024, 256]⟩ : Shape).Idx → EReal)
    (w1t : (⟨2, ![256, 1024]⟩ : Shape).Idx → EReal) (w2 w2t : (⟨2, ![256, 256]⟩ : Shape).Idx → EReal)
    (b1 b2 w3 : (⟨2, ![1, 256]⟩ : Shape).Idx → EReal) (b : Fin 16384) (i : Fin 1024) :
    GK zp w1 w1t w2 w2t b1 b2 w3 (ix2 b i)
      = Cert.RowGrad.rowK (fun k => zp (ix2 b k)) (fun k j => w1 (ix2 k j)) (fun j => b1 (ix2 0 j))
          (fun k j => w2 (ix2 k j)) (fun j => b2 (ix2 0 j)) (fun j => w3 (ix2 0 j)) (fun l j => w2t (ix2 l j))
          (fun j i' => w1t (ix2 j i')) i := rfl

end Cert.GK

end
-- ==== Proof.RowGradLaw.lean ====
/-
  The two ways of writing one sample's gradient agree on the extended reals as soon as the weights of the second and
  third layers are real numbers.

  Both hidden layers are values of tanh, hence real whatever the input is.  The seed cotangent `w3 l` is real by
  hypothesis, so the cotangent through the second tanh is a real number and the two forms of it agree there
  (`g·(1 − a²) = g·(1 − a) + g·(1 − a)·a` is an identity of the real field; it fails on the extended reals at an
  infinite `g`).  A finite sum of real numbers against real weights is real, so the same identity applies at the first
  tanh.  The outer contraction is then termwise the same.
-/
import proofs.«124128_j83270825935573_1_alg».proof.Proof.RowGrad
import Mathlib.Data.EReal.Operations
import Mathlib.Tactic.Ring
import Mathlib.Tactic.NormNum

noncomputable section

namespace Cert.RowGrad

open Idealize.ShloMosaic

/-- The float word of 1.0 denotes `1`. -/
theorem c1_eq : c1 = 1 := by
  simp [c1, Ideal.ofBits, Ideal.ieee, -EReal.coe_mul]; norm_num

/-- A value of tanh is a real number, at the infinities too. -/
theorem tanh_real (x : EReal) : ∃ r : ℝ, Ideal.tanh x = (r : EReal) := by
  induction x using EReal.rec with
  | bot => exact ⟨-1, by simp⟩
  | top => exact ⟨1, by simp⟩
  | coe r => exact ⟨Real.tanh r, by simp⟩

/-- On real arguments the differentiated form is a real number. -/
theorem dR_real (g a : ℝ) : dR (g : EReal) (a : EReal) = ((g * (1 - a) + g * (1 - a) * a : ℝ) : EReal) := by
  unfold dR
  rw [c1_eq, ← EReal.coe_one]
  simp only [← EReal.coe_mul, ← EReal.coe_sub, ← EReal.coe_add]

/-- On real arguments the two forms of the cotangent through a tanh agree. -/
theorem dK_eq_dR (g a : ℝ) : dK (g : EReal) (a : EReal) = dR (g : EReal) (a : EReal) := by
  rw [dR_real]
  unfold dK
  rw [c1_eq, ← EReal.coe_one]
  simp only [← EReal.coe_mul, ← EReal.coe_sub, ← EReal.coe_add]
  congr 1
  ring

/-- A finite sum of real numbers is a real number. -/
theorem sum_real {ι : Type*} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- With real second- and third-layer weights the two forms of one sample's gradient are the same function. -/
theorem rowK_eq_rowR (x : Fin 1024 → EReal) (W1 : Fin 1024 → Fin 256 → EReal) (b1 : Fin 256 → EReal)
    (W2 : Fin 256 → Fin 256 → EReal) (b2 : Fin 256 → EReal) (w3 : Fin 256 → EReal)
    (hW2 : ∀ i j, ∃ r : ℝ, W2 i j = (r : EReal)) (hw3 : ∀ j, ∃ r : ℝ, w3 j = (r : EReal)) :
    rowK x W1 b1 W2 b2 w3 (fun l j => W2 j l) (fun j i => W1 i j) = rowR x W1 b1 W2 b2 w3 := by
  -- the second-layer cotangent, the same in both forms, and real
  have hin : ∀ l, dK (w3 l) (h2 x W1 b1 W2 b2 l) = dR (c1 * w3 l) (h2 x W1 b1 W2 b2 l) ∧
      ∃ r : ℝ, dR (c1 * w3 l) (h2 x W1 b1 W2 b2 l) = (r : EReal) := by
    intro l
    obtain ⟨g, hg⟩ := hw3 l
    obtain ⟨a, ha⟩ : ∃ a : ℝ, h2 x W1 b1 W2 b2 l = (a : EReal) := tanh_real _
    rw [c1_eq, one_mul, hg, ha]
    exact ⟨dK_eq_dR g a, _, dR_real g a⟩
  funext i
  unfold rowK rowR
  refine Finset.sum_congr rfl fun j _ => ?_
  show dK (∑ l : Fin 256, dK (w3 l) (h2 x W1 b1 W2 b2 l) * W2 j l) (h1 x W1 b1 j) * W1 i j = _
  congr 1
  have hsum : (∑ l : Fin 256, dK (w3 l) (h2 x W1 b1 W2 b2 l) * W2 j l)
      = ∑ l : Fin 256, dR (c1 * w3 l) (h2 x W1 b1 W2 b2 l) * W2 j l :=
    Finset.sum_congr rfl fun l _ => by rw [(hin l).1]
  rw [hsum]
  obtain ⟨s, hs⟩ := sum_real Finset.univ (fun l => dR (c1 * w3 l) (h2 x W1 b1 W2 b2 l) * W2 j l) (by
    intro l
    obtain ⟨r, hr⟩ := (hin l).2
    obtain ⟨q, hq⟩ := hW2 j l
    exact ⟨r * q, by rw [hr, hq, EReal.coe_mul]⟩)
  obtain ⟨a, ha⟩ : ∃ a : ℝ, h1 x W1 b1 j = (a : EReal) := tanh_real _
  rw [hs, ha]
  exact dK_eq_dR s a

end Cert.RowGrad

end
-- ==== Proof.RefGrad.lean ====
/-
  The reference's gradient of one call, read at one index (b, i): each host operation of the call read at an index,
  then the five layers assembled into the one-sample gradient in differentiated form.

  A product of matrices read at (a, b) is the sum over the one contracted coordinate of the products of the entries;
  a bias broadcast down the rows reads the bias at the column; a broadcast scalar reads the scalar everywhere; a sum
  over a one-element range is its one term.
-/
import proofs.«124128_j83270825935573_1_alg».proof.Proof.RefGradDef
import proofs.«124128_j83270825935573_1_alg».proof.Proof.RowGrad
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.RefGrad

open Idealize.ShloMosaic ValueIdx Cert.ReferenceIdeal Cert.ReferenceIdeal.Facts₀ Cert.ReferenceIdeal.Facts

/-! ## Matrix products and broadcasts at an index, at any extents -/

section Generic
variable {M K N : Nat}

/-- A product of an M×K by a K×N matrix, contracting the first's second axis with the second's first. -/
theorem dot_nn_apply {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims _ _ _) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an M×K matrix by the transpose of an N×K one: both second axes contracted. -/
theorem dot_nt_apply {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims _ _ _) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims _ _ _) K rfl rfl).symm]
  refine Finset.sum_congr rfl fun c _ => ?_
  have c2 := contrEquiv1_symm_val
    (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A vector of N entries as a one-row matrix. -/
theorem bcast_row_apply {α : Type} (h : (⟨1, ![N]⟩ : Shape).BroadcastsInDim ⟨2, ![1, N]⟩ ![1])
    (x : (⟨1, ![N]⟩ : Shape).Idx → α) (r : Fin 1) (t : Fin N) :
    broadcastInDim ⟨2, ![1, N]⟩ ![1] h x (ix2 r t) = x (ix1 t) := by
  refine broadcastInDim_apply ![1] h x (ix2 r t) (ix1 t) ?_
  intro a
  match a with
  | ⟨0, _⟩ =>
    show t.val = if N = 1 then 0 else t.val
    split
    · have := t.isLt; omega
    · rfl

end Generic

/-! ## The layers of one gradient call at an index -/

section Layers
variable [Cert.ReferenceIdeal.Facts]

open Cert.RowGrad (c1 dR)

/-- A bias vector laid along every row reads the bias at the column. -/
theorem bias_apply (v : FVec Ideal S256 .f32) (b : Fin 16384) (j : Fin 256) :
    broadcastInDim S16384x256 ![0, 1] bcast_S1x256_S16384x256_0_1 (broadcastInDim S1x256 ![1] bcast_S256_S1x256_1 v) (ix2 b j)
      = v (ix1 j) := by
  rw [broadcastInDim_oneRow_apply, bcast_row_apply]

/-- The broadcast constant reads the float word of one everywhere. -/
theorem ones256_apply (b : Fin 16384) (j : Fin 256) :
    broadcastInDim S16384x256 ![] bcast_S_S16384x256 (constant (F := Ideal) S_ .f32 0x3F800000#32) (ix2 b j) = c1 := by
  rw [broadcastInDim_scalar_apply]; rfl

theorem ones1_apply (b : Fin 16384) (j : Fin 1) :
    broadcastInDim S16384x1 ![] bcast_S_S16384x1 (constant (F := Ideal) S_ .f32 0x3F800000#32) (ix2 b j) = c1 := by
  rw [broadcastInDim_scalar_apply]; rfl

/-- First hidden layer at (b, j). -/
theorem refH1_apply (zp : FVec Ideal S16384x1024 .f32) (W1 : FVec Ideal S1024x256 .f32) (b1 : FVec Ideal S256 .f32)
    (b : Fin 16384) (j : Fin 256) :
    refH1 (F := Ideal) zp W1 b1 (ix2 b j)
      = Ideal.tanh ((∑ k : Fin 1024, zp (ix2 b k) * W1 (ix2 k j)) + b1 (ix1 j)) := by
  have hd : Host.dotGeneral dot_S16384x1024_S1024x256_S16384x256_1_0_0_1_n_n none zp W1 (ix2 b j)
      = ∑ k : Fin 1024, zp (ix2 b k) * W1 (ix2 k j) :=
    dot_nn_apply dot_S16384x1024_S1024x256_S16384x256_1_0_0_1_n_n_wf none zp W1 b j
  unfold refH1
  simp only [Host.tanh, Ideal.hostUnary_tanh_def, addf_apply]
  rw [hd, bias_apply]

/-- Second hidden layer at (b, j). -/
theorem refH2_apply (h1 : FVec Ideal S16384x256 .f32) (W2 : FVec Ideal S256x256 .f32) (b2 : FVec Ideal S256 .f32)
    (b : Fin 16384) (j : Fin 256) :
    refH2 (F := Ideal) h1 W2 b2 (ix2 b j)
      = Ideal.tanh ((∑ k : Fin 256, h1 (ix2 b k) * W2 (ix2 k j)) + b2 (ix1 j)) := by
  have hd : Host.dotGeneral dot_S16384x256_S256x256_S16384x256_1_0_0_1_n_n none h1 W2 (ix2 b j)
      = ∑ k : Fin 256, h1 (ix2 b k) * W2 (ix2 k j) :=
    dot_nn_apply dot_S16384x256_S256x256_S16384x256_1_0_0_1_n_n_wf none h1 W2 b j
  unfold refH2
  simp only [Host.tanh, Ideal.hostUnary_tanh_def, addf_apply]
  rw [hd, bias_apply]

/-- The seed cotangent times (1 − h2) at (b, l): the all-ones column contracted with W3 along the unit axes. -/
theorem refD2_apply (h2 : FVec Ideal S16384x256 .f32) (W3 : FVec Ideal S256x1 .f32) (b : Fin 16384) (l : Fin 256) :
    refD2 (F := Ideal) h2 W3 (ix2 b l) = (c1 * W3 (ix2 l 0)) * (c1 - h2 (ix2 b l)) := by
  have hd : Host.dotGeneral dot_S16384x1_S256x1_S16384x256_1_1_0_0_n_n none
        (broadcastInDim S16384x1 ![] bcast_S_S16384x1 (constant (F := Ideal) S_ .f32 0x3F800000#32)) W3 (ix2 b l)
      = ∑ c : Fin 1, broadcastInDim S16384x1 ![] bcast_S_S16384x1 (constant (F := Ideal) S_ .f32 0x3F800000#32) (ix2 b c)
          * W3 (ix2 l c) :=
    dot_nt_apply dot_S16384x1_S256x1_S16384x256_1_1_0_0_n_n_wf none _ W3 b l
  unfold refD2
  rw [mulf_apply, subf_apply, hd, Fin.sum_univ_one, ones1_apply, ones256_apply]

/-- The cotangent arriving at the first layer times (1 − h1) at (b, j). -/
theorem refD1_apply (d2 h2 h1 : FVec Ideal S16384x256 .f32) (W2 : FVec Ideal S256x256 .f32) (b : Fin 16384) (j : Fin 256) :
    refD1 (F := Ideal) d2 h2 h1 W2 (ix2 b j)
      = (∑ l : Fin 256, (d2 (ix2 b l) + d2 (ix2 b l) * h2 (ix2 b l)) * W2 (ix2 j l)) * (c1 - h1 (ix2 b j)) := by
  have hd : Host.dotGeneral dot_S16384x256_S256x256_S16384x256_1_1_0_0_n_n none (addf d2 (mulf d2 h2)) W2 (ix2 b j)
      = ∑ l : Fin 256, (addf d2 (mulf d2 h2)) (ix2 b l) * W2 (ix2 j l) :=
    dot_nt_apply dot_S16384x256_S256x256_S16384x256_1_1_0_0_n_n_wf none _ W2 b j
  unfold refD1
  rw [mulf_apply, subf_apply, hd, ones256_apply]
  simp only [addf_apply, mulf_apply]

/-- The gradient at (b, i) from the first layer's cotangent factor. -/
theorem refOut_apply (d1 h1 : FVec Ideal S16384x256 .f32) (W1 : FVec Ideal S1024x256 .f32) (b : Fin 16384) (i : Fin 1024) :
    refOut (F := Ideal) d1 h1 W1 (ix2 b i)
      = ∑ j : Fin 256, (d1 (ix2 b j) + d1 (ix2 b j) * h1 (ix2 b j)) * W1 (ix2 i j) := by
  have hd : Host.dotGeneral dot_S16384x256_S1024x256_S16384x1024_1_1_0_0_n_n none (addf d1 (mulf d1 h1)) W1 (ix2 b i)
      = ∑ j : Fin 256, (addf d1 (mulf d1 h1)) (ix2 b j) * W1 (ix2 i j) :=
    dot_nt_apply dot_S16384x256_S1024x256_S16384x1024_1_1_0_0_n_n_wf none _ W1 b i
  unfold refOut
  rw [hd]
  simp only [addf_apply, mulf_apply]

/-! ## One whole gradient call at an index -/

variable (zp : FVec Ideal S16384x1024 .f32) (W1 : FVec Ideal S1024x256 .f32) (b1 : FVec Ideal S256 .f32)
  (W2 : FVec Ideal S256x256 .f32) (b2 : FVec Ideal S256 .f32) (W3 : FVec Ideal S256x1 .f32)

/-- The first hidden layer of the call is the one-sample first layer of row b. -/
theorem refH1_eq_h1 (b : Fin 16384) (j : Fin 256) :
    refH1 (F := Ideal) zp W1 b1 (ix2 b j)
      = Cert.RowGrad.h1 (fun k => zp (ix2 b k)) (fun k j => W1 (ix2 k j)) (fun j => b1 (ix1 j)) j := by
  rw [refH1_apply]; rfl

/-- The second hidden layer of the call is the one-sample second layer of row b. -/
theorem refH2_eq_h2 (b : Fin 16384) (j : Fin 256) :
    refH2 (F := Ideal) (refH1 (F := Ideal) zp W1 b1) W2 b2 (ix2 b j)
      = Cert.RowGrad.h2 (fun k => zp (ix2 b k)) (fun k j => W1 (ix2 k j)) (fun j => b1 (ix1 j))
          (fun k j => W2 (ix2 k j)) (fun j => b2 (ix1 j)) j := by
  rw [refH2_apply]
  simp only [refH1_eq_h1]
  rfl

/-- The reference's gradient at (b, i) is the one-sample gradient of row b in differentiated form. -/
theorem refGrad_apply (b : Fin 16384) (i : Fin 1024) :
    refGrad (F := Ideal) zp W1 b1 W2 b2 W3 (ix2 b i)
      = Cert.RowGrad.rowR (fun k => zp (ix2 b k)) (fun k j => W1 (ix2 k j)) (fun j => b1 (ix1 j))
          (fun k j => W2 (ix2 k j)) (fun j => b2 (ix1 j)) (fun j => W3 (ix2 j 0)) i := by
  unfold refGrad
  rw [refOut_apply]
  unfold Cert.RowGrad.rowR
  refine Finset.sum_congr rfl fun j _ => ?_
  rw [refD1_apply, refH1_eq_h1]
  have hS : (∑ l : Fin 256,
        (refD2 (F := Ideal) (refH2 (F := Ideal) (refH1 (F := Ideal) zp W1 b1) W2 b2) W3 (ix2 b l)
          + refD2 (F := Ideal) (refH2 (F := Ideal) (refH1 (F := Ideal) zp W1 b1) W2 b2) W3 (ix2 b l)
            * refH2 (F := Ideal) (refH1 (F := Ideal) zp W1 b1) W2 b2 (ix2 b l)) * W2 (ix2 j l))
      = ∑ l : Fin 256, dR (c1 * W3 (ix2 l 0))
          (Cert.RowGrad.h2 (fun k => zp (ix2 b k)) (fun k j => W1 (ix2 k j)) (fun j => b1 (ix1 j))
            (fun k j => W2 (ix2 k j)) (fun j => b2 (ix1 j)) l) * W2 (ix2 j l) :=
    Finset.sum_congr rfl fun l _ => by rw [refD2_apply, refH2_eq_h2]; rfl
  rw [hS]
  rfl

end Layers

end Cert.RefGrad

end
-- ==== Proof.GKBridge.lean ====
/-
  The two forms of the whole-array gradient agree.  Row b of the analytic form is the one-sample analytic gradient of
  row b; entry (b, i) of the differentiated form is the one-sample differentiated gradient of row b.  With the weights
  handed to the analytic form being the differentiated form's weights (W1 and W2 also transposed, b1, b2, W3 as single
  rows), and the second- and third-layer weights real, the one-sample forms agree, hence the arrays.
-/
import proofs.«124128_j83270825935573_1_alg».proof.Proof.GKDef
import proofs.«124128_j83270825935573_1_alg».proof.Proof.RowGradLaw
import proofs.«124128_j83270825935573_1_alg».proof.Proof.RefGrad

noncomputable section

namespace Cert.GKBridge

open Idealize.ShloMosaic Idealize.ShloMosaic.ValueIdx Cert.ReferenceIdeal Cert.RefGrad

variable [Cert.ReferenceIdeal.Facts]

/-- The analytic whole-array gradient, on the prepared weights, is the reference's gradient call. -/
theorem GK_eq_refGrad (zp : FVec Ideal S16384x1024 .f32) (W1 : FVec Ideal S1024x256 .f32) (b1 : FVec Ideal S256 .f32)
    (W2 : FVec Ideal S256x256 .f32) (b2 : FVec Ideal S256 .f32) (W3 : FVec Ideal S256x1 .f32)
    (w1 : (⟨2, ![1024, 256]⟩ : Shape).Idx → EReal) (w1t : (⟨2, ![256, 1024]⟩ : Shape).Idx → EReal)
    (w2 w2t : (⟨2, ![256, 256]⟩ : Shape).Idx → EReal) (b1r b2r w3r : (⟨2, ![1, 256]⟩ : Shape).Idx → EReal)
    (hw1 : ∀ k j, w1 (ix2 k j) = W1 (ix2 k j)) (hw1t : ∀ j i, w1t (ix2 j i) = W1 (ix2 i j))
    (hw2 : ∀ k j, w2 (ix2 k j) = W2 (ix2 k j)) (hw2t : ∀ l j, w2t (ix2 l j) = W2 (ix2 j l))
    (hb1 : ∀ j, b1r (ix2 0 j) = b1 (ix1 j)) (hb2 : ∀ j, b2r (ix2 0 j) = b2 (ix1 j))
    (hw3 : ∀ j, w3r (ix2 0 j) = W3 (ix2 j 0))
    (fW2 : ∀ i, ∃ r : ℝ, W2 i = (r : EReal)) (fW3 : ∀ i, ∃ r : ℝ, W3 i = (r : EReal)) :
    Cert.GK.GK zp w1 w1t w2 w2t b1r b2r w3r = refGrad (F := Ideal) zp W1 b1 W2 b2 W3 := by
  funext i
  obtain ⟨b, i', rfl⟩ : ∃ (b : Fin 16384) (i' : Fin 1024), i = ix2 b i' := ⟨i 0, i 1, eq_ix2 i⟩
  rw [Cert.GK.GK_apply, refGrad_apply]
  simp only [hw1, hw1t, hw2, hw2t, hb1, hb2, hw3]
  exact congrFun (Cert.RowGrad.rowK_eq_rowR (fun k => zp (ix2 b k)) (fun k j => W1 (ix2 k j)) (fun j => b1 (ix1 j))
    (fun k j => W2 (ix2 k j)) (fun j => b2 (ix1 j)) (fun j => W3 (ix2 j 0))
    (fun i j => fW2 (ix2 i j)) (fun j => fW3 (ix2 j 0))) i'

end Cert.GKBridge

end
-- ==== Proof.Prep.lean ====
/-
  The weight preparation read at an index.  Before the kernel runs, the weights are rounded to the narrow format (the
  identity on the extended reals), W1 and W2 are transposed, and b1, b2, W3 are laid out as single rows:
    * a rounded array reads the operand at the same index,
    * a transposed matrix reads, at (j, i), the operand at (i, j),
    * a [256] array as a [1, 256] row reads, at (0, j), the operand at j,
    * a [256, 1] column as a [1, 256] row reads, at (0, j), the operand at (j, 0)
      (both indices have row-major position j).
-/
import proofs.«124128_j83270825935573_1_alg».proof.KernelIdeal
import Idealize.ShloMosaic.Lib.ValueIdx
import Idealize.ShloMosaic.Lib.ValueLayout
import Idealize.ShloMosaic.Lib.Pipeline.Value

noncomputable section

namespace Cert.Prep

open Idealize.ShloMosaic Idealize.ShloMosaic.ValueIdx Cert.KernelIdeal Cert.KernelIdeal.Facts₀ Cert.KernelIdeal.Facts

variable [Cert.KernelIdeal.Facts]

/-- W1 rounded reads W1. -/
theorem truncf_W1_apply (x : FVec Ideal S1024x256 .f32) (k : Fin 1024) (j : Fin 256) :
    (truncf .bf16 x bitsLt_bf16_f32 : FVec Ideal S1024x256 .bf16) (ix2 k j) = x (ix2 k j) := rfl

/-- W2 rounded reads W2. -/
theorem truncf_W2_apply (x : FVec Ideal S256x256 .f32) (k : Fin 256) (j : Fin 256) :
    (truncf .bf16 x bitsLt_bf16_f32 : FVec Ideal S256x256 .bf16) (ix2 k j) = x (ix2 k j) := rfl

/-- W1 transposed reads, at (j, i), W1 at (i, j). -/
theorem transpose_W1_apply (x : FVec Ideal S1024x256 .bf16) (j : Fin 256) (i : Fin 1024) :
    (transpose S256x1024 [1, 0] x transposes_S1024x256_S256x1024_1_0) (ix2 j i) = x (ix2 i j) :=
  transpose_ix2_apply x transposes_S1024x256_S256x1024_1_0 j i

/-- W2 transposed reads, at (l, j), W2 at (j, l). -/
theorem transpose_W2_apply (x : FVec Ideal S256x256 .bf16) (l : Fin 256) (j : Fin 256) :
    (transpose S256x256 [1, 0] x transposes_S256x256_S256x256_1_0) (ix2 l j) = x (ix2 j l) :=
  transpose_ix2_apply x transposes_S256x256_S256x256_1_0 l j

/-- A [256] array laid out as a [1, 256] row reads, at (0, j), the operand at j. -/
theorem reshape_row_apply (x : FVec Ideal S256 .f32) (j : Fin 256) :
    (shapeCast S1x256 x shapeCasts_S256_S1x256) (ix2 0 j) = x (ix1 j) :=
  shapeCast_a_1a_apply x shapeCasts_S256_S1x256 0 j

/-- A [256, 1] column laid out as a [1, 256] row reads, at (0, j), the operand at (j, 0). -/
theorem reshape_col_apply (x : FVec Ideal S256x1 .f32) (j : Fin 256) :
    (shapeCast S1x256 x shapeCasts_S256x1_S1x256) (ix2 0 j) = x (ix2 j 0) :=
  shapeCast_apply x shapeCasts_S256x1_S1x256 _ _ (by
    rw [Shape.rowMajor_val_two, Shape.rowMajor_val_two]
    show j.val * 1 + 0 = 0 * 256 + j.val
    omega)

end Cert.Prep

end
-- ==== Proof.Finite.lean ====
/-
  The precondition "every input is finite" read back for the weights of the second and third layers: a word of an
  array whose absolute value is below +∞ at every index is a real number.

  The predicate is the conjunction, over the seven argument arrays, of the reduction by `and` over all axes of the
  comparison |x| < +∞.  The conjunction being 1 gives each reduction 1; a reduction by `and` over all axes that is 1
  had a 1 at every index; and on the extended reals  max x (−x) < ⊤  excludes x = ⊤ and x = ⊥.
-/
import proofs.«124128_j83270825935573_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- The rank-0 shape has one index. -/
instance : Subsingleton S_.Idx := ⟨fun a b => funext fun d => d.elim0⟩

/-- The float word of +∞ denotes `⊤`. -/
theorem inf_eq : Ideal.ofBits .f32 0x7F800000#32 = ⊤ := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [inf_eq] at h
  induction x using EReal.rec with
  | bot => simp [Ideal.cmp] at h
  | top => simp [Ideal.cmp] at h
  | coe r => exact ⟨r, rfl⟩

variable [Facts]

/-- The precondition decoded at the fourth and sixth argument arrays. -/
theorem finite_a3_a5 (a0 : FVec Ideal S16384x512 .f32) (a1 : FVec Ideal S1024x256 .f32) (a2 : FVec Ideal S256 .f32)
    (a3 : FVec Ideal S256x256 .f32) (a4 : FVec Ideal S256 .f32) (a5 : FVec Ideal S256x1 .f32) (a6 : FVec Ideal S1 .f32)
    (h : fn (F := Ideal) a0 a1 a2 a3 a4 a5 a6 = fun _ => 1#1) :
    (∀ i, ∃ r : ℝ, a3 i = (r : EReal)) ∧ (∀ i, ∃ r : ℝ, a5 i = (r : EReal)) := by
  have e := congrFun h ValueIdx.ix0
  dsimp only [fn, fn_part1, andi] at e
  simp only [IntOp.andi_eq_one] at e
  obtain ⟨⟨⟨⟨-, h3⟩, -⟩, h5⟩, -⟩ := e
  exact ⟨fun i => real_of_abs_lt _ (Host.reduce_andi_all _ _ _ _ _ h3 i),
    fun i => real_of_abs_lt _ (Host.reduce_andi_all _ _ _ _ _ h5 i)⟩

/-- Every entry of the fourth argument array is a real number. -/
theorem finite_a3 (a0 : FVec Ideal S16384x512 .f32) (a1 : FVec Ideal S1024x256 .f32) (a2 : FVec Ideal S256 .f32)
    (a3 : FVec Ideal S256x256 .f32) (a4 : FVec Ideal S256 .f32) (a5 : FVec Ideal S256x1 .f32) (a6 : FVec Ideal S1 .f32)
    (h : fn (F := Ideal) a0 a1 a2 a3 a4 a5 a6 = fun _ => 1#1) : ∀ i, ∃ r : ℝ, a3 i = (r : EReal) :=
  (finite_a3_a5 a0 a1 a2 a3 a4 a5 a6 h).1

/-- Every entry of the sixth argument array is a real number. -/
theorem finite_a5 (a0 : FVec Ideal S16384x512 .f32) (a1 : FVec Ideal S1024x256 .f32) (a2 : FVec Ideal S256 .f32)
    (a3 : FVec Ideal S256x256 .f32) (a4 : FVec Ideal S256 .f32) (a5 : FVec Ideal S256x1 .f32) (a6 : FVec Ideal S1 .f32)
    (h : fn (F := Ideal) a0 a1 a2 a3 a4 a5 a6 = fun _ => 1#1) : ∀ i, ∃ r : ℝ, a5 i = (r : EReal) :=
  (finite_a3_a5 a0 a1 a2 a3 a4 a5 a6 h).2

end Cert.Finite

end
-- ==== Proof.ChainW.lean ====
/-
  The weights along the run of the kernel program, first part: what the weight preparation leaves, and the bridge to
  the reference's gradient.

  Before the first launch the host rounds W1 and W2 to the narrow format, transposes the rounded matrices, and lays
  b1, b2 and W3 out as single rows.  On the extended reals rounding is the identity, so the seven prepared buffers
  hold W1, W1ᵀ, W2, W2ᵀ and the rows b1, b2, W3ᵀ of the launch arguments.  The analytic whole-array gradient on those
  seven buffers is therefore the reference's gradient call on the launch arguments, the second- and third-layer weights
  being real numbers by the precondition.
-/
import proofs.«124128_j83270825935573_1_alg».proof.Proof.KernelRun
import proofs.«124128_j83270825935573_1_alg».proof.Proof.Gen.ReferenceIdeal
import proofs.«124128_j83270825935573_1_alg».proof.Proof.Gen.Pre_finite_inputs
import proofs.«124128_j83270825935573_1_alg».proof.Proof.RefGradDef
import proofs.«124128_j83270825935573_1_alg».proof.Proof.GKDef
import proofs.«124128_j83270825935573_1_alg».proof.Proof.GKBridge
import proofs.«124128_j83270825935573_1_alg».proof.Proof.Prep
import proofs.«124128_j83270825935573_1_alg».proof.Proof.Finite
import proofs.«124128_j83270825935573_1_alg».proof.Defs
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The reference's gradient call on core `c`'s launch weights, as a function of the phase-space array. -/
def Gm (c : Dev nD) (zp : FVec Ideal Cert.ReferenceIdeal.S16384x1024 .f32) :
    FVec Ideal Cert.ReferenceIdeal.S16384x1024 .f32 :=
  Cert.RefGrad.refGrad (F := Ideal) zp (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5))

/-! ## What the weight preparation leaves in each of the seven buffers -/

/-- W1 rounded. -/
theorem w1_v0 (c : Dev nD) : W1 m ρ c (Proc.devRef .tc main_v0)
    = (truncf .bf16 (m ((c.tc : Thread nD τ).loc main_arg1) : FVec Ideal S1024x256 .f32) Gen.bitsLt_bf16_f32 : FVec Ideal S1024x256 .bf16) := by
  show StableHlo.after hostOps0 (W0 m ρ c) (Proc.devRef .tc main_v0) = _
  after_results

/-- W2 rounded. -/
theorem w1_v1 (c : Dev nD) : W1 m ρ c (Proc.devRef .tc main_v1)
    = (truncf .bf16 (m ((c.tc : Thread nD τ).loc main_arg3) : FVec Ideal S256x256 .f32) Gen.bitsLt_bf16_f32 : FVec Ideal S256x256 .bf16) := by
  show StableHlo.after hostOps0 (W0 m ρ c) (Proc.devRef .tc main_v1) = _
  after_results

/-- W1 rounded, transposed. -/
theorem w1_v2 (c : Dev nD) : W1 m ρ c (Proc.devRef .tc main_v2)
    = (transpose S256x1024 [1, 0] (truncf .bf16 (m ((c.tc : Thread nD τ).loc main_arg1) : FVec Ideal S1024x256 .f32) Gen.bitsLt_bf16_f32 : FVec Ideal S1024x256 .bf16)
        Gen.transposes_S1024x256_S256x1024_1_0 : FVec Ideal S256x1024 .bf16) := by
  show StableHlo.after hostOps0 (W0 m ρ c) (Proc.devRef .tc main_v2) = _
  after_results

/-- W2 rounded, transposed. -/
theorem w1_v3 (c : Dev nD) : W1 m ρ c (Proc.devRef .tc main_v3)
    = (transpose S256x256 [1, 0] (truncf .bf16 (m ((c.tc : Thread nD τ).loc main_arg3) : FVec Ideal S256x256 .f32) Gen.bitsLt_bf16_f32 : FVec Ideal S256x256 .bf16)
        Gen.transposes_S256x256_S256x256_1_0 : FVec Ideal S256x256 .bf16) := by
  show StableHlo.after hostOps0 (W0 m ρ c) (Proc.devRef .tc main_v3) = _
  after_results

/-- b1 as a row. -/
theorem w1_v4 (c : Dev nD) : W1 m ρ c (Proc.devRef .tc main_v4)
    = shapeCast S1x256 (m ((c.tc : Thread nD τ).loc main_arg2)) Gen.shapeCasts_S256_S1x256 := by
  show StableHlo.after hostOps0 (W0 m ρ c) (Proc.devRef .tc main_v4) = _
  after_results
  rfl

/-- b2 as a row. -/
theorem w1_v5 (c : Dev nD) : W1 m ρ c (Proc.devRef .tc main_v5)
    = shapeCast S1x256 (m ((c.tc : Thread nD τ).loc main_arg4)) Gen.shapeCasts_S256_S1x256 := by
  show StableHlo.after hostOps0 (W0 m ρ c) (Proc.devRef .tc main_v5) = _
  after_results
  rfl

/-- W3 as a row. -/
theorem w1_v6 (c : Dev nD) : W1 m ρ c (Proc.devRef .tc main_v6)
    = shapeCast S1x256 (m ((c.tc : Thread nD τ).loc main_arg5)) Gen.shapeCasts_S256x1_S1x256 := by
  show StableHlo.after hostOps0 (W0 m ρ c) (Proc.devRef .tc main_v6) = _
  after_results
  rfl

/-! ## The bridge -/

/-- The analytic whole-array gradient on the seven prepared buffers is the reference's gradient call on the launch
    weights. -/
theorem bridge (hpre : Cert.Pre_KernelIdeal m) (c : Dev nD) (zp : FVec Ideal Cert.ReferenceIdeal.S16384x1024 .f32) :
    Cert.GK.GK zp (W1 m ρ c (Proc.devRef .tc main_v0)) (W1 m ρ c (Proc.devRef .tc main_v2))
      (W1 m ρ c (Proc.devRef .tc main_v1)) (W1 m ρ c (Proc.devRef .tc main_v3))
      (W1 m ρ c (Proc.devRef .tc main_v4)) (W1 m ρ c (Proc.devRef .tc main_v5))
      (W1 m ρ c (Proc.devRef .tc main_v6)) = Gm m c zp := by
  rw [w1_v0, w1_v1, w1_v2, w1_v3, w1_v4, w1_v5, w1_v6]
  exact Cert.GKBridge.GK_eq_refGrad zp (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) _ _ _ _ _ _ _
    (fun k j => Cert.Prep.truncf_W1_apply _ k j)
    (fun j i => (Cert.Prep.transpose_W1_apply _ j i).trans (Cert.Prep.truncf_W1_apply _ i j))
    (fun k j => Cert.Prep.truncf_W2_apply _ k j)
    (fun l j => (Cert.Prep.transpose_W2_apply _ l j).trans (Cert.Prep.truncf_W2_apply _ j l))
    (fun j => Cert.Prep.reshape_row_apply _ j)
    (fun j => Cert.Prep.reshape_row_apply _ j)
    (fun j => Cert.Prep.reshape_col_apply _ j)
    (Cert.Finite.finite_a3 _ _ _ _ _ _ _ (hpre c))
    (Cert.Finite.finite_a5 _ _ _ _ _ _ _ (hpre c))

end Cert.KernelIdeal.Chain

end
-- ==== Proof.ChainWk.lean ====
/-
  The weights along the run of the kernel program, second part: the seven prepared weight buffers hold at every
  region entry what the weight preparation left in them.

  Between two region entries a buffer passes one region and one stretch of host operations.  Each of the seven buffers
  is the array of an input window of every region, and an input window's array is never written back: at the region's
  exit it holds what it held at entry.  No host operation after the preparation writes one of the seven buffers, so a
  host stretch leaves them as they were.  Chaining the two facts from region entry j down to the first entry gives the
  table below, one line per (entry, buffer).
-/
import proofs.«124128_j83270825935573_1_alg».proof.Proof.KernelRun
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## Across a region: an input window's array leaves as it entered -/

theorem reg0_in (c : Dev nD) (w : Fin cfg0.W) (hin : (cfg0.win w).isOut = false) :
    W2 m ρ c (Proc.devRef .tc (Pipeline.arrRef spec0 w)) = W1 m ρ c (Proc.devRef .tc (Pipeline.arrRef spec0 w)) := by
  rw [W2_arr, Dat.arrAt_in _ w hin, A_eq0]

theorem reg1_in (c : Dev nD) (w : Fin cfg1.W) (hin : (cfg1.win w).isOut = false) :
    W4 m ρ c (Proc.devRef .tc (Pipeline.arrRef spec1 w)) = W3 m ρ c (Proc.devRef .tc (Pipeline.arrRef spec1 w)) := by
  rw [W4_arr, Dat.arrAt_in _ w hin, A_eq1]

theorem reg2_in (c : Dev nD) (w : Fin cfg2.W) (hin : (cfg2.win w).isOut = false) :
    W6 m ρ c (Proc.devRef .tc (Pipeline.arrRef spec2 w)) = W5 m ρ c (Proc.devRef .tc (Pipeline.arrRef spec2 w)) := by
  rw [W6_arr, Dat.arrAt_in _ w hin, A_eq2]

theorem reg3_in (c : Dev nD) (w : Fin cfg3.W) (hin : (cfg3.win w).isOut = false) :
    W8 m ρ c (Proc.devRef .tc (Pipeline.arrRef spec3 w)) = W7 m ρ c (Proc.devRef .tc (Pipeline.arrRef spec3 w)) := by
  rw [W8_arr, Dat.arrAt_in _ w hin, A_eq3]

theorem reg4_in (c : Dev nD) (w : Fin cfg4.W) (hin : (cfg4.win w).isOut = false) :
    W10 m ρ c (Proc.devRef .tc (Pipeline.arrRef spec4 w)) = W9 m ρ c (Proc.devRef .tc (Pipeline.arrRef spec4 w)) := by
  rw [W10_arr, Dat.arrAt_in _ w hin, A_eq4]

theorem reg5_in (c : Dev nD) (w : Fin cfg5.W) (hin : (cfg5.win w).isOut = false) :
    W12 m ρ c (Proc.devRef .tc (Pipeline.arrRef spec5 w)) = W11 m ρ c (Proc.devRef .tc (Pipeline.arrRef spec5 w)) := by
  rw [W12_arr, Dat.arrAt_in _ w hin, A_eq5]

theorem reg6_in (c : Dev nD) (w : Fin cfg6.W) (hin : (cfg6.win w).isOut = false) :
    W14 m ρ c (Proc.devRef .tc (Pipeline.arrRef spec6 w)) = W13 m ρ c (Proc.devRef .tc (Pipeline.arrRef spec6 w)) := by
  rw [W14_arr, Dat.arrAt_in _ w hin, A_eq6]

theorem reg7_in (c : Dev nD) (w : Fin cfg7.W) (hin : (cfg7.win w).isOut = false) :
    W16 m ρ c (Proc.devRef .tc (Pipeline.arrRef spec7 w)) = W15 m ρ c (Proc.devRef .tc (Pipeline.arrRef spec7 w)) := by
  rw [W16_arr, Dat.arrAt_in _ w hin, A_eq7]

/-! ## Across a host stretch: no operation writes a weight buffer -/

theorem host1_v0 (c : Dev nD) : W3 m ρ c (Proc.devRef .tc main_v0) = W2 m ρ c (Proc.devRef .tc main_v0) := by
  show StableHlo.after hostOps1 (W2 m ρ c) (Proc.devRef .tc main_v0) = _
  after_results

theorem host1_v1 (c : Dev nD) : W3 m ρ c (Proc.devRef .tc main_v1) = W2 m ρ c (Proc.devRef .tc main_v1) := by
  show StableHlo.after hostOps1 (W2 m ρ c) (Proc.devRef .tc main_v1) = _
  after_results

theorem host1_v2 (c : Dev nD) : W3 m ρ c (Proc.devRef .tc main_v2) = W2 m ρ c (Proc.devRef .tc main_v2) := by
  show StableHlo.after hostOps1 (W2 m ρ c) (Proc.devRef .tc main_v2) = _
  after_results

theorem host1_v3 (c : Dev nD) : W3 m ρ c (Proc.devRef .tc main_v3) = W2 m ρ c (Proc.devRef .tc main_v3) := by
  show StableHlo.after hostOps1 (W2 m ρ c) (Proc.devRef .tc main_v3) = _
  after_results

theorem host1_v4 (c : Dev nD) : W3 m ρ c (Proc.devRef .tc main_v4) = W2 m ρ c (Proc.devRef .tc main_v4) := by
  show StableHlo.after hostOps1 (W2 m ρ c) (Proc.devRef .tc main_v4) = _
  after_results

theorem host1_v5 (c : Dev nD) : W3 m ρ c (Proc.devRef .tc main_v5) = W2 m ρ c (Proc.devRef .tc main_v5) := by
  show StableHlo.after hostOps1 (W2 m ρ c) (Proc.devRef .tc main_v5) = _
  after_results

theorem host1_v6 (c : Dev nD) : W3 m ρ c (Proc.devRef .tc main_v6) = W2 m ρ c (Proc.devRef .tc main_v6) := by
  show StableHlo.after hostOps1 (W2 m ρ c) (Proc.devRef .tc main_v6) = _
  after_results

theorem host2_v0 (c : Dev nD) : W5 m ρ c (Proc.devRef .tc main_v0) = W4 m ρ c (Proc.devRef .tc main_v0) := by
  show StableHlo.after hostOps2 (W4 m ρ c) (Proc.devRef .tc main_v0) = _
  after_results

theorem host2_v1 (c : Dev nD) : W5 m ρ c (Proc.devRef .tc main_v1) = W4 m ρ c (Proc.devRef .tc main_v1) := by
  show StableHlo.after hostOps2 (W4 m ρ c) (Proc.devRef .tc main_v1) = _
  after_results

theorem host2_v2 (c : Dev nD) : W5 m ρ c (Proc.devRef .tc main_v2) = W4 m ρ c (Proc.devRef .tc main_v2) := by
  show StableHlo.after hostOps2 (W4 m ρ c) (Proc.devRef .tc main_v2) = _
  after_results

theorem host2_v3 (c : Dev nD) : W5 m ρ c (Proc.devRef .tc main_v3) = W4 m ρ c (Proc.devRef .tc main_v3) := by
  show StableHlo.after hostOps2 (W4 m ρ c) (Proc.devRef .tc main_v3) = _
  after_results

theorem host2_v4 (c : Dev nD) : W5 m ρ c (Proc.devRef .tc main_v4) = W4 m ρ c (Proc.devRef .tc main_v4) := by
  show StableHlo.after hostOps2 (W4 m ρ c) (Proc.devRef .tc main_v4) = _
  after_results

theorem host2_v5 (c : Dev nD) : W5 m ρ c (Proc.devRef .tc main_v5) = W4 m ρ c (Proc.devRef .tc main_v5) := by
  show StableHlo.after hostOps2 (W4 m ρ c) (Proc.devRef .tc main_v5) = _
  after_results

theorem host2_v6 (c : Dev nD) : W5 m ρ c (Proc.devRef .tc main_v6) = W4 m ρ c (Proc.devRef .tc main_v6) := by
  show StableHlo.after hostOps2 (W4 m ρ c) (Proc.devRef .tc main_v6) = _
  after_results

theorem host3_v0 (c : Dev nD) : W7 m ρ c (Proc.devRef .tc main_v0) = W6 m ρ c (Proc.devRef .tc main_v0) := by
  show StableHlo.after hostOps3 (W6 m ρ c) (Proc.devRef .tc main_v0) = _
  after_results

theorem host3_v1 (c : Dev nD) : W7 m ρ c (Proc.devRef .tc main_v1) = W6 m ρ c (Proc.devRef .tc main_v1) := by
  show StableHlo.after hostOps3 (W6 m ρ c) (Proc.devRef .tc main_v1) = _
  after_results

theorem host3_v2 (c : Dev nD) : W7 m ρ c (Proc.devRef .tc main_v2) = W6 m ρ c (Proc.devRef .tc main_v2) := by
  show StableHlo.after hostOps3 (W6 m ρ c) (Proc.devRef .tc main_v2) = _
  after_results

theorem host3_v3 (c : Dev nD) : W7 m ρ c (Proc.devRef .tc main_v3) = W6 m ρ c (Proc.devRef .tc main_v3) := by
  show StableHlo.after hostOps3 (W6 m ρ c) (Proc.devRef .tc main_v3) = _
  after_results

theorem host3_v4 (c : Dev nD) : W7 m ρ c (Proc.devRef .tc main_v4) = W6 m ρ c (Proc.devRef .tc main_v4) := by
  show StableHlo.after hostOps3 (W6 m ρ c) (Proc.devRef .tc main_v4) = _
  after_results

theorem host3_v5 (c : Dev nD) : W7 m ρ c (Proc.devRef .tc main_v5) = W6 m ρ c (Proc.devRef .tc main_v5) := by
  show StableHlo.after hostOps3 (W6 m ρ c) (Proc.devRef .tc main_v5) = _
  after_results

theorem host3_v6 (c : Dev nD) : W7 m ρ c (Proc.devRef .tc main_v6) = W6 m ρ c (Proc.devRef .tc main_v6) := by
  show StableHlo.after hostOps3 (W6 m ρ c) (Proc.devRef .tc main_v6) = _
  after_results

theorem host4_v0 (c : Dev nD) : W9 m ρ c (Proc.devRef .tc main_v0) = W8 m ρ c (Proc.devRef .tc main_v0) := by
  show StableHlo.after hostOps4 (W8 m ρ c) (Proc.devRef .tc main_v0) = _
  after_results

theorem host4_v1 (c : Dev nD) : W9 m ρ c (Proc.devRef .tc main_v1) = W8 m ρ c (Proc.devRef .tc main_v1) := by
  show StableHlo.after hostOps4 (W8 m ρ c) (Proc.devRef .tc main_v1) = _
  after_results

theorem host4_v2 (c : Dev nD) : W9 m ρ c (Proc.devRef .tc main_v2) = W8 m ρ c (Proc.devRef .tc main_v2) := by
  show StableHlo.after hostOps4 (W8 m ρ c) (Proc.devRef .tc main_v2) = _
  after_results

theorem host4_v3 (c : Dev nD) : W9 m ρ c (Proc.devRef .tc main_v3) = W8 m ρ c (Proc.devRef .tc main_v3) := by
  show StableHlo.after hostOps4 (W8 m ρ c) (Proc.devRef .tc main_v3) = _
  after_results

theorem host4_v4 (c : Dev nD) : W9 m ρ c (Proc.devRef .tc main_v4) = W8 m ρ c (Proc.devRef .tc main_v4) := by
  show StableHlo.after hostOps4 (W8 m ρ c) (Proc.devRef .tc main_v4) = _
  after_results

theorem host4_v5 (c : Dev nD) : W9 m ρ c (Proc.devRef .tc main_v5) = W8 m ρ c (Proc.devRef .tc main_v5) := by
  show StableHlo.after hostOps4 (W8 m ρ c) (Proc.devRef .tc main_v5) = _
  after_results

theorem host4_v6 (c : Dev nD) : W9 m ρ c (Proc.devRef .tc main_v6) = W8 m ρ c (Proc.devRef .tc main_v6) := by
  show StableHlo.after hostOps4 (W8 m ρ c) (Proc.devRef .tc main_v6) = _
  after_results

theorem host5_v0 (c : Dev nD) : W11 m ρ c (Proc.devRef .tc main_v0) = W10 m ρ c (Proc.devRef .tc main_v0) := by
  show StableHlo.after hostOps5 (W10 m ρ c) (Proc.devRef .tc main_v0) = _
  after_results

theorem host5_v1 (c : Dev nD) : W11 m ρ c (Proc.devRef .tc main_v1) = W10 m ρ c (Proc.devRef .tc main_v1) := by
  show StableHlo.after hostOps5 (W10 m ρ c) (Proc.devRef .tc main_v1) = _
  after_results

theorem host5_v2 (c : Dev nD) : W11 m ρ c (Proc.devRef .tc main_v2) = W10 m ρ c (Proc.devRef .tc main_v2) := by
  show StableHlo.after hostOps5 (W10 m ρ c) (Proc.devRef .tc main_v2) = _
  after_results

theorem host5_v3 (c : Dev nD) : W11 m ρ c (Proc.devRef .tc main_v3) = W10 m ρ c (Proc.devRef .tc main_v3) := by
  show StableHlo.after hostOps5 (W10 m ρ c) (Proc.devRef .tc main_v3) = _
  after_results

theorem host5_v4 (c : Dev nD) : W11 m ρ c (Proc.devRef .tc main_v4) = W10 m ρ c (Proc.devRef .tc main_v4) := by
  show StableHlo.after hostOps5 (W10 m ρ c) (Proc.devRef .tc main_v4) = _
  after_results

theorem host5_v5 (c : Dev nD) : W11 m ρ c (Proc.devRef .tc main_v5) = W10 m ρ c (Proc.devRef .tc main_v5) := by
  show StableHlo.after hostOps5 (W10 m ρ c) (Proc.devRef .tc main_v5) = _
  after_results

theorem host5_v6 (c : Dev nD) : W11 m ρ c (Proc.devRef .tc main_v6) = W10 m ρ c (Proc.devRef .tc main_v6) := by
  show StableHlo.after hostOps5 (W10 m ρ c) (Proc.devRef .tc main_v6) = _
  after_results

theorem host6_v0 (c : Dev nD) : W13 m ρ c (Proc.devRef .tc main_v0) = W12 m ρ c (Proc.devRef .tc main_v0) := by
  show StableHlo.after hostOps6 (W12 m ρ c) (Proc.devRef .tc main_v0) = _
  after_results

theorem host6_v1 (c : Dev nD) : W13 m ρ c (Proc.devRef .tc main_v1) = W12 m ρ c (Proc.devRef .tc main_v1) := by
  show StableHlo.after hostOps6 (W12 m ρ c) (Proc.devRef .tc main_v1) = _
  after_results

theorem host6_v2 (c : Dev nD) : W13 m ρ c (Proc.devRef .tc main_v2) = W12 m ρ c (Proc.devRef .tc main_v2) := by
  show StableHlo.after hostOps6 (W12 m ρ c) (Proc.devRef .tc main_v2) = _
  after_results

theorem host6_v3 (c : Dev nD) : W13 m ρ c (Proc.devRef .tc main_v3) = W12 m ρ c (Proc.devRef .tc main_v3) := by
  show StableHlo.after hostOps6 (W12 m ρ c) (Proc.devRef .tc main_v3) = _
  after_results

theorem host6_v4 (c : Dev nD) : W13 m ρ c (Proc.devRef .tc main_v4) = W12 m ρ c (Proc.devRef .tc main_v4) := by
  show StableHlo.after hostOps6 (W12 m ρ c) (Proc.devRef .tc main_v4) = _
  after_results

theorem host6_v5 (c : Dev nD) : W13 m ρ c (Proc.devRef .tc main_v5) = W12 m ρ c (Proc.devRef .tc main_v5) := by
  show StableHlo.after hostOps6 (W12 m ρ c) (Proc.devRef .tc main_v5) = _
  after_results

theorem host6_v6 (c : Dev nD) : W13 m ρ c (Proc.devRef .tc main_v6) = W12 m ρ c (Proc.devRef .tc main_v6) := by
  show StableHlo.after hostOps6 (W12 m ρ c) (Proc.devRef .tc main_v6) = _
  after_results

theorem host7_v0 (c : Dev nD) : W15 m ρ c (Proc.devRef .tc main_v0) = W14 m ρ c (Proc.devRef .tc main_v0) := by
  show StableHlo.after hostOps7 (W14 m ρ c) (Proc.devRef .tc main_v0) = _
  after_results

theorem host7_v1 (c : Dev nD) : W15 m ρ c (Proc.devRef .tc main_v1) = W14 m ρ c (Proc.devRef .tc main_v1) := by
  show StableHlo.after hostOps7 (W14 m ρ c) (Proc.devRef .tc main_v1) = _
  after_results

theorem host7_v2 (c : Dev nD) : W15 m ρ c (Proc.devRef .tc main_v2) = W14 m ρ c (Proc.devRef .tc main_v2) := by
  show StableHlo.after hostOps7 (W14 m ρ c) (Proc.devRef .tc main_v2) = _
  after_results

theorem host7_v3 (c : Dev nD) : W15 m ρ c (Proc.devRef .tc main_v3) = W14 m ρ c (Proc.devRef .tc main_v3) := by
  show StableHlo.after hostOps7 (W14 m ρ c) (Proc.devRef .tc main_v3) = _
  after_results

theorem host7_v4 (c : Dev nD) : W15 m ρ c (Proc.devRef .tc main_v4) = W14 m ρ c (Proc.devRef .tc main_v4) := by
  show StableHlo.after hostOps7 (W14 m ρ c) (Proc.devRef .tc main_v4) = _
  after_results

theorem host7_v5 (c : Dev nD) : W15 m ρ c (Proc.devRef .tc main_v5) = W14 m ρ c (Proc.devRef .tc main_v5) := by
  show StableHlo.after hostOps7 (W14 m ρ c) (Proc.devRef .tc main_v5) = _
  after_results

theorem host7_v6 (c : Dev nD) : W15 m ρ c (Proc.devRef .tc main_v6) = W14 m ρ c (Proc.devRef .tc main_v6) := by
  show StableHlo.after hostOps7 (W14 m ρ c) (Proc.devRef .tc main_v6) = _
  after_results

theorem host8_v0 (c : Dev nD) : W17 m ρ c (Proc.devRef .tc main_v0) = W16 m ρ c (Proc.devRef .tc main_v0) := by
  show StableHlo.after hostOps8 (W16 m ρ c) (Proc.devRef .tc main_v0) = _
  after_results

theorem host8_v1 (c : Dev nD) : W17 m ρ c (Proc.devRef .tc main_v1) = W16 m ρ c (Proc.devRef .tc main_v1) := by
  show StableHlo.after hostOps8 (W16 m ρ c) (Proc.devRef .tc main_v1) = _
  after_results

theorem host8_v2 (c : Dev nD) : W17 m ρ c (Proc.devRef .tc main_v2) = W16 m ρ c (Proc.devRef .tc main_v2) := by
  show StableHlo.after hostOps8 (W16 m ρ c) (Proc.devRef .tc main_v2) = _
  after_results

theorem host8_v3 (c : Dev nD) : W17 m ρ c (Proc.devRef .tc main_v3) = W16 m ρ c (Proc.devRef .tc main_v3) := by
  show StableHlo.after hostOps8 (W16 m ρ c) (Proc.devRef .tc main_v3) = _
  after_results

theorem host8_v4 (c : Dev nD) : W17 m ρ c (Proc.devRef .tc main_v4) = W16 m ρ c (Proc.devRef .tc main_v4) := by
  show StableHlo.after hostOps8 (W16 m ρ c) (Proc.devRef .tc main_v4) = _
  after_results

theorem host8_v5 (c : Dev nD) : W17 m ρ c (Proc.devRef .tc main_v5) = W16 m ρ c (Proc.devRef .tc main_v5) := by
  show StableHlo.after hostOps8 (W16 m ρ c) (Proc.devRef .tc main_v5) = _
  after_results

theorem host8_v6 (c : Dev nD) : W17 m ρ c (Proc.devRef .tc main_v6) = W16 m ρ c (Proc.devRef .tc main_v6) := by
  show StableHlo.after hostOps8 (W16 m ρ c) (Proc.devRef .tc main_v6) = _
  after_results

/-! ## The table: buffer X at region entry j is buffer X at the first entry -/
theorem wk3_v0 (c : Dev nD) : W3 m ρ c (Proc.devRef .tc main_v0) = W1 m ρ c (Proc.devRef .tc main_v0) :=
  (host1_v0 m ρ c).trans (reg0_in m ρ c (1 : Fin cfg0.W) rfl)
theorem wk3_v1 (c : Dev nD) : W3 m ρ c (Proc.devRef .tc main_v1) = W1 m ρ c (Proc.devRef .tc main_v1) :=
  (host1_v1 m ρ c).trans (reg0_in m ρ c (3 : Fin cfg0.W) rfl)
theorem wk3_v2 (c : Dev nD) : W3 m ρ c (Proc.devRef .tc main_v2) = W1 m ρ c (Proc.devRef .tc main_v2) :=
  (host1_v2 m ρ c).trans (reg0_in m ρ c (2 : Fin cfg0.W) rfl)
theorem wk3_v3 (c : Dev nD) : W3 m ρ c (Proc.devRef .tc main_v3) = W1 m ρ c (Proc.devRef .tc main_v3) :=
  (host1_v3 m ρ c).trans (reg0_in m ρ c (4 : Fin cfg0.W) rfl)
theorem wk3_v4 (c : Dev nD) : W3 m ρ c (Proc.devRef .tc main_v4) = W1 m ρ c (Proc.devRef .tc main_v4) :=
  (host1_v4 m ρ c).trans (reg0_in m ρ c (5 : Fin cfg0.W) rfl)
theorem wk3_v5 (c : Dev nD) : W3 m ρ c (Proc.devRef .tc main_v5) = W1 m ρ c (Proc.devRef .tc main_v5) :=
  (host1_v5 m ρ c).trans (reg0_in m ρ c (6 : Fin cfg0.W) rfl)
theorem wk3_v6 (c : Dev nD) : W3 m ρ c (Proc.devRef .tc main_v6) = W1 m ρ c (Proc.devRef .tc main_v6) :=
  (host1_v6 m ρ c).trans (reg0_in m ρ c (7 : Fin cfg0.W) rfl)
theorem wk5_v0 (c : Dev nD) : W5 m ρ c (Proc.devRef .tc main_v0) = W1 m ρ c (Proc.devRef .tc main_v0) :=
  (host2_v0 m ρ c).trans ((reg1_in m ρ c (1 : Fin cfg1.W) rfl).trans (wk3_v0 m ρ c))
theorem wk5_v1 (c : Dev nD) : W5 m ρ c (Proc.devRef .tc main_v1) = W1 m ρ c (Proc.devRef .tc main_v1) :=
  (host2_v1 m ρ c).trans ((reg1_in m ρ c (3 : Fin cfg1.W) rfl).trans (wk3_v1 m ρ c))
theorem wk5_v2 (c : Dev nD) : W5 m ρ c (Proc.devRef .tc main_v2) = W1 m ρ c (Proc.devRef .tc main_v2) :=
  (host2_v2 m ρ c).trans ((reg1_in m ρ c (2 : Fin cfg1.W) rfl).trans (wk3_v2 m ρ c))
theorem wk5_v3 (c : Dev nD) : W5 m ρ c (Proc.devRef .tc main_v3) = W1 m ρ c (Proc.devRef .tc main_v3) :=
  (host2_v3 m ρ c).trans ((reg1_in m ρ c (4 : Fin cfg1.W) rfl).trans (wk3_v3 m ρ c))
theorem wk5_v4 (c : Dev nD) : W5 m ρ c (Proc.devRef .tc main_v4) = W1 m ρ c (Proc.devRef .tc main_v4) :=
  (host2_v4 m ρ c).trans ((reg1_in m ρ c (5 : Fin cfg1.W) rfl).trans (wk3_v4 m ρ c))
theorem wk5_v5 (c : Dev nD) : W5 m ρ c (Proc.devRef .tc main_v5) = W1 m ρ c (Proc.devRef .tc main_v5) :=
  (host2_v5 m ρ c).trans ((reg1_in m ρ c (6 : Fin cfg1.W) rfl).trans (wk3_v5 m ρ c))
theorem wk5_v6 (c : Dev nD) : W5 m ρ c (Proc.devRef .tc main_v6) = W1 m ρ c (Proc.devRef .tc main_v6) :=
  (host2_v6 m ρ c).trans ((reg1_in m ρ c (7 : Fin cfg1.W) rfl).trans (wk3_v6 m ρ c))
theorem wk7_v0 (c : Dev nD) : W7 m ρ c (Proc.devRef .tc main_v0) = W1 m ρ c (Proc.devRef .tc main_v0) :=
  (host3_v0 m ρ c).trans ((reg2_in m ρ c (1 : Fin cfg2.W) rfl).trans (wk5_v0 m ρ c))
theorem wk7_v1 (c : Dev nD) : W7 m ρ c (Proc.devRef .tc main_v1) = W1 m ρ c (Proc.devRef .tc main_v1) :=
  (host3_v1 m ρ c).trans ((reg2_in m ρ c (3 : Fin cfg2.W) rfl).trans (wk5_v1 m ρ c))
theorem wk7_v2 (c : Dev nD) : W7 m ρ c (Proc.devRef .tc main_v2) = W1 m ρ c (Proc.devRef .tc main_v2) :=
  (host3_v2 m ρ c).trans ((reg2_in m ρ c (2 : Fin cfg2.W) rfl).trans (wk5_v2 m ρ c))
theorem wk7_v3 (c : Dev nD) : W7 m ρ c (Proc.devRef .tc main_v3) = W1 m ρ c (Proc.devRef .tc main_v3) :=
  (host3_v3 m ρ c).trans ((reg2_in m ρ c (4 : Fin cfg2.W) rfl).trans (wk5_v3 m ρ c))
theorem wk7_v4 (c : Dev nD) : W7 m ρ c (Proc.devRef .tc main_v4) = W1 m ρ c (Proc.devRef .tc main_v4) :=
  (host3_v4 m ρ c).trans ((reg2_in m ρ c (5 : Fin cfg2.W) rfl).trans (wk5_v4 m ρ c))
theorem wk7_v5 (c : Dev nD) : W7 m ρ c (Proc.devRef .tc main_v5) = W1 m ρ c (Proc.devRef .tc main_v5) :=
  (host3_v5 m ρ c).trans ((reg2_in m ρ c (6 : Fin cfg2.W) rfl).trans (wk5_v5 m ρ c))
theorem wk7_v6 (c : Dev nD) : W7 m ρ c (Proc.devRef .tc main_v6) = W1 m ρ c (Proc.devRef .tc main_v6) :=
  (host3_v6 m ρ c).trans ((reg2_in m ρ c (7 : Fin cfg2.W) rfl).trans (wk5_v6 m ρ c))
theorem wk9_v0 (c : Dev nD) : W9 m ρ c (Proc.devRef .tc main_v0) = W1 m ρ c (Proc.devRef .tc main_v0) :=
  (host4_v0 m ρ c).trans ((reg3_in m ρ c (1 : Fin cfg3.W) rfl).trans (wk7_v0 m ρ c))
theorem wk9_v1 (c : Dev nD) : W9 m ρ c (Proc.devRef .tc main_v1) = W1 m ρ c (Proc.devRef .tc main_v1) :=
  (host4_v1 m ρ c).trans ((reg3_in m ρ c (3 : Fin cfg3.W) rfl).trans (wk7_v1 m ρ c))
theorem wk9_v2 (c : Dev nD) : W9 m ρ c (Proc.devRef .tc main_v2) = W1 m ρ c (Proc.devRef .tc main_v2) :=
  (host4_v2 m ρ c).trans ((reg3_in m ρ c (2 : Fin cfg3.W) rfl).trans (wk7_v2 m ρ c))
theorem wk9_v3 (c : Dev nD) : W9 m ρ c (Proc.devRef .tc main_v3) = W1 m ρ c (Proc.devRef .tc main_v3) :=
  (host4_v3 m ρ c).trans ((reg3_in m ρ c (4 : Fin cfg3.W) rfl).trans (wk7_v3 m ρ c))
theorem wk9_v4 (c : Dev nD) : W9 m ρ c (Proc.devRef .tc main_v4) = W1 m ρ c (Proc.devRef .tc main_v4) :=
  (host4_v4 m ρ c).trans ((reg3_in m ρ c (5 : Fin cfg3.W) rfl).trans (wk7_v4 m ρ c))
theorem wk9_v5 (c : Dev nD) : W9 m ρ c (Proc.devRef .tc main_v5) = W1 m ρ c (Proc.devRef .tc main_v5) :=
  (host4_v5 m ρ c).trans ((reg3_in m ρ c (6 : Fin cfg3.W) rfl).trans (wk7_v5 m ρ c))
theorem wk9_v6 (c : Dev nD) : W9 m ρ c (Proc.devRef .tc main_v6) = W1 m ρ c (Proc.devRef .tc main_v6) :=
  (host4_v6 m ρ c).trans ((reg3_in m ρ c (7 : Fin cfg3.W) rfl).trans (wk7_v6 m ρ c))
theorem wk11_v0 (c : Dev nD) : W11 m ρ c (Proc.devRef .tc main_v0) = W1 m ρ c (Proc.devRef .tc main_v0) :=
  (host5_v0 m ρ c).trans ((reg4_in m ρ c (1 : Fin cfg4.W) rfl).trans (wk9_v0 m ρ c))
theorem wk11_v1 (c : Dev nD) : W11 m ρ c (Proc.devRef .tc main_v1) = W1 m ρ c (Proc.devRef .tc main_v1) :=
  (host5_v1 m ρ c).trans ((reg4_in m ρ c (3 : Fin cfg4.W) rfl).trans (wk9_v1 m ρ c))
theorem wk11_v2 (c : Dev nD) : W11 m ρ c (Proc.devRef .tc main_v2) = W1 m ρ c (Proc.devRef .tc main_v2) :=
  (host5_v2 m ρ c).trans ((reg4_in m ρ c (2 : Fin cfg4.W) rfl).trans (wk9_v2 m ρ c))
theorem wk11_v3 (c : Dev nD) : W11 m ρ c (Proc.devRef .tc main_v3) = W1 m ρ c (Proc.devRef .tc main_v3) :=
  (host5_v3 m ρ c).trans ((reg4_in m ρ c (4 : Fin cfg4.W) rfl).trans (wk9_v3 m ρ c))
theorem wk11_v4 (c : Dev nD) : W11 m ρ c (Proc.devRef .tc main_v4) = W1 m ρ c (Proc.devRef .tc main_v4) :=
  (host5_v4 m ρ c).trans ((reg4_in m ρ c (5 : Fin cfg4.W) rfl).trans (wk9_v4 m ρ c))
theorem wk11_v5 (c : Dev nD) : W11 m ρ c (Proc.devRef .tc main_v5) = W1 m ρ c (Proc.devRef .tc main_v5) :=
  (host5_v5 m ρ c).trans ((reg4_in m ρ c (6 : Fin cfg4.W) rfl).trans (wk9_v5 m ρ c))
theorem wk11_v6 (c : Dev nD) : W11 m ρ c (Proc.devRef .tc main_v6) = W1 m ρ c (Proc.devRef .tc main_v6) :=
  (host5_v6 m ρ c).trans ((reg4_in m ρ c (7 : Fin cfg4.W) rfl).trans (wk9_v6 m ρ c))
theorem wk13_v0 (c : Dev nD) : W13 m ρ c (Proc.devRef .tc main_v0) = W1 m ρ c (Proc.devRef .tc main_v0) :=
  (host6_v0 m ρ c).trans ((reg5_in m ρ c (1 : Fin cfg5.W) rfl).trans (wk11_v0 m ρ c))
theorem wk13_v1 (c : Dev nD) : W13 m ρ c (Proc.devRef .tc main_v1) = W1 m ρ c (Proc.devRef .tc main_v1) :=
  (host6_v1 m ρ c).trans ((reg5_in m ρ c (3 : Fin cfg5.W) rfl).trans (wk11_v1 m ρ c))
theorem wk13_v2 (c : Dev nD) : W13 m ρ c (Proc.devRef .tc main_v2) = W1 m ρ c (Proc.devRef .tc main_v2) :=
  (host6_v2 m ρ c).trans ((reg5_in m ρ c (2 : Fin cfg5.W) rfl).trans (wk11_v2 m ρ c))
theorem wk13_v3 (c : Dev nD) : W13 m ρ c (Proc.devRef .tc main_v3) = W1 m ρ c (Proc.devRef .tc main_v3) :=
  (host6_v3 m ρ c).trans ((reg5_in m ρ c (4 : Fin cfg5.W) rfl).trans (wk11_v3 m ρ c))
theorem wk13_v4 (c : Dev nD) : W13 m ρ c (Proc.devRef .tc main_v4) = W1 m ρ c (Proc.devRef .tc main_v4) :=
  (host6_v4 m ρ c).trans ((reg5_in m ρ c (5 : Fin cfg5.W) rfl).trans (wk11_v4 m ρ c))
theorem wk13_v5 (c : Dev nD) : W13 m ρ c (Proc.devRef .tc main_v5) = W1 m ρ c (Proc.devRef .tc main_v5) :=
  (host6_v5 m ρ c).trans ((reg5_in m ρ c (6 : Fin cfg5.W) rfl).trans (wk11_v5 m ρ c))
theorem wk13_v6 (c : Dev nD) : W13 m ρ c (Proc.devRef .tc main_v6) = W1 m ρ c (Proc.devRef .tc main_v6) :=
  (host6_v6 m ρ c).trans ((reg5_in m ρ c (7 : Fin cfg5.W) rfl).trans (wk11_v6 m ρ c))
theorem wk15_v0 (c : Dev nD) : W15 m ρ c (Proc.devRef .tc main_v0) = W1 m ρ c (Proc.devRef .tc main_v0) :=
  (host7_v0 m ρ c).trans ((reg6_in m ρ c (1 : Fin cfg6.W) rfl).trans (wk13_v0 m ρ c))
theorem wk15_v1 (c : Dev nD) : W15 m ρ c (Proc.devRef .tc main_v1) = W1 m ρ c (Proc.devRef .tc main_v1) :=
  (host7_v1 m ρ c).trans ((reg6_in m ρ c (3 : Fin cfg6.W) rfl).trans (wk13_v1 m ρ c))
theorem wk15_v2 (c : Dev nD) : W15 m ρ c (Proc.devRef .tc main_v2) = W1 m ρ c (Proc.devRef .tc main_v2) :=
  (host7_v2 m ρ c).trans ((reg6_in m ρ c (2 : Fin cfg6.W) rfl).trans (wk13_v2 m ρ c))
theorem wk15_v3 (c : Dev nD) : W15 m ρ c (Proc.devRef .tc main_v3) = W1 m ρ c (Proc.devRef .tc main_v3) :=
  (host7_v3 m ρ c).trans ((reg6_in m ρ c (4 : Fin cfg6.W) rfl).trans (wk13_v3 m ρ c))
theorem wk15_v4 (c : Dev nD) : W15 m ρ c (Proc.devRef .tc main_v4) = W1 m ρ c (Proc.devRef .tc main_v4) :=
  (host7_v4 m ρ c).trans ((reg6_in m ρ c (5 : Fin cfg6.W) rfl).trans (wk13_v4 m ρ c))
theorem wk15_v5 (c : Dev nD) : W15 m ρ c (Proc.devRef .tc main_v5) = W1 m ρ c (Proc.devRef .tc main_v5) :=
  (host7_v5 m ρ c).trans ((reg6_in m ρ c (6 : Fin cfg6.W) rfl).trans (wk13_v5 m ρ c))
theorem wk15_v6 (c : Dev nD) : W15 m ρ c (Proc.devRef .tc main_v6) = W1 m ρ c (Proc.devRef .tc main_v6) :=
  (host7_v6 m ρ c).trans ((reg6_in m ρ c (7 : Fin cfg6.W) rfl).trans (wk13_v6 m ρ c))
theorem wk17_v0 (c : Dev nD) : W17 m ρ c (Proc.devRef .tc main_v0) = W1 m ρ c (Proc.devRef .tc main_v0) :=
  (host8_v0 m ρ c).trans ((reg7_in m ρ c (1 : Fin cfg7.W) rfl).trans (wk15_v0 m ρ c))
theorem wk17_v1 (c : Dev nD) : W17 m ρ c (Proc.devRef .tc main_v1) = W1 m ρ c (Proc.devRef .tc main_v1) :=
  (host8_v1 m ρ c).trans ((reg7_in m ρ c (3 : Fin cfg7.W) rfl).trans (wk15_v1 m ρ c))
theorem wk17_v2 (c : Dev nD) : W17 m ρ c (Proc.devRef .tc main_v2) = W1 m ρ c (Proc.devRef .tc main_v2) :=
  (host8_v2 m ρ c).trans ((reg7_in m ρ c (2 : Fin cfg7.W) rfl).trans (wk15_v2 m ρ c))
theorem wk17_v3 (c : Dev nD) : W17 m ρ c (Proc.devRef .tc main_v3) = W1 m ρ c (Proc.devRef .tc main_v3) :=
  (host8_v3 m ρ c).trans ((reg7_in m ρ c (4 : Fin cfg7.W) rfl).trans (wk15_v3 m ρ c))
theorem wk17_v4 (c : Dev nD) : W17 m ρ c (Proc.devRef .tc main_v4) = W1 m ρ c (Proc.devRef .tc main_v4) :=
  (host8_v4 m ρ c).trans ((reg7_in m ρ c (5 : Fin cfg7.W) rfl).trans (wk15_v4 m ρ c))
theorem wk17_v5 (c : Dev nD) : W17 m ρ c (Proc.devRef .tc main_v5) = W1 m ρ c (Proc.devRef .tc main_v5) :=
  (host8_v5 m ρ c).trans ((reg7_in m ρ c (6 : Fin cfg7.W) rfl).trans (wk15_v5 m ρ c))
theorem wk17_v6 (c : Dev nD) : W17 m ρ c (Proc.devRef .tc main_v6) = W1 m ρ c (Proc.devRef .tc main_v6) :=
  (host8_v6 m ρ c).trans ((reg7_in m ρ c (7 : Fin cfg7.W) rfl).trans (wk15_v6 m ρ c))

end Cert.KernelIdeal.Chain

end
-- ==== Proof.Leap.lean ====
/-
  The leapfrog integrator over an abstract gradient.  The phase-space array holds positions in its first 512 columns
  and momenta in its last 512.  One leapfrog step from (q, p), with G the gradient of the summed energy at a
  phase-space array:
      p' = p − (½·dt)·G(q ‖ p)[:, :512]          half step of the momenta,
      q' = q + dt·G(q ‖ p')[:, 512:]             full step of the positions,
      p'' = p' − (½·dt)·G(q' ‖ p')[:, :512]      half step of the momenta,
  and the next array is q' ‖ p''.  Three steps from z ‖ 0; the result is the positions.  The products ½·dt and dt
  stay the float words the programs print (0.5 and 0.1 multiplied as scalars), never evaluated.
-/
import proofs.«124128_j83270825935573_1_alg».proof.ReferenceIdeal

noncomputable section

namespace Cert.Leap

open Idealize.ShloMosaic Cert.ReferenceIdeal Cert.ReferenceIdeal.Facts₀ Cert.ReferenceIdeal.Facts

variable {F : FTy → Type} [FloatOps F] [Cert.ReferenceIdeal.Facts]

/-- The positions: the first 512 columns. -/
def lo (a : FVec F S16384x1024 .f32) : FVec F S16384x512 .f32 :=
  extractStridedSlice S16384x512 ![0, 0] a slices_S16384x1024_S16384x512_0_0

/-- The momenta: the last 512 columns. -/
def hi (a : FVec F S16384x1024 .f32) : FVec F S16384x512 .f32 :=
  extractStridedSlice S16384x512 ![0, 512] a slices_S16384x1024_S16384x512_0_512

/-- Positions beside momenta. -/
def cat (a b : FVec F S16384x512 .f32) : FVec F S16384x1024 .f32 :=
  concatenate S16384x1024 1 [⟨S16384x512, a⟩, ⟨S16384x512, b⟩] concatenates_S16384x512_S16384x512_S16384x1024_d1

/-- The all-zero momenta the integration starts from. -/
def zeros : FVec F S16384x512 .f32 :=
  broadcastInDim S16384x512 ![] bcast_S_S16384x512 (constant S_ .f32 0x00000000#32)

/-- Half step of the momenta against a gradient array. -/
def halfStep (p : FVec F S16384x512 .f32) (g : FVec F S16384x1024 .f32) : FVec F S16384x512 .f32 :=
  subf p (mulf (broadcastInDim S16384x512 ![] bcast_S_S16384x512 (mulf (constant S_ .f32 0x3F000000#32) (constant S_ .f32 0x3DCCCCCD#32))) (extractStridedSlice S16384x512 ![0, 0] g slices_S16384x1024_S16384x512_0_0))

/-- Full step of the positions against a gradient array. -/
def fullStep (q : FVec F S16384x512 .f32) (g : FVec F S16384x1024 .f32) : FVec F S16384x512 .f32 :=
  addf q (mulf (broadcastInDim S16384x512 ![] bcast_S_S16384x512 (constant S_ .f32 0x3DCCCCCD#32)) (extractStridedSlice S16384x512 ![0, 512] g slices_S16384x1024_S16384x512_0_512))

variable (G : FVec F S16384x1024 .f32 → FVec F S16384x1024 .f32)

/-- The momenta after the first half step. -/
def p1 (q p : FVec F S16384x512 .f32) : FVec F S16384x512 .f32 := halfStep p (G (cat q p))

/-- The positions after the full step. -/
def q1 (q p : FVec F S16384x512 .f32) : FVec F S16384x512 .f32 := fullStep q (G (cat q (p1 G q p)))

/-- The momenta after the second half step. -/
def p2 (q p : FVec F S16384x512 .f32) : FVec F S16384x512 .f32 := halfStep (p1 G q p) (G (cat (q1 G q p) (p1 G q p)))

/-- One leapfrog step of a phase-space array. -/
def step (zp : FVec F S16384x1024 .f32) : FVec F S16384x1024 .f32 := cat (q1 G (lo zp) (hi zp)) (p2 G (lo zp) (hi zp))

/-- Three steps from z ‖ 0, the positions read off. -/
def whole (z : FVec F S16384x512 .f32) : FVec F S16384x512 .f32 := lo (step G (step G (step G (cat z zeros))))

end Cert.Leap

end
-- ==== Proof.ChainDefs.lean ====
/-
  The phase-space arrays of the integration on the kernel program's side — Z0 = z ‖ 0 and the array after each
  leapfrog step over the reference's gradient at the launch weights — and the tactic that reads a buffer after a
  stretch of host operations, operation by operation from the last to the first: an operation's own result buffer
  holds its function of its operands, any other buffer what it held before.  A concatenation is folded into its named
  form as soon as it appears, so that its operands stay plain arguments the reading can go on rewriting.
-/
import proofs.«124128_j83270825935573_1_alg».proof.Proof.ChainW
import proofs.«124128_j83270825935573_1_alg».proof.Proof.ChainWk
import proofs.«124128_j83270825935573_1_alg».proof.Proof.Leap
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The phase-space array the integration starts from, and after each leapfrog step. -/
def Z0 (c : Dev nD) : FVec Ideal Cert.ReferenceIdeal.S16384x1024 .f32 := Cert.Leap.cat (m ((c.tc : Thread nD τ).loc main_arg0)) Cert.Leap.zeros
def Z1 (c : Dev nD) : FVec Ideal Cert.ReferenceIdeal.S16384x1024 .f32 := Cert.Leap.step (Gm m c) (Z0 m c)
def Z2 (c : Dev nD) : FVec Ideal Cert.ReferenceIdeal.S16384x1024 .f32 := Cert.Leap.step (Gm m c) (Z1 m c)
def Z3 (c : Dev nD) : FVec Ideal Cert.ReferenceIdeal.S16384x1024 .f32 := Cert.Leap.step (Gm m c) (Z2 m c)

/-- A two-array concatenation along the columns is the named one. -/
theorem cat_fold (a b : FVec Ideal S16384x512 .f32) :
    concatenate S16384x1024 1 [⟨S16384x512, a⟩, ⟨S16384x512, b⟩] Gen.concatenates_S16384x512_S16384x512_S16384x1024_d1 = Cert.Leap.cat a b := rfl

/-- Read a buffer after a stretch of host operations. -/
macro "read_stretch" : tactic =>
  `(tactic| (simp only [after_cons, after_nil]
             repeat (first
               | rw [cat_fold]
               | rw [nullary_result] | rw [unary_result] | rw [binary_result] | rw [reshape_result]
               | (rw [nullary_result_ne]; rotate_left; decide)
               | (rw [unary_result_ne]; rotate_left; decide)
               | (rw [binary_result_ne]; rotate_left; decide)
               | (rw [reshape_result_ne]; rotate_left; decide))))

end Cert.KernelIdeal.Chain

end
-- ==== Proof.BlockGrad.lean ====
/-
  The kernel body's value at an index.

  One launch of the body reads a [1024,1024] block of samples x, the weights W1 [1024,256], W2 [256,256], their transposes
  W1ᵀ [256,1024], W2ᵀ [256,256], and the rows b1, b2, W3 [1,256], and writes a [1024,1024] block.  On the extended reals
  the format changes are the identity, a matrix product into the zero accumulator is the plain sum over the contracted
  coordinate, and a row broadcast reads the row.  So row r of the written block is the analytic gradient of sample r:

    h1 = tanh(xᵀW1 + b1),  h2 = tanh(h1ᵀW2 + b2),
    g2 l = W3 l · (1 − h2 l · h2 l),  g1 j = (∑ l, g2 l · W2ᵀ l j) · (1 − h1 j · h1 j),  out i = ∑ j, g1 j · W1ᵀ j i,

  which is `Cert.RowGrad.rowK` of the sample's row and the operands' entries.  The nine launches run the same body.
-/
import proofs.«124128_j83270825935573_1_alg».proof.Proof.Gen.KernelIdeal.Frame
import proofs.«124128_j83270825935573_1_alg».proof.Proof.RowGrad
import Idealize.ShloMosaic.Lib.ValueIdx
import Idealize.ShloMosaic.Lib.ValueLayout
import Idealize.ShloMosaic.Lib.Pipeline.Value
import Idealize.ShloMosaic.PureOps.Ideal.Laws

noncomputable section

namespace Cert.BlockGrad

open Cert.KernelIdeal Cert.KernelIdeal.Gen Idealize.ShloMosaic Idealize.ShloMosaic.ValueIdx
open scoped BigOperators

/-! ## A matrix product at an index -/

/-- A product of an m×k by a k×n matrix into the zero accumulator, contracting the left operand's second axis against the
    right operand's first, read at an index: the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims _ _ _) none A B (constant (F := Ideal) ⟨2, ![m, n]⟩ .f32 0x00000000#32) (ix2 a b)
      = ∑ c : Fin k, A (ix2 a c) * B (ix2 c b) := by
  refine (Ideal.matmul_constant_zero_apply _ none A B (ix2 a b)).trans ?_
  rw [← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims _ _ _) k rfl rfl c
  have l2 : (⟨[1], [0], [0], [1], [], [], w⟩ : DotDims _ _ _).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims _ _ _).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first layer's product: a [1024,1024] by a [1024,256] matrix. -/
theorem matmul_x_W1_apply (A : FVec Ideal S1024x1024 .bf16) (B : FVec Ideal S1024x256 .bf16) (a : Fin 1024) (b : Fin 256) :
    matmul dot_S1024x1024_S1024x256_S1024x256_1_0_0_1_n_n none A B (constant (F := Ideal) S1024x256 .f32 0x00000000#32) (ix2 a b)
      = ∑ c : Fin 1024, A (ix2 a c) * B (ix2 c b) :=
  matmul_zero_apply Facts₀.dot_S1024x1024_S1024x256_S1024x256_1_0_0_1_n_n_wf A B a b

/-- The hidden layers' products: a [1024,256] by a [256,256] matrix. -/
theorem matmul_h_W2_apply (A : FVec Ideal S1024x256 .bf16) (B : FVec Ideal S256x256 .bf16) (a : Fin 1024) (b : Fin 256) :
    matmul dot_S1024x256_S256x256_S1024x256_1_0_0_1_n_n none A B (constant (F := Ideal) S1024x256 .f32 0x00000000#32) (ix2 a b)
      = ∑ c : Fin 256, A (ix2 a c) * B (ix2 c b) :=
  matmul_zero_apply Facts₀.dot_S1024x256_S256x256_S1024x256_1_0_0_1_n_n_wf A B a b

/-- The last product: a [1024,256] by a [256,1024] matrix. -/
theorem matmul_g_W1T_apply (A : FVec Ideal S1024x256 .bf16) (B : FVec Ideal S256x1024 .bf16) (a : Fin 1024) (b : Fin 1024) :
    matmul dot_S1024x256_S256x1024_S1024x1024_1_0_0_1_n_n none A B (constant (F := Ideal) S1024x1024 .f32 0x00000000#32) (ix2 a b)
      = ∑ c : Fin 256, A (ix2 a c) * B (ix2 c b) :=
  matmul_zero_apply Facts₀.dot_S1024x256_S256x1024_S1024x1024_1_0_0_1_n_n_wf A B a b

/-- A vector's hyperbolic tangent at an index is the element's. -/
theorem vtanh_apply {s : Shape} {φ : FTy} (a : FVec Ideal s φ) (i : s.Idx) : tanh a i = Ideal.tanh (a i) := rfl

/-! ## The body's two payloads at an index -/

/-- The cotangent of the first layer's pre-activation, at sample `p` and hidden unit `j`. -/
theorem pay2_apply (v0 : Vec Ideal S1024x1024 .f32) (v3 : Vec Ideal S1024x256 .bf16) (v6 : Vec Ideal S1x256 .f32)
    (v12 : Vec Ideal S256x256 .bf16) (v15 v20 : Vec Ideal S1x256 .f32) (v29 : Vec Ideal S256x256 .bf16)
    (p : Fin 1024) (j : Fin 256) :
    k0_pay2 (F := Ideal) v0 v3 v6 v12 v15 v20 v29 (ix2 p j)
      = Cert.RowGrad.dK (∑ l : Fin 256, Cert.RowGrad.dK (v20 (ix2 0 l))
            (Cert.RowGrad.h2 (fun k => v0 (ix2 p k)) (fun k j => v3 (ix2 k j)) (fun j => v6 (ix2 0 j))
              (fun k j => v12 (ix2 k j)) (fun j => v15 (ix2 0 j)) l) * v29 (ix2 l j))
          (Cert.RowGrad.h1 (fun k => v0 (ix2 p k)) (fun k j => v3 (ix2 k j)) (fun j => v6 (ix2 0 j)) j) := by
  unfold k0_pay2
  simp only [shapeCast_self]
  simp only [truncf_apply, mulf_apply, subf_apply, broadcast_apply, vtanh_apply, addf_apply, matmul_h_W2_apply,
    matmul_x_W1_apply, broadcastTo_1b_ab_apply]
  rfl

/-- The written block: that cotangent contracted against W1ᵀ. -/
theorem pay1_apply (v36 : FVec Ideal S1024x256 .bf16) (v37 : Vec Ideal S256x1024 .bf16) (p : Fin 1024) (i : Fin 1024) :
    k0_pay1 (F := Ideal) v36 v37 (ix2 p i) = ∑ j : Fin 256, v36 (ix2 p j) * v37 (ix2 j i) := by
  unfold k0_pay1
  simp only [shapeCast_self]
  exact matmul_g_W1T_apply v36 v37 p i

/-! ## The written block at an index -/

/-- The zero offsets of a whole-block access, as a constant function. -/
theorem zero_offsets : (![0, 0] : Fin 2 → Nat) = fun _ => 0 := funext fun a => by fin_cases a <;> rfl

/-- Row `r` of the block the body writes is the analytic gradient of sample `r`. -/
theorem out0_8_apply (x0 : Vec Ideal S1024x1024 .f32) (x1 : Vec Ideal S1024x256 .bf16) (x2 : Vec Ideal S256x1024 .bf16)
    (x3 x4 : Vec Ideal S256x256 .bf16) (x5 x6 x7 : Vec Ideal S1x256 .f32) (r : Fin 1024) (i : Fin 1024) :
    out0_8 (F := Ideal) x0 x1 x2 x3 x4 x5 x6 x7 (ix2 r i)
      = Cert.RowGrad.rowK (fun k => x0 (ix2 r k)) (fun k j => x1 (ix2 k j)) (fun j => x5 (ix2 0 j)) (fun k j => x3 (ix2 k j))
          (fun j => x6 (ix2 0 j)) (fun j => x7 (ix2 0 j)) (fun l j => x4 (ix2 l j)) (fun j i' => x2 (ix2 j i')) i := by
  unfold out0_8
  rw [View.canon_unit_zero zero_offsets]
  simp only [View.ld_unit_zero (S := S1024x1024) zero_offsets, View.ld_unit_zero (S := S1024x256) zero_offsets,
    View.ld_unit_zero (S := S1x256) zero_offsets, View.ld_unit_zero (S := S256x256) zero_offsets,
    View.ld_unit_zero (S := S256x1024) zero_offsets]
  rw [pay1_apply]
  simp only [pay2_apply]
  rfl

/-! ## The other eight launches: the same body -/

theorem out1_8_eq : @out1_8 = @out0_8 := rfl

theorem out1_8_apply (x0 : Vec Ideal S1024x1024 .f32) (x1 : Vec Ideal S1024x256 .bf16) (x2 : Vec Ideal S256x1024 .bf16)
    (x3 x4 : Vec Ideal S256x256 .bf16) (x5 x6 x7 : Vec Ideal S1x256 .f32) (r : Fin 1024) (i : Fin 1024) :
    out1_8 (F := Ideal) x0 x1 x2 x3 x4 x5 x6 x7 (ix2 r i)
      = Cert.RowGrad.rowK (fun k => x0 (ix2 r k)) (fun k j => x1 (ix2 k j)) (fun j => x5 (ix2 0 j)) (fun k j => x3 (ix2 k j))
          (fun j => x6 (ix2 0 j)) (fun j => x7 (ix2 0 j)) (fun l j => x4 (ix2 l j)) (fun j i' => x2 (ix2 j i')) i := by
  rw [out1_8_eq]; exact out0_8_apply x0 x1 x2 x3 x4 x5 x6 x7 r i

theorem out2_8_eq : @out2_8 = @out0_8 := rfl

theorem out2_8_apply (x0 : Vec Ideal S1024x1024 .f32) (x1 : Vec Ideal S1024x256 .bf16) (x2 : Vec Ideal S256x1024 .bf16)
    (x3 x4 : Vec Ideal S256x256 .bf16) (x5 x6 x7 : Vec Ideal S1x256 .f32) (r : Fin 1024) (i : Fin 1024) :
    out2_8 (F := Ideal) x0 x1 x2 x3 x4 x5 x6 x7 (ix2 r i)
      = Cert.RowGrad.rowK (fun k => x0 (ix2 r k)) (fun k j => x1 (ix2 k j)) (fun j => x5 (ix2 0 j)) (fun k j => x3 (ix2 k j))
          (fun j => x6 (ix2 0 j)) (fun j => x7 (ix2 0 j)) (fun l j => x4 (ix2 l j)) (fun j i' => x2 (ix2 j i')) i := by
  rw [out2_8_eq]; exact out0_8_apply x0 x1 x2 x3 x4 x5 x6 x7 r i

theorem out3_8_eq : @out3_8 = @out0_8 := rfl

theorem out3_8_apply (x0 : Vec Ideal S1024x1024 .f32) (x1 : Vec Ideal S1024x256 .bf16) (x2 : Vec Ideal S256x1024 .bf16)
    (x3 x4 : Vec Ideal S256x256 .bf16) (x5 x6 x7 : Vec Ideal S1x256 .f32) (r : Fin 1024) (i : Fin 1024) :
    out3_8 (F := Ideal) x0 x1 x2 x3 x4 x5 x6 x7 (ix2 r i)
      = Cert.RowGrad.rowK (fun k => x0 (ix2 r k)) (fun k j => x1 (ix2 k j)) (fun j => x5 (ix2 0 j)) (fun k j => x3 (ix2 k j))
          (fun j => x6 (ix2 0 j)) (fun j => x7 (ix2 0 j)) (fun l j => x4 (ix2 l j)) (fun j i' => x2 (ix2 j i')) i := by
  rw [out3_8_eq]; exact out0_8_apply x0 x1 x2 x3 x4 x5 x6 x7 r i

theorem out4_8_eq : @out4_8 = @out0_8 := rfl

theorem out4_8_apply (x0 : Vec Ideal S1024x1024 .f32) (x1 : Vec Ideal S1024x256 .bf16) (x2 : Vec Ideal S256x1024 .bf16)
    (x3 x4 : Vec Ideal S256x256 .bf16) (x5 x6 x7 : Vec Ideal S1x256 .f32) (r : Fin 1024) (i : Fin 1024) :
    out4_8 (F := Ideal) x0 x1 x2 x3 x4 x5 x6 x7 (ix2 r i)
      = Cert.RowGrad.rowK (fun k => x0 (ix2 r k)) (fun k j => x1 (ix2 k j)) (fun j => x5 (ix2 0 j)) (fun k j => x3 (ix2 k j))
          (fun j => x6 (ix2 0 j)) (fun j => x7 (ix2 0 j)) (fun l j => x4 (ix2 l j)) (fun j i' => x2 (ix2 j i')) i := by
  rw [out4_8_eq]; exact out0_8_apply x0 x1 x2 x3 x4 x5 x6 x7 r i

theorem out5_8_eq : @out5_8 = @out0_8 := rfl

theorem out5_8_apply (x0 : Vec Ideal S1024x1024 .f32) (x1 : Vec Ideal S1024x256 .bf16) (x2 : Vec Ideal S256x1024 .bf16)
    (x3 x4 : Vec Ideal S256x256 .bf16) (x5 x6 x7 : Vec Ideal S1x256 .f32) (r : Fin 1024) (i : Fin 1024) :
    out5_8 (F := Ideal) x0 x1 x2 x3 x4 x5 x6 x7 (ix2 r i)
      = Cert.RowGrad.rowK (fun k => x0 (ix2 r k)) (fun k j => x1 (ix2 k j)) (fun j => x5 (ix2 0 j)) (fun k j => x3 (ix2 k j))
          (fun j => x6 (ix2 0 j)) (fun j => x7 (ix2 0 j)) (fun l j => x4 (ix2 l j)) (fun j i' => x2 (ix2 j i')) i := by
  rw [out5_8_eq]; exact out0_8_apply x0 x1 x2 x3 x4 x5 x6 x7 r i

theorem out6_8_eq : @out6_8 = @out0_8 := rfl

theorem out6_8_apply (x0 : Vec Ideal S1024x1024 .f32) (x1 : Vec Ideal S1024x256 .bf16) (x2 : Vec Ideal S256x1024 .bf16)
    (x3 x4 : Vec Ideal S256x256 .bf16) (x5 x6 x7 : Vec Ideal S1x256 .f32) (r : Fin 1024) (i : Fin 1024) :
    out6_8 (F := Ideal) x0 x1 x2 x3 x4 x5 x6 x7 (ix2 r i)
      = Cert.RowGrad.rowK (fun k => x0 (ix2 r k)) (fun k j => x1 (ix2 k j)) (fun j => x5 (ix2 0 j)) (fun k j => x3 (ix2 k j))
          (fun j => x6 (ix2 0 j)) (fun j => x7 (ix2 0 j)) (fun l j => x4 (ix2 l j)) (fun j i' => x2 (ix2 j i')) i := by
  rw [out6_8_eq]; exact out0_8_apply x0 x1 x2 x3 x4 x5 x6 x7 r i

theorem out7_8_eq : @out7_8 = @out0_8 := rfl

theorem out7_8_apply (x0 : Vec Ideal S1024x1024 .f32) (x1 : Vec Ideal S1024x256 .bf16) (x2 : Vec Ideal S256x1024 .bf16)
    (x3 x4 : Vec Ideal S256x256 .bf16) (x5 x6 x7 : Vec Ideal S1x256 .f32) (r : Fin 1024) (i : Fin 1024) :
    out7_8 (F := Ideal) x0 x1 x2 x3 x4 x5 x6 x7 (ix2 r i)
      = Cert.RowGrad.rowK (fun k => x0 (ix2 r k)) (fun k j => x1 (ix2 k j)) (fun j => x5 (ix2 0 j)) (fun k j => x3 (ix2 k j))
          (fun j => x6 (ix2 0 j)) (fun j => x7 (ix2 0 j)) (fun l j => x4 (ix2 l j)) (fun j i' => x2 (ix2 j i')) i := by
  rw [out7_8_eq]; exact out0_8_apply x0 x1 x2 x3 x4 x5 x6 x7 r i

theorem out8_8_eq : @out8_8 = @out0_8 := rfl

theorem out8_8_apply (x0 : Vec Ideal S1024x1024 .f32) (x1 : Vec Ideal S1024x256 .bf16) (x2 : Vec Ideal S256x1024 .bf16)
    (x3 x4 : Vec Ideal S256x256 .bf16) (x5 x6 x7 : Vec Ideal S1x256 .f32) (r : Fin 1024) (i : Fin 1024) :
    out8_8 (F := Ideal) x0 x1 x2 x3 x4 x5 x6 x7 (ix2 r i)
      = Cert.RowGrad.rowK (fun k => x0 (ix2 r k)) (fun k j => x1 (ix2 k j)) (fun j => x5 (ix2 0 j)) (fun k j => x3 (ix2 k j))
          (fun j => x6 (ix2 0 j)) (fun j => x7 (ix2 0 j)) (fun l j => x4 (ix2 l j)) (fun j i' => x2 (ix2 j i')) i := by
  rw [out8_8_eq]; exact out0_8_apply x0 x1 x2 x3 x4 x5 x6 x7 r i

end Cert.BlockGrad

end
-- ==== Proof.Region0.lean ====
/-
  Launch 0 of the gradient kernel, from blocks to the array.  The grid has sixteen points; point t reads rows
  1024·t … 1024·t + 1023 of the phase-space array (all 1024 columns) and the seven weight arrays whole, and writes
  rows 1024·t … 1024·t + 1023 of the result.  The body's value at a row is the one-sample analytic gradient of that
  row, so what point t writes back is block t of the whole-array gradient `GK` of the arrays as the launch finds them;
  the sixteen blocks tile the 16384 rows, so the result array ends holding `GK`.
-/
import proofs.«124128_j83270825935573_1_alg».proof.Proof.Gen.KernelIdeal.Frame
import proofs.«124128_j83270825935573_1_alg».proof.Proof.BlockGrad
import proofs.«124128_j83270825935573_1_alg».proof.Proof.GKDef
import Idealize.ShloMosaic.Lib.Pipeline.Value
import Idealize.ShloMosaic.Lib.ValueIdx

set_option maxRecDepth 16384

noncomputable section

namespace Cert.KernelIdeal.Region0

open Cert.KernelIdeal Cert.KernelIdeal.Gen Cert.GK
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the phase-space window and the result window sit at block row t, every
    weight window at the origin. -/
theorem idx_facts : ∀ t : Fin cfg0.N,
    win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Where point t's block of the phase-space window sits in its array: row 1024·t + r, the same column. -/
theorem emb_in (t : Fin cfg0.N) (r k : Fin 1024) (h : t.val * 1024 + r.val < 16384) :
    ((cfg0.win 0).blk t).view.emb (ix2 r k) = ix2 (⟨t.val * 1024 + r.val, h⟩ : Fin 16384) k := by
  obtain ⟨e0, e1, -⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega

/-- Where point t's block of the result window sits in its array. -/
theorem emb_out (t : Fin cfg0.N) (r i : Fin 1024) (h : t.val * 1024 + r.val < 16384) :
    ((cfg0.win 8).blk t).view.emb (ix2 r i) = ix2 (⟨t.val * 1024 + r.val, h⟩ : Fin 16384) i := by
  obtain ⟨-, -, e2, e3, -⟩ := idx_facts t
  funext a; apply Fin.ext
  match a with
  | ⟨0, _⟩ => show win0_8.index t (0 : Fin 2) * 1024 + 1 * r.val = t.val * 1024 + r.val; omega
  | ⟨1, _⟩ => show win0_8.index t (1 : Fin 2) * 1024 + 1 * i.val = i.val; omega

/-- A weight window's block is its whole array. -/
theorem emb_w1 (t : Fin cfg0.N) (k : Fin 1024) (j : Fin 256) : ((cfg0.win 1).blk t).view.emb (ix2 k j) = ix2 k j := by
  obtain ⟨-, -, -, -, e0, e1, -⟩ := idx_facts t
  funext a; apply Fin.ext
  match a with
  | ⟨0, _⟩ => show win0_1.index t (0 : Fin 2) * 1024 + 1 * k.val = k.val; omega
  | ⟨1, _⟩ => show win0_1.index t (1 : Fin 2) * 256 + 1 * j.val = j.val; omega
theorem emb_w2 (t : Fin cfg0.N) (j : Fin 256) (i : Fin 1024) : ((cfg0.win 2).blk t).view.emb (ix2 j i) = ix2 j i := by
  obtain ⟨-, -, -, -, -, -, e0, e1, -⟩ := idx_facts t
  funext a; apply Fin.ext
  match a with
  | ⟨0, _⟩ => show win0_2.index t (0 : Fin 2) * 256 + 1 * j.val = j.val; omega
  | ⟨1, _⟩ => show win0_2.index t (1 : Fin 2) * 1024 + 1 * i.val = i.val; omega
theorem emb_w3 (t : Fin cfg0.N) (k j : Fin 256) : ((cfg0.win 3).blk t).view.emb (ix2 k j) = ix2 k j := by
  obtain ⟨-, -, -, -, -, -, -, -, e0, e1, -⟩ := idx_facts t
  funext a; apply Fin.ext
  match a with
  | ⟨0, _⟩ => show win0_3.index t (0 : Fin 2) * 256 + 1 * k.val = k.val; omega
  | ⟨1, _⟩ => show win0_3.index t (1 : Fin 2) * 256 + 1 * j.val = j.val; omega
theorem emb_w4 (t : Fin cfg0.N) (k j : Fin 256) : ((cfg0.win 4).blk t).view.emb (ix2 k j) = ix2 k j := by
  obtain ⟨-, -, -, -, -, -, -, -, -, -, e0, e1, -⟩ := idx_facts t
  funext a; apply Fin.ext
  match a with
  | ⟨0, _⟩ => show win0_4.index t (0 : Fin 2) * 256 + 1 * k.val = k.val; omega
  | ⟨1, _⟩ => show win0_4.index t (1 : Fin 2) * 256 + 1 * j.val = j.val; omega
theorem emb_w5 (t : Fin cfg0.N) (j : Fin 256) : ((cfg0.win 5).blk t).view.emb (ix2 (0 : Fin 1) j) = ix2 (0 : Fin 1) j := by
  obtain ⟨-, -, -, -, -, -, -, -, -, -, -, -, e0, e1, -⟩ := idx_facts t
  funext a; apply Fin.ext
  match a with
  | ⟨0, _⟩ => show win0_5.index t (0 : Fin 2) * 1 + 1 * (0 : Fin 1).val = (0 : Fin 1).val; omega
  | ⟨1, _⟩ => show win0_5.index t (1 : Fin 2) * 256 + 1 * j.val = j.val; omega
theorem emb_w6 (t : Fin cfg0.N) (j : Fin 256) : ((cfg0.win 6).blk t).view.emb (ix2 (0 : Fin 1) j) = ix2 (0 : Fin 1) j := by
  obtain ⟨-, -, -, -, -, -, -, -, -, -, -, -, -, -, e0, e1, -⟩ := idx_facts t
  funext a; apply Fin.ext
  match a with
  | ⟨0, _⟩ => show win0_6.index t (0 : Fin 2) * 1 + 1 * (0 : Fin 1).val = (0 : Fin 1).val; omega
  | ⟨1, _⟩ => show win0_6.index t (1 : Fin 2) * 256 + 1 * j.val = j.val; omega
theorem emb_w7 (t : Fin cfg0.N) (j : Fin 256) : ((cfg0.win 7).blk t).view.emb (ix2 (0 : Fin 1) j) = ix2 (0 : Fin 1) j := by
  obtain ⟨-, -, -, -, -, -, -, -, -, -, -, -, -, -, -, -, e0, e1⟩ := idx_facts t
  funext a; apply Fin.ext
  match a with
  | ⟨0, _⟩ => show win0_7.index t (0 : Fin 2) * 1 + 1 * (0 : Fin 1).val = (0 : Fin 1).val; omega
  | ⟨1, _⟩ => show win0_7.index t (1 : Fin 2) * 256 + 1 * j.val = j.val; omega

/-- WHAT POINT t WRITES BACK is block t of the whole-array gradient of the arrays the launch finds. -/
theorem flushed_eq (c : Dev nD) (t : Fin cfg0.N) :
    (dat0 V c).flushed 8 t = ((cfg0.win 8).blk t).view.read (Elt Ideal)
      (GK (V c main_v11) (V c main_v0) (V c main_v2) (V c main_v1) (V c main_v3) (V c main_v4) (V c main_v5) (V c main_v6)) := by
  show (cfg0.win 8).cut (grid0.coords t) ((dat0 V c).after 8 t) = _
  rw [after0_8]
  funext y
  obtain ⟨r, i, rfl⟩ : ∃ (r : Fin 1024) (i : Fin 1024), y = ix2 r i := ⟨y 0, y 1, eq_ix2 y⟩
  have hN : cfg0.N = 16 := N_0
  have hb : t.val * 1024 + r.val < 16384 := by have := t.isLt; have := r.isLt; omega
  show out0_8 (iblk0 V c 0 t) (iblk0 V c 1 t) (iblk0 V c 2 t) (iblk0 V c 3 t) (iblk0 V c 4 t) (iblk0 V c 5 t) (iblk0 V c 6 t) (iblk0 V c 7 t) (ix2 r i)
      = GK (V c main_v11) (V c main_v0) (V c main_v2) (V c main_v1) (V c main_v3) (V c main_v4) (V c main_v5) (V c main_v6) (((cfg0.win 8).blk t).view.emb (ix2 r i))
  rw [emb_out t r i hb, GK_apply,
    Cert.BlockGrad.out0_8_apply (iblk0 V c 0 t) (iblk0 V c 1 t) (iblk0 V c 2 t) (iblk0 V c 3 t) (iblk0 V c 4 t) (iblk0 V c 5 t) (iblk0 V c 6 t) (iblk0 V c 7 t) r i]
  have e0 : ∀ k : Fin 1024, iblk0 V c 0 t (ix2 r k) = V c main_v11 (ix2 (⟨t.val * 1024 + r.val, hb⟩ : Fin 16384) k) := fun k => by
    show V c main_v11 (((cfg0.win 0).blk t).view.emb (ix2 r k)) = _
    rw [emb_in t r k hb]
  have e1 : ∀ (k : Fin 1024) (j : Fin 256), iblk0 V c 1 t (ix2 k j) = V c main_v0 (ix2 k j) := fun k j => by
    show V c main_v0 (((cfg0.win 1).blk t).view.emb (ix2 k j)) = _
    rw [emb_w1 t k j]
  have e2 : ∀ (j : Fin 256) (i' : Fin 1024), iblk0 V c 2 t (ix2 j i') = V c main_v2 (ix2 j i') := fun j i' => by
    show V c main_v2 (((cfg0.win 2).blk t).view.emb (ix2 j i')) = _
    rw [emb_w2 t j i']
  have e3 : ∀ (k j : Fin 256), iblk0 V c 3 t (ix2 k j) = V c main_v1 (ix2 k j) := fun k j => by
    show V c main_v1 (((cfg0.win 3).blk t).view.emb (ix2 k j)) = _
    rw [emb_w3 t k j]
  have e4 : ∀ (k j : Fin 256), iblk0 V c 4 t (ix2 k j) = V c main_v3 (ix2 k j) := fun k j => by
    show V c main_v3 (((cfg0.win 4).blk t).view.emb (ix2 k j)) = _
    rw [emb_w4 t k j]
  have e5 : ∀ (j : Fin 256), iblk0 V c 5 t (ix2 (0 : Fin 1) j) = V c main_v4 (ix2 (0 : Fin 1) j) := fun j => by
    show V c main_v4 (((cfg0.win 5).blk t).view.emb (ix2 (0 : Fin 1) j)) = _
    rw [emb_w5 t j]
  have e6 : ∀ (j : Fin 256), iblk0 V c 6 t (ix2 (0 : Fin 1) j) = V c main_v5 (ix2 (0 : Fin 1) j) := fun j => by
    show V c main_v5 (((cfg0.win 6).blk t).view.emb (ix2 (0 : Fin 1) j)) = _
    rw [emb_w6 t j]
  have e7 : ∀ (j : Fin 256), iblk0 V c 7 t (ix2 (0 : Fin 1) j) = V c main_v6 (ix2 (0 : Fin 1) j) := fun j => by
    show V c main_v6 (((cfg0.win 7).blk t).view.emb (ix2 (0 : Fin 1) j)) = _
    rw [emb_w7 t j]
  simp only [e0, e1, e2, e3, e4, e5, e6, e7]

/-- An index of the result array is in point t's block iff its row is among that block's 1024 rows. -/
theorem mem_blk (t : Fin cfg0.N) (i : S16384x1024.Idx) :
    i ∈ ((cfg0.win 8).blk t).view.set ↔ ∀ a : Fin 2, win0_8.index t a * S1024x1024.size a ≤ (i a).val ∧ (i a).val < win0_8.index t a * S1024x1024.size a + S1024x1024.size a := by
  show i ∈ ((View.whole main_v12).slice (win0_8.rect t)).set ↔ _
  rw [View.set_slice_whole, Rect.mem_set_unit]
  exact Iff.rfl

/-- The sixteen blocks tile the array: row ρ is in block ρ / 1024. -/
theorem cover (i : S16384x1024.Idx) : ∃ t : Fin cfg0.N, (cfg0.win 8).flush t = true ∧ i ∈ ((cfg0.win 8).blk t).view.set := by
  have hN : cfg0.N = 16 := N_0
  have h0 : (i 0).val < 16384 := (i 0).isLt
  have h1 : (i 1).val < 1024 := (i 1).isLt
  refine ⟨⟨(i 0).val / 1024, by omega⟩, flush0_8 _, ?_⟩
  rw [mem_blk]
  obtain ⟨-, -, e2, e3, -⟩ := idx_facts (⟨(i 0).val / 1024, by omega⟩ : Fin cfg0.N)
  intro a
  match a with
  | ⟨0, _⟩ => show win0_8.index _ (0 : Fin 2) * 1024 ≤ (i 0).val ∧ (i 0).val < win0_8.index _ (0 : Fin 2) * 1024 + 1024; rw [e2]; show (i 0).val / 1024 * 1024 ≤ (i 0).val ∧ (i 0).val < (i 0).val / 1024 * 1024 + 1024; omega
  | ⟨1, _⟩ => show win0_8.index _ (1 : Fin 2) * 1024 ≤ (i 1).val ∧ (i 1).val < win0_8.index _ (1 : Fin 2) * 1024 + 1024; rw [e3]; omega

/-- THE RESULT ARRAY after the launch: the whole-array gradient of the arrays the launch found. -/
theorem final (c : Dev nD) : (dat0 V c).arrAt 8 cfg0.N
    = GK (V c main_v11) (V c main_v0) (V c main_v2) (V c main_v1) (V c main_v3) (V c main_v4) (V c main_v5) (V c main_v6) :=
  (dat0 V c).arrAt_eq_of_cover 8 _ (fun t _ => flushed_eq V c t) cover

end Cert.KernelIdeal.Region0

end
-- ==== Proof.Region1.lean ====
/-
  Launch 1 of the gradient kernel, from blocks to the array.  The grid has sixteen points; point t reads rows
  1024·t … 1024·t + 1023 of the phase-space array (all 1024 columns) and the seven weight arrays whole, and writes
  rows 1024·t … 1024·t + 1023 of the result.  The body's value at a row is the one-sample analytic gradient of that
  row, so what point t writes back is block t of the whole-array gradient `GK` of the arrays as the launch finds them;
  the sixteen blocks tile the 16384 rows, so the result array ends holding `GK`.
-/
import proofs.«124128_j83270825935573_1_alg».proof.Proof.Gen.KernelIdeal.Frame
import proofs.«124128_j83270825935573_1_alg».proof.Proof.BlockGrad
import proofs.«124128_j83270825935573_1_alg».proof.Proof.GKDef
import Idealize.ShloMosaic.Lib.Pipeline.Value
import Idealize.ShloMosaic.Lib.ValueIdx

set_option maxRecDepth 16384

noncomputable section

namespace Cert.KernelIdeal.Region1

open Cert.KernelIdeal Cert.KernelIdeal.Gen Cert.GK
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the phase-space window and the result window sit at block row t, every
    weight window at the origin. -/
theorem idx_facts : ∀ t : Fin cfg1.N,
    win1_0.index t (0 : Fin 2) = t.val ∧ win1_0.index t (1 : Fin 2) = 0
    ∧ win1_8.index t (0 : Fin 2) = t.val ∧ win1_8.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Where point t's block of the phase-space window sits in its array: row 1024·t + r, the same column. -/
theorem emb_in (t : Fin cfg1.N) (r k : Fin 1024) (h : t.val * 1024 + r.val < 16384) :
    ((cfg1.win 0).blk t).view.emb (ix2 r k) = ix2 (⟨t.val * 1024 + r.val, h⟩ : Fin 16384) k := by
  obtain ⟨e0, e1, -⟩ := idx_facts t
  funext a; apply Fin.ext
  match a with
  | ⟨0, _⟩ => show win1_0.index t (0 : Fin 2) * 1024 + 1 * r.val = t.val * 1024 + r.val; omega
  | ⟨1, _⟩ => show win1_0.index t (1 : Fin 2) * 1024 + 1 * k.val = k.val; omega

/-- Where point t's block of the result window sits in its array. -/
theorem emb_out (t : Fin cfg1.N) (r i : Fin 1024) (h : t.val * 1024 + r.val < 16384) :
    ((cfg1.win 8).blk t).view.emb (ix2 r i) = ix2 (⟨t.val * 1024 + r.val, h⟩ : Fin 16384) i := by
  obtain ⟨-, -, e2, e3, -⟩ := idx_facts t
  funext a; apply Fin.ext
  match a with
  | ⟨0, _⟩ => show win1_8.index t (0 : Fin 2) * 1024 + 1 * r.val = t.val * 1024 + r.val; omega
  | ⟨1, _⟩ => show win1_8.index t (1 : Fin 2) * 1024 + 1 * i.val = i.val; omega

/-- A weight window's block is its whole array. -/
theorem emb_w1 (t : Fin cfg1.N) (k : Fin 1024) (j : Fin 256) : ((cfg1.win 1).blk t).view.emb (ix2 k j) = ix2 k j := by
  obtain ⟨-, -, -, -, e0, e1, -⟩ := idx_facts t
  funext a; apply Fin.ext
  match a with
  | ⟨0, _⟩ => show win1_1.index t (0 : Fin 2) * 1024 + 1 * k.val = k.val; omega
  | ⟨1, _⟩ => show win1_1.index t (1 : Fin 2) * 256 + 1 * j.val = j.val; omega
theorem emb_w2 (t : Fin cfg1.N) (j : Fin 256) (i : Fin 1024) : ((cfg1.win 2).blk t).view.emb (ix2 j i) = ix2 j i := by
  obtain ⟨-, -, -, -, -, -, e0, e1, -⟩ := idx_facts t
  funext a; apply Fin.ext
  match a with
  | ⟨0, _⟩ => show win1_2.index t (0 : Fin 2) * 256 + 1 * j.val = j.val; omega
  | ⟨1, _⟩ => show win1_2.index t (1 : Fin 2) * 1024 + 1 * i.val = i.val; omega
theorem emb_w3 (t : Fin cfg1.N) (k j : Fin 256) : ((cfg1.win 3).blk t).view.emb (ix2 k j) = ix2 k j := by
  obtain ⟨-, -, -, -, -, -, -, -, e0, e1, -⟩ := idx_facts t
  funext a; apply Fin.ext
  match a with
  | ⟨0, _⟩ => show win1_3.index t (0 : Fin 2) * 256 + 1 * k.val = k.val; omega
  | ⟨1, _⟩ => show win1_3.index t (1 : Fin 2) * 256 + 1 * j.val = j.val; omega
theorem emb_w4 (t : Fin cfg1.N) (k j : Fin 256) : ((cfg1.win 4).blk t).view.emb (ix2 k j) = ix2 k j := by
  obtain ⟨-, -, -, -, -, -, -, -, -, -, e0, e1, -⟩ := idx_facts t
  funext a; apply Fin.ext
  match a with
  | ⟨0, _⟩ => show win1_4.index t (0 : Fin 2) * 256 + 1 * k.val = k.val; omega
  | ⟨1, _⟩ => show win1_4.index t (1 : Fin 2) * 256 + 1 * j.val = j.val; omega
theorem emb_w5 (t : Fin cfg1.N) (j : Fin 256) : ((cfg1.win 5).blk t).view.emb (ix2 (0 : Fin 1) j) = ix2 (0 : Fin 1) j := by
  obtain ⟨-, -, -, -, -, -, -, -, -, -, -, -, e0, e1, -⟩ := idx_facts t
  funext a; apply Fin.ext
  match a with
  | ⟨0, _⟩ => show win1_5.index t (0 : Fin 2) * 1 + 1 * (0 : Fin 1).val = (0 : Fin 1).val; omega
  | ⟨1, _⟩ => show win1_5.index t (1 : Fin 2) * 256 + 1 * j.val = j.val; omega
theorem emb_w6 (t : Fin cfg1.N) (j : Fin 256) : ((cfg1.win 6).blk t).view.emb (ix2 (0 : Fin 1) j) = ix2 (0 : Fin 1) j := by
  obtain ⟨-, -, -, -, -, -, -, -, -, -, -, -, -, -, e0, e1, -⟩ := idx_facts t
  funext a; apply Fin.ext
  match a with
  | ⟨0, _⟩ => show win1_6.index t (0 : Fin 2) * 1 + 1 * (0 : Fin 1).val = (0 : Fin 1).val; omega
  | ⟨1, _⟩ => show win1_6.index t (1 : Fin 2) * 256 + 1 * j.val = j.val; omega
theorem emb_w7 (t : Fin cfg1.N) (j : Fin 256) : ((cfg1.win 7).blk t).view.emb (ix2 (0 : Fin 1) j) = ix2 (0 : Fin 1) j := by
  obtain ⟨-, -, -, -, -, -, -, -, -, -, -, -, -, -, -, -, e0, e1⟩ := idx_facts t
  funext a; apply Fin.ext
  match a with
  | ⟨0, _⟩ => show win1_7.index t (0 : Fin 2) * 1 + 1 * (0 : Fin 1).val = (0 : Fin 1).val; omega
  | ⟨1, _⟩ => show win1_7.index t (1 : Fin 2) * 256 + 1 * j.val = j.val; omega

/-- WHAT POINT t WRITES BACK is block t of the whole-array gradient of the arrays the launch finds. -/
theorem flushed_eq (c : Dev nD) (t : Fin cfg1.N) :
    (dat1 V c).flushed 8 t = ((cfg1.win 8).blk t).view.read (Elt Ideal)
      (GK (V c main_v18) (V c main_v0) (V c main_v2) (V c main_v1) (V c main_v3) (V c main_v4) (V c main_v5) (V c main_v6)) := by
  show (cfg1.win 8).cut (grid1.coords t) ((dat1 V c).after 8 t) = _
  rw [after1_8]
  funext y
  obtain ⟨r, i, rfl⟩ : ∃ (r : Fin 1024) (i : Fin 1024), y = ix2 r i := ⟨y 0, y 1, eq_ix2 y⟩
  have hN : cfg1.N = 16 := N_1
  have hb : t.val * 1024 + r.val < 16384 := by have := t.isLt; have := r.isLt; omega
  show out1_8 (iblk1 V c 0 t) (iblk1 V c 1 t) (iblk1 V c 2 t) (iblk1 V c 3 t) (iblk1 V c 4 t) (iblk1 V c 5 t) (iblk1 V c 6 t) (iblk1 V c 7 t) (ix2 r i)
      = GK (V c main_v18) (V c main_v0) (V c main_v2) (V c main_v1) (V c main_v3) (V c main_v4) (V c main_v5) (V c main_v6) (((cfg1.win 8).blk t).view.emb (ix2 r i))
  rw [emb_out t r i hb, GK_apply,
    Cert.BlockGrad.out1_8_apply (iblk1 V c 0 t) (iblk1 V c 1 t) (iblk1 V c 2 t) (iblk1 V c 3 t) (iblk1 V c 4 t) (iblk1 V c 5 t) (iblk1 V c 6 t) (iblk1 V c 7 t) r i]
  have e0 : ∀ k : Fin 1024, iblk1 V c 0 t (ix2 r k) = V c main_v18 (ix2 (⟨t.val * 1024 + r.val, hb⟩ : Fin 16384) k) := fun k => by
    show V c main_v18 (((cfg1.win 0).blk t).view.emb (ix2 r k)) = _
    rw [emb_in t r k hb]
  have e1 : ∀ (k : Fin 1024) (j : Fin 256), iblk1 V c 1 t (ix2 k j) = V c main_v0 (ix2 k j) := fun k j => by
    show V c main_v0 (((cfg1.win 1).blk t).view.emb (ix2 k j)) = _
    rw [emb_w1 t k j]
  have e2 : ∀ (j : Fin 256) (i' : Fin 1024), iblk1 V c 2 t (ix2 j i') = V c main_v2 (ix2 j i') := fun j i' => by
    show V c main_v2 (((cfg1.win 2).blk t).view.emb (ix2 j i')) = _
    rw [emb_w2 t j i']
  have e3 : ∀ (k j : Fin 256), iblk1 V c 3 t (ix2 k j) = V c main_v1 (ix2 k j) := fun k j => by
    show V c main_v1 (((cfg1.win 3).blk t).view.emb (ix2 k j)) = _
    rw [emb_w3 t k j]
  have e4 : ∀ (k j : Fin 256), iblk1 V c 4 t (ix2 k j) = V c main_v3 (ix2 k j) := fun k j => by
    show V c main_v3 (((cfg1.win 4).blk t).view.emb (ix2 k j)) = _
    rw [emb_w4 t k j]
  have e5 : ∀ (j : Fin 256), iblk1 V c 5 t (ix2 (0 : Fin 1) j) = V c main_v4 (ix2 (0 : Fin 1) j) := fun j => by
    show V c main_v4 (((cfg1.win 5).blk t).view.emb (ix2 (0 : Fin 1) j)) = _
    rw [emb_w5 t j]
  have e6 : ∀ (j : Fin 256), iblk1 V c 6 t (ix2 (0 : Fin 1) j) = V c main_v5 (ix2 (0 : Fin 1) j) := fun j => by
    show V c main_v5 (((cfg1.win 6).blk t).view.emb (ix2 (0 : Fin 1) j)) = _
    rw [emb_w6 t j]
  have e7 : ∀ (j : Fin 256), iblk1 V c 7 t (ix2 (0 : Fin 1) j) = V c main_v6 (ix2 (0 : Fin 1) j) := fun j => by
    show V c main_v6 (((cfg1.win 7).blk t).view.emb (ix2 (0 : Fin 1) j)) = _
    rw [emb_w7 t j]
  simp only [e0, e1, e2, e3, e4, e5, e6, e7]

/-- An index of the result array is in point t's block iff its row is among that block's 1024 rows. -/
theorem mem_blk (t : Fin cfg1.N) (i : S16384x1024.Idx) :
    i ∈ ((cfg1.win 8).blk t).view.set ↔ ∀ a : Fin 2, win1_8.index t a * S1024x1024.size a ≤ (i a).val ∧ (i a).val < win1_8.index t a * S1024x1024.size a + S1024x1024.size a := by
  show i ∈ ((View.whole main_v19).slice (win1_8.rect t)).set ↔ _
  rw [View.set_slice_whole, Rect.mem_set_unit]
  exact Iff.rfl

/-- The sixteen blocks tile the array: row ρ is in block ρ / 1024. -/
theorem cover (i : S16384x1024.Idx) : ∃ t : Fin cfg1.N, (cfg1.win 8).flush t = true ∧ i ∈ ((cfg1.win 8).blk t).view.set := by
  have hN : cfg1.N = 16 := N_1
  have h0 : (i 0).val < 16384 := (i 0).isLt
  have h1 : (i 1).val < 1024 := (i 1).isLt
  refine ⟨⟨(i 0).val / 1024, by omega⟩, flush1_8 _, ?_⟩
  rw [mem_blk]
  obtain ⟨-, -, e2, e3, -⟩ := idx_facts (⟨(i 0).val / 1024, by omega⟩ : Fin cfg1.N)
  intro a
  match a with
  | ⟨0, _⟩ => show win1_8.index _ (0 : Fin 2) * 1024 ≤ (i 0).val ∧ (i 0).val < win1_8.index _ (0 : Fin 2) * 1024 + 1024; rw [e2]; show (i 0).val / 1024 * 1024 ≤ (i 0).val ∧ (i 0).val < (i 0).val / 1024 * 1024 + 1024; omega
  | ⟨1, _⟩ => show win1_8.index _ (1 : Fin 2) * 1024 ≤ (i 1).val ∧ (i 1).val < win1_8.index _ (1 : Fin 2) * 1024 + 1024; rw [e3]; omega

/-- THE RESULT ARRAY after the launch: the whole-array gradient of the arrays the launch found. -/
theorem final (c : Dev nD) : (dat1 V c).arrAt 8 cfg1.N
    = GK (V c main_v18) (V c main_v0) (V c main_v2) (V c main_v1) (V c main_v3) (V c main_v4) (V c main_v5) (V c main_v6) :=
  (dat1 V c).arrAt_eq_of_cover 8 _ (fun t _ => flushed_eq V c t) cover

end Cert.KernelIdeal.Region1

end
-- ==== Proof.Region2.lean ====
/-
  Launch 2 of the gradient kernel, from blocks to the array.  The grid has sixteen points; point t reads rows
  1024·t … 1024·t + 1023 of the phase-space array (all 1024 columns) and the seven weight arrays whole, and writes
  rows 1024·t … 1024·t + 1023 of the result.  The body's value at a row is the one-sample analytic gradient of that
  row, so what point t writes back is block t of the whole-array gradient `GK` of the arrays as the launch finds them;
  the sixteen blocks tile the 16384 rows, so the result array ends holding `GK`.
-/
import proofs.«124128_j83270825935573_1_alg».proof.Proof.Gen.KernelIdeal.Frame
import proofs.«124128_j83270825935573_1_alg».proof.Proof.BlockGrad
import proofs.«124128_j83270825935573_1_alg».proof.Proof.GKDef
import Idealize.ShloMosaic.Lib.Pipeline.Value
import Idealize.ShloMosaic.Lib.ValueIdx

set_option maxRecDepth 16384

noncomputable section

namespace Cert.KernelIdeal.Region2

open Cert.KernelIdeal Cert.KernelIdeal.Gen Cert.GK
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the phase-space window and the result window sit at block row t, every
    weight window at the origin. -/
theorem idx_facts : ∀ t : Fin cfg2.N,
    win2_0.index t (0 : Fin 2) = t.val ∧ win2_0.index t (1 : Fin 2) = 0
    ∧ win2_8.index t (0 : Fin 2) = t.val ∧ win2_8.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Where point t's block of the phase-space window sits in its array: row 1024·t + r, the same column. -/
theorem emb_in (t : Fin cfg2.N) (r k : Fin 1024) (h : t.val * 1024 + r.val < 16384) :
    ((cfg2.win 0).blk t).view.emb (ix2 r k) = ix2 (⟨t.val * 1024 + r.val, h⟩ : Fin 16384) k := by
  obtain ⟨e0, e1, -⟩ := idx_facts t
  funext a; apply Fin.ext
  match a with
  | ⟨0, _⟩ => show win2_0.index t (0 : Fin 2) * 1024 + 1 * r.val = t.val * 1024 + r.val; omega
  | ⟨1, _⟩ => show win2_0.index t (1 : Fin 2) * 1024 + 1 * k.val = k.val; omega

/-- Where point t's block of the result window sits in its array. -/
theorem emb_out (t : Fin cfg2.N) (r i : Fin 1024) (h : t.val * 1024 + r.val < 16384) :
    ((cfg2.win 8).blk t).view.emb (ix2 r i) = ix2 (⟨t.val * 1024 + r.val, h⟩ : Fin 16384) i := by
  obtain ⟨-, -, e2, e3, -⟩ := idx_facts t
  funext a; apply Fin.ext
  match a with
  | ⟨0, _⟩ => show win2_8.index t (0 : Fin 2) * 1024 + 1 * r.val = t.val * 1024 + r.val; omega
  | ⟨1, _⟩ => show win2_8.index t (1 : Fin 2) * 1024 + 1 * i.val = i.val; omega

/-- A weight window's block is its whole array. -/
theorem emb_w1 (t : Fin cfg2.N) (k : Fin 1024) (j : Fin 256) : ((cfg2.win 1).blk t).view.emb (ix2 k j) = ix2 k j := by
  obtain ⟨-, -, -, -, e0, e1, -⟩ := idx_facts t
  funext a; apply Fin.ext
  match a with
  | ⟨0, _⟩ => show win2_1.index t (0 : Fin 2) * 1024 + 1 * k.val = k.val; omega
  | ⟨1, _⟩ => show win2_1.index t (1 : Fin 2) * 256 + 1 * j.val = j.val; omega
theorem emb_w2 (t : Fin cfg2.N) (j : Fin 256) (i : Fin 1024) : ((cfg2.win 2).blk t).view.emb (ix2 j i) = ix2 j i := by
  obtain ⟨-, -, -, -, -, -, e0, e1, -⟩ := idx_facts t
  funext a; apply Fin.ext
  match a with
  | ⟨0, _⟩ => show win2_2.index t (0 : Fin 2) * 256 + 1 * j.val = j.val; omega
  | ⟨1, _⟩ => show win2_2.index t (1 : Fin 2) * 1024 + 1 * i.val = i.val; omega
theorem emb_w3 (t : Fin cfg2.N) (k j : Fin 256) : ((cfg2.win 3).blk t).view.emb (ix2 k j) = ix2 k j := by
  obtain ⟨-, -, -, -, -, -, -, -, e0, e1, -⟩ := idx_facts t
  funext a; apply Fin.ext
  match a with
  | ⟨0, _⟩ => show win2_3.index t (0 : Fin 2) * 256 + 1 * k.val = k.val; omega
  | ⟨1, _⟩ => show win2_3.index t (1 : Fin 2) * 256 + 1 * j.val = j.val; omega
theorem emb_w4 (t : Fin cfg2.N) (k j : Fin 256) : ((cfg2.win 4).blk t).view.emb (ix2 k j) = ix2 k j := by
  obtain ⟨-, -, -, -, -, -, -, -, -, -, e0, e1, -⟩ := idx_facts t
  funext a; apply Fin.ext
  match a with
  | ⟨0, _⟩ => show win2_4.index t (0 : Fin 2) * 256 + 1 * k.val = k.val; omega
  | ⟨1, _⟩ => show win2_4.index t (1 : Fin 2) * 256 + 1 * j.val = j.val; omega
theorem emb_w5 (t : Fin cfg2.N) (j : Fin 256) : ((cfg2.win 5).blk t).view.emb (ix2 (0 : Fin 1) j) = ix2 (0 : Fin 1) j := by
  obtain ⟨-, -, -, -, -, -, -, -, -, -, -, -, e0, e1, -⟩ := idx_facts t
  funext a; apply Fin.ext
  match a with
  | ⟨0, _⟩ => show win2_5.index t (0 : Fin 2) * 1 + 1 * (0 : Fin 1).val = (0 : Fin 1).val; omega
  | ⟨1, _⟩ => show win2_5.index t (1 : Fin 2) * 256 + 1 * j.val = j.val; omega
theorem emb_w6 (t : Fin cfg2.N) (j : Fin 256) : ((cfg2.win 6).blk t).view.emb (ix2 (0 : Fin 1) j) = ix2 (0 : Fin 1) j := by
  obtain ⟨-, -, -, -, -, -, -, -, -, -, -, -, -, -, e0, e1, -⟩ := idx_facts t
  funext a; apply Fin.ext
  match a with
  | ⟨0, _⟩ => show win2_6.index t (0 : Fin 2) * 1 + 1 * (0 : Fin 1).val = (0 : Fin 1).val; omega
  | ⟨1, _⟩ => show win2_6.index t (1 : Fin 2) * 256 + 1 * j.val = j.val; omega
theorem emb_w7 (t : Fin cfg2.N) (j : Fin 256) : ((cfg2.win 7).blk t).view.emb (ix2 (0 : Fin 1) j) = ix2 (0 : Fin 1) j := by
  obtain ⟨-, -, -, -, -, -, -, -, -, -, -, -, -, -, -, -, e0, e1⟩ := idx_facts t
  funext a; apply Fin.ext
  match a with
  | ⟨0, _⟩ => show win2_7.index t (0 : Fin 2) * 1 + 1 * (0 : Fin 1).val = (0 : Fin 1).val; omega
  | ⟨1, _⟩ => show win2_7.index t (1 : Fin 2) * 256 + 1 * j.val = j.val; omega

/-- WHAT POINT t WRITES BACK is block t of the whole-array gradient of the arrays the launch finds. -/
theorem flushed_eq (c : Dev nD) (t : Fin cfg2.N) :
    (dat2 V c).flushed 8 t = ((cfg2.win 8).blk t).view.read (Elt Ideal)
      (GK (V c main_v24) (V c main_v0) (V c main_v2) (V c main_v1) (V c main_v3) (V c main_v4) (V c main_v5) (V c main_v6)) := by
  show (cfg2.win 8).cut (grid2.coords t) ((dat2 V c).after 8 t) = _
  rw [after2_8]
  funext y
  obtain ⟨r, i, rfl⟩ : ∃ (r : Fin 1024) (i : Fin 1024), y = ix2 r i := ⟨y 0, y 1, eq_ix2 y⟩
  have hN : cfg2.N = 16 := N_2
  have hb : t.val * 1024 + r.val < 16384 := by have := t.isLt; have := r.isLt; omega
  show out2_8 (iblk2 V c 0 t) (iblk2 V c 1 t) (iblk2 V c 2 t) (iblk2 V c 3 t) (iblk2 V c 4 t) (iblk2 V c 5 t) (iblk2 V c 6 t) (iblk2 V c 7 t) (ix2 r i)
      = GK (V c main_v24) (V c main_v0) (V c main_v2) (V c main_v1) (V c main_v3) (V c main_v4) (V c main_v5) (V c main_v6) (((cfg2.win 8).blk t).view.emb (ix2 r i))
  rw [emb_out t r i hb, GK_apply,
    Cert.BlockGrad.out2_8_apply (iblk2 V c 0 t) (iblk2 V c 1 t) (iblk2 V c 2 t) (iblk2 V c 3 t) (iblk2 V c 4 t) (iblk2 V c 5 t) (iblk2 V c 6 t) (iblk2 V c 7 t) r i]
  have e0 : ∀ k : Fin 1024, iblk2 V c 0 t (ix2 r k) = V c main_v24 (ix2 (⟨t.val * 1024 + r.val, hb⟩ : Fin 16384) k) := fun k => by
    show V c main_v24 (((cfg2.win 0).blk t).view.emb (ix2 r k)) = _
    rw [emb_in t r k hb]
  have e1 : ∀ (k : Fin 1024) (j : Fin 256), iblk2 V c 1 t (ix2 k j) = V c main_v0 (ix2 k j) := fun k j => by
    show V c main_v0 (((cfg2.win 1).blk t).view.emb (ix2 k j)) = _
    rw [emb_w1 t k j]
  have e2 : ∀ (j : Fin 256) (i' : Fin 1024), iblk2 V c 2 t (ix2 j i') = V c main_v2 (ix2 j i') := fun j i' => by
    show V c main_v2 (((cfg2.win 2).blk t).view.emb (ix2 j i')) = _
    rw [emb_w2 t j i']
  have e3 : ∀ (k j : Fin 256), iblk2 V c 3 t (ix2 k j) = V c main_v1 (ix2 k j) := fun k j => by
    show V c main_v1 (((cfg2.win 3).blk t).view.emb (ix2 k j)) = _
    rw [emb_w3 t k j]
  have e4 : ∀ (k j : Fin 256), iblk2 V c 4 t (ix2 k j) = V c main_v3 (ix2 k j) := fun k j => by
    show V c main_v3 (((cfg2.win 4).blk t).view.emb (ix2 k j)) = _
    rw [emb_w4 t k j]
  have e5 : ∀ (j : Fin 256), iblk2 V c 5 t (ix2 (0 : Fin 1) j) = V c main_v4 (ix2 (0 : Fin 1) j) := fun j => by
    show V c main_v4 (((cfg2.win 5).blk t).view.emb (ix2 (0 : Fin 1) j)) = _
    rw [emb_w5 t j]
  have e6 : ∀ (j : Fin 256), iblk2 V c 6 t (ix2 (0 : Fin 1) j) = V c main_v5 (ix2 (0 : Fin 1) j) := fun j => by
    show V c main_v5 (((cfg2.win 6).blk t).view.emb (ix2 (0 : Fin 1) j)) = _
    rw [emb_w6 t j]
  have e7 : ∀ (j : Fin 256), iblk2 V c 7 t (ix2 (0 : Fin 1) j) = V c main_v6 (ix2 (0 : Fin 1) j) := fun j => by
    show V c main_v6 (((cfg2.win 7).blk t).view.emb (ix2 (0 : Fin 1) j)) = _
    rw [emb_w7 t j]
  simp only [e0, e1, e2, e3, e4, e5, e6, e7]

/-- An index of the result array is in point t's block iff its row is among that block's 1024 rows. -/
theorem mem_blk (t : Fin cfg2.N) (i : S16384x1024.Idx) :
    i ∈ ((cfg2.win 8).blk t).view.set ↔ ∀ a : Fin 2, win2_8.index t a * S1024x1024.size a ≤ (i a).val ∧ (i a).val < win2_8.index t a * S1024x1024.size a + S1024x1024.size a := by
  show i ∈ ((View.whole main_v25).slice (win2_8.rect t)).set ↔ _
  rw [View.set_slice_whole, Rect.mem_set_unit]
  exact Iff.rfl

/-- The sixteen blocks tile the array: row ρ is in block ρ / 1024. -/
theorem cover (i : S16384x1024.Idx) : ∃ t : Fin cfg2.N, (cfg2.win 8).flush t = true ∧ i ∈ ((cfg2.win 8).blk t).view.set := by
  have hN : cfg2.N = 16 := N_2
  have h0 : (i 0).val < 16384 := (i 0).isLt
  have h1 : (i 1).val < 1024 := (i 1).isLt
  refine ⟨⟨(i 0).val / 1024, by omega⟩, flush2_8 _, ?_⟩
  rw [mem_blk]
  obtain ⟨-, -, e2, e3, -⟩ := idx_facts (⟨(i 0).val / 1024, by omega⟩ : Fin cfg2.N)
  intro a
  match a with
  | ⟨0, _⟩ => show win2_8.index _ (0 : Fin 2) * 1024 ≤ (i 0).val ∧ (i 0).val < win2_8.index _ (0 : Fin 2) * 1024 + 1024; rw [e2]; show (i 0).val / 1024 * 1024 ≤ (i 0).val ∧ (i 0).val < (i 0).val / 1024 * 1024 + 1024; omega
  | ⟨1, _⟩ => show win2_8.index _ (1 : Fin 2) * 1024 ≤ (i 1).val ∧ (i 1).val < win2_8.index _ (1 : Fin 2) * 1024 + 1024; rw [e3]; omega

/-- THE RESULT ARRAY after the launch: the whole-array gradient of the arrays the launch found. -/
theorem final (c : Dev nD) : (dat2 V c).arrAt 8 cfg2.N
    = GK (V c main_v24) (V c main_v0) (V c main_v2) (V c main_v1) (V c main_v3) (V c main_v4) (V c main_v5) (V c main_v6) :=
  (dat2 V c).arrAt_eq_of_cover 8 _ (fun t _ => flushed_eq V c t) cover

end Cert.KernelIdeal.Region2

end
-- ==== Proof.Chain0.lean ====
/-
  Leapfrog step 0 on the kernel program's side: launches 0, 1, 2 and the host stretches around them.  At each boundary
  the live arrays are named — positions q, momenta p and q ‖ p on entry; after the first launch its gradient array; then
  the half-stepped momenta; after the second launch the full-stepped positions; after the third the second half step,
  the next phase-space array and its halves.
-/
import proofs.«124128_j83270825935573_1_alg».proof.Proof.ChainDefs
import proofs.«124128_j83270825935573_1_alg».proof.Proof.Region0
import proofs.«124128_j83270825935573_1_alg».proof.Proof.Region1
import proofs.«124128_j83270825935573_1_alg».proof.Proof.Region2

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

set_option maxHeartbeats 4000000 in
theorem a0_q (c : Dev nD) : W1 m ρ c (Proc.devRef .tc main_v9) = (Cert.Leap.lo (Z0 m c)) := by
  show StableHlo.after hostOps0 (W0 m ρ c) (Proc.devRef .tc main_v9) = _
  read_stretch
  rfl
set_option maxHeartbeats 4000000 in
theorem a0_p (c : Dev nD) : W1 m ρ c (Proc.devRef .tc main_v10) = (Cert.Leap.hi (Z0 m c)) := by
  show StableHlo.after hostOps0 (W0 m ρ c) (Proc.devRef .tc main_v10) = _
  read_stretch
  rfl
set_option maxHeartbeats 4000000 in
theorem a0_zc (c : Dev nD) : W1 m ρ c (Proc.devRef .tc main_v11) = Cert.Leap.cat (Cert.Leap.lo (Z0 m c)) (Cert.Leap.hi (Z0 m c)) := by
  show StableHlo.after hostOps0 (W0 m ρ c) (Proc.devRef .tc main_v11) = _
  read_stretch
  rfl
theorem b0_q (c : Dev nD) : W2 m ρ c (Proc.devRef .tc main_v9) = (Cert.Leap.lo (Z0 m c)) :=
  (W2_of_ne m ρ c main_v9 (by decide)).trans (a0_q m ρ c)
theorem b0_p (c : Dev nD) : W2 m ρ c (Proc.devRef .tc main_v10) = (Cert.Leap.hi (Z0 m c)) :=
  (W2_of_ne m ρ c main_v10 (by decide)).trans (a0_p m ρ c)

/-- Launch 0 leaves the reference's gradient of the array it was given. -/
theorem reg0 (hpre : Cert.Pre_KernelIdeal m) (c : Dev nD) :
    W2 m ρ c (Proc.devRef .tc main_v12) = Gm m c (W1 m ρ c (Proc.devRef .tc main_v11)) :=
  calc W2 m ρ c (Proc.devRef .tc main_v12)
      = (dat0 (V1 m ρ) c).arrAt 8 cfg0.N := W2_arr m ρ c 8
    _ = Cert.GK.GK (W1 m ρ c (Proc.devRef .tc main_v11)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := Cert.KernelIdeal.Region0.final (V1 m ρ) c
    _ = Cert.GK.GK (W1 m ρ c (Proc.devRef .tc main_v11)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := by rfl
    _ = Gm m c (W1 m ρ c (Proc.devRef .tc main_v11)) := bridge m ρ hpre c _
theorem b0_g (hpre : Cert.Pre_KernelIdeal m) (c : Dev nD) : W2 m ρ c (Proc.devRef .tc main_v12) = (Gm m c) (Cert.Leap.cat (Cert.Leap.lo (Z0 m c)) (Cert.Leap.hi (Z0 m c))) := by
  rw [reg0 m ρ hpre c, a0_zc m ρ c]
set_option maxHeartbeats 4000000 in
theorem c0_q (c : Dev nD) : W3 m ρ c (Proc.devRef .tc main_v9) = (Cert.Leap.lo (Z0 m c)) := by
  show StableHlo.after hostOps1 (W2 m ρ c) (Proc.devRef .tc main_v9) = _
  read_stretch
  exact b0_q m ρ c
set_option maxHeartbeats 4000000 in
theorem c0_P1 (hpre : Cert.Pre_KernelIdeal m) (c : Dev nD) : W3 m ρ c (Proc.devRef .tc main_v17) = (Cert.Leap.p1 (Gm m c) (Cert.Leap.lo (Z0 m c)) (Cert.Leap.hi (Z0 m c))) := by
  show StableHlo.after hostOps1 (W2 m ρ c) (Proc.devRef .tc main_v17) = _
  read_stretch
  rw [b0_p m ρ c, b0_g m ρ hpre c]
  rfl
set_option maxHeartbeats 4000000 in
theorem c0_c1 (hpre : Cert.Pre_KernelIdeal m) (c : Dev nD) : W3 m ρ c (Proc.devRef .tc main_v18) = Cert.Leap.cat (Cert.Leap.lo (Z0 m c)) (Cert.Leap.p1 (Gm m c) (Cert.Leap.lo (Z0 m c)) (Cert.Leap.hi (Z0 m c))) := by
  show StableHlo.after hostOps1 (W2 m ρ c) (Proc.devRef .tc main_v18) = _
  read_stretch
  rw [b0_q m ρ c, b0_p m ρ c, b0_g m ρ hpre c]
  rfl
theorem d0_q (c : Dev nD) : W4 m ρ c (Proc.devRef .tc main_v9) = (Cert.Leap.lo (Z0 m c)) :=
  (W4_of_ne m ρ c main_v9 (by decide)).trans (c0_q m ρ c)
theorem d0_P1 (hpre : Cert.Pre_KernelIdeal m) (c : Dev nD) : W4 m ρ c (Proc.devRef .tc main_v17) = (Cert.Leap.p1 (Gm m c) (Cert.Leap.lo (Z0 m c)) (Cert.Leap.hi (Z0 m c))) :=
  (W4_of_ne m ρ c main_v17 (by decide)).trans (c0_P1 m ρ hpre c)

/-- Launch 1 leaves the reference's gradient of the array it was given. -/
theorem reg1 (hpre : Cert.Pre_KernelIdeal m) (c : Dev nD) :
    W4 m ρ c (Proc.devRef .tc main_v19) = Gm m c (W3 m ρ c (Proc.devRef .tc main_v18)) :=
  calc W4 m ρ c (Proc.devRef .tc main_v19)
      = (dat1 (V3 m ρ) c).arrAt 8 cfg1.N := W4_arr m ρ c 8
    _ = Cert.GK.GK (W3 m ρ c (Proc.devRef .tc main_v18)) (W3 m ρ c (Proc.devRef .tc main_v0)) (W3 m ρ c (Proc.devRef .tc main_v2)) (W3 m ρ c (Proc.devRef .tc main_v1)) (W3 m ρ c (Proc.devRef .tc main_v3)) (W3 m ρ c (Proc.devRef .tc main_v4)) (W3 m ρ c (Proc.devRef .tc main_v5)) (W3 m ρ c (Proc.devRef .tc main_v6)) := Cert.KernelIdeal.Region1.final (V3 m ρ) c
    _ = Cert.GK.GK (W3 m ρ c (Proc.devRef .tc main_v18)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := by rw [wk3_v0 m ρ c, wk3_v2 m ρ c, wk3_v1 m ρ c, wk3_v3 m ρ c, wk3_v4 m ρ c, wk3_v5 m ρ c, wk3_v6 m ρ c]
    _ = Gm m c (W3 m ρ c (Proc.devRef .tc main_v18)) := bridge m ρ hpre c _
theorem d0_g (hpre : Cert.Pre_KernelIdeal m) (c : Dev nD) : W4 m ρ c (Proc.devRef .tc main_v19) = (Gm m c) (Cert.Leap.cat (Cert.Leap.lo (Z0 m c)) (Cert.Leap.p1 (Gm m c) (Cert.Leap.lo (Z0 m c)) (Cert.Leap.hi (Z0 m c)))) := by
  rw [reg1 m ρ hpre c, c0_c1 m ρ hpre c]
set_option maxHeartbeats 4000000 in
theorem e0_P1 (hpre : Cert.Pre_KernelIdeal m) (c : Dev nD) : W5 m ρ c (Proc.devRef .tc main_v17) = (Cert.Leap.p1 (Gm m c) (Cert.Leap.lo (Z0 m c)) (Cert.Leap.hi (Z0 m c))) := by
  show StableHlo.after hostOps2 (W4 m ρ c) (Proc.devRef .tc main_v17) = _
  read_stretch
  exact d0_P1 m ρ hpre c
set_option maxHeartbeats 4000000 in
theorem e0_Q1 (hpre : Cert.Pre_KernelIdeal m) (c : Dev nD) : W5 m ρ c (Proc.devRef .tc main_v23) = (Cert.Leap.q1 (Gm m c) (Cert.Leap.lo (Z0 m c)) (Cert.Leap.hi (Z0 m c))) := by
  show StableHlo.after hostOps2 (W4 m ρ c) (Proc.devRef .tc main_v23) = _
  read_stretch
  rw [d0_q m ρ c, d0_g m ρ hpre c]
  rfl
set_option maxHeartbeats 4000000 in
theorem e0_c2 (hpre : Cert.Pre_KernelIdeal m) (c : Dev nD) : W5 m ρ c (Proc.devRef .tc main_v24) = Cert.Leap.cat (Cert.Leap.q1 (Gm m c) (Cert.Leap.lo (Z0 m c)) (Cert.Leap.hi (Z0 m c))) (Cert.Leap.p1 (Gm m c) (Cert.Leap.lo (Z0 m c)) (Cert.Leap.hi (Z0 m c))) := by
  show StableHlo.after hostOps2 (W4 m ρ c) (Proc.devRef .tc main_v24) = _
  read_stretch
  rw [d0_q m ρ c, d0_g m ρ hpre c, d0_P1 m ρ hpre c]
  rfl
theorem f0_P1 (hpre : Cert.Pre_KernelIdeal m) (c : Dev nD) : W6 m ρ c (Proc.devRef .tc main_v17) = (Cert.Leap.p1 (Gm m c) (Cert.Leap.lo (Z0 m c)) (Cert.Leap.hi (Z0 m c))) :=
  (W6_of_ne m ρ c main_v17 (by decide)).trans (e0_P1 m ρ hpre c)
theorem f0_Q1 (hpre : Cert.Pre_KernelIdeal m) (c : Dev nD) : W6 m ρ c (Proc.devRef .tc main_v23) = (Cert.Leap.q1 (Gm m c) (Cert.Leap.lo (Z0 m c)) (Cert.Leap.hi (Z0 m c))) :=
  (W6_of_ne m ρ c main_v23 (by decide)).trans (e0_Q1 m ρ hpre c)

/-- Launch 2 leaves the reference's gradient of the array it was given. -/
theorem reg2 (hpre : Cert.Pre_KernelIdeal m) (c : Dev nD) :
    W6 m ρ c (Proc.devRef .tc main_v25) = Gm m c (W5 m ρ c (Proc.devRef .tc main_v24)) :=
  calc W6 m ρ c (Proc.devRef .tc main_v25)
      = (dat2 (V5 m ρ) c).arrAt 8 cfg2.N := W6_arr m ρ c 8
    _ = Cert.GK.GK (W5 m ρ c (Proc.devRef .tc main_v24)) (W5 m ρ c (Proc.devRef .tc main_v0)) (W5 m ρ c (Proc.devRef .tc main_v2)) (W5 m ρ c (Proc.devRef .tc main_v1)) (W5 m ρ c (Proc.devRef .tc main_v3)) (W5 m ρ c (Proc.devRef .tc main_v4)) (W5 m ρ c (Proc.devRef .tc main_v5)) (W5 m ρ c (Proc.devRef .tc main_v6)) := Cert.KernelIdeal.Region2.final (V5 m ρ) c
    _ = Cert.GK.GK (W5 m ρ c (Proc.devRef .tc main_v24)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := by rw [wk5_v0 m ρ c, wk5_v2 m ρ c, wk5_v1 m ρ c, wk5_v3 m ρ c, wk5_v4 m ρ c, wk5_v5 m ρ c, wk5_v6 m ρ c]
    _ = Gm m c (W5 m ρ c (Proc.devRef .tc main_v24)) := bridge m ρ hpre c _
theorem f0_g (hpre : Cert.Pre_KernelIdeal m) (c : Dev nD) : W6 m ρ c (Proc.devRef .tc main_v25) = (Gm m c) (Cert.Leap.cat (Cert.Leap.q1 (Gm m c) (Cert.Leap.lo (Z0 m c)) (Cert.Leap.hi (Z0 m c))) (Cert.Leap.p1 (Gm m c) (Cert.Leap.lo (Z0 m c)) (Cert.Leap.hi (Z0 m c)))) := by
  rw [reg2 m ρ hpre c, e0_c2 m ρ hpre c]
set_option maxHeartbeats 4000000 in
theorem a1_q (hpre : Cert.Pre_KernelIdeal m) (c : Dev nD) : W7 m ρ c (Proc.devRef .tc main_v32) = Cert.Leap.lo (Z1 m c) := by
  show StableHlo.after hostOps3 (W6 m ρ c) (Proc.devRef .tc main_v32) = _
  read_stretch
  rw [f0_Q1 m ρ hpre c, f0_P1 m ρ hpre c, f0_g m ρ hpre c]
  rfl
set_option maxHeartbeats 4000000 in
theorem a1_p (hpre : Cert.Pre_KernelIdeal m) (c : Dev nD) : W7 m ρ c (Proc.devRef .tc main_v33) = Cert.Leap.hi (Z1 m c) := by
  show StableHlo.after hostOps3 (W6 m ρ c) (Proc.devRef .tc main_v33) = _
  read_stretch
  rw [f0_Q1 m ρ hpre c, f0_P1 m ρ hpre c, f0_g m ρ hpre c]
  rfl
set_option maxHeartbeats 4000000 in
theorem a1_zc (hpre : Cert.Pre_KernelIdeal m) (c : Dev nD) : W7 m ρ c (Proc.devRef .tc main_v34) = Cert.Leap.cat (Cert.Leap.lo (Z1 m c)) (Cert.Leap.hi (Z1 m c)) := by
  show StableHlo.after hostOps3 (W6 m ρ c) (Proc.devRef .tc main_v34) = _
  read_stretch
  rw [f0_Q1 m ρ hpre c, f0_P1 m ρ hpre c, f0_g m ρ hpre c]
  rfl

end Cert.KernelIdeal.Chain

end
-- ==== Proof.Region3.lean ====
/-
  Launch 3 of the gradient kernel, from blocks to the array.  The grid has sixteen points; point t reads rows
  1024·t … 1024·t + 1023 of the phase-space array (all 1024 columns) and the seven weight arrays whole, and writes
  rows 1024·t … 1024·t + 1023 of the result.  The body's value at a row is the one-sample analytic gradient of that
  row, so what point t writes back is block t of the whole-array gradient `GK` of the arrays as the launch finds them;
  the sixteen blocks tile the 16384 rows, so the result array ends holding `GK`.
-/
import proofs.«124128_j83270825935573_1_alg».proof.Proof.Gen.KernelIdeal.Frame
import proofs.«124128_j83270825935573_1_alg».proof.Proof.BlockGrad
import proofs.«124128_j83270825935573_1_alg».proof.Proof.GKDef
import Idealize.ShloMosaic.Lib.Pipeline.Value
import Idealize.ShloMosaic.Lib.ValueIdx

set_option maxRecDepth 16384

noncomputable section

namespace Cert.KernelIdeal.Region3

open Cert.KernelIdeal Cert.KernelIdeal.Gen Cert.GK
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the phase-space window and the result window sit at block row t, every
    weight window at the origin. -/
theorem idx_facts : ∀ t : Fin cfg3.N,
    win3_0.index t (0 : Fin 2) = t.val ∧ win3_0.index t (1 : Fin 2) = 0
    ∧ win3_8.index t (0 : Fin 2) = t.val ∧ win3_8.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- Where point t's block of the phase-space window sits in its array: row 1024·t + r, the same column. -/
theorem emb_in (t : Fin cfg3.N) (r k : Fin 1024) (h : t.val * 1024 + r.val < 16384) :
    ((cfg3.win 0).blk t).view.emb (ix2 r k) = ix2 (⟨t.val * 1024 + r.val, h⟩ : Fin 16384) k := by
  obtain ⟨e0, e1, -⟩ := idx_facts t
  funext a; apply Fin.ext
  match a with
  | ⟨0, _⟩ => show win3_0.index t (0 : Fin 2) * 1024 + 1 * r.val = t.val * 1024 + r.val; omega
  | ⟨1, _⟩ => show win3_0.index t (1 : Fin 2) * 1024 + 1 * k.val = k.val; omega

/-- Where point t's block of the result window sits in its array. -/
theorem emb_out (t : Fin cfg3.N) (r i : Fin 1024) (h : t.val * 1024 + r.val < 16384) :
    ((cfg3.win 8).blk t).view.emb (ix2 r i) = ix2 (⟨t.val * 1024 + r.val, h⟩ : Fin 16384) i := by
  obtain ⟨-, -, e2, e3, -⟩ := idx_facts t
  funext a; apply Fin.ext
  match a with
  | ⟨0, _⟩ => show win3_8.index t (0 : Fin 2) * 1024 + 1 * r.val = t.val * 1024 + r.val; omega
  | ⟨1, _⟩ => show win3_8.index t (1 : Fin 2) * 1024 + 1 * i.val = i.val; omega

/-- A weight window's block is its whole array. -/
theorem emb_w1 (t : Fin cfg3.N) (k : Fin 1024) (j : Fin 256) : ((cfg3.win 1).blk t).view.emb (ix2 k j) = ix2 k j := by
  obtain ⟨-, -, -, -, e0, e1, -⟩ := idx_facts t
  funext a; apply Fin.ext
  match a with
  | ⟨0, _⟩ => show win3_1.index t (0 : Fin 2) * 1024 + 1 * k.val = k.val; omega
  | ⟨1, _⟩ => show win3_1.index t (1 : Fin 2) * 256 + 1 * j.val = j.val; omega
theorem emb_w2 (t : Fin cfg3.N) (j : Fin 256) (i : Fin 1024) : ((cfg3.win 2).blk t).view.emb (ix2 j i) = ix2 j i := by
  obtain ⟨-, -, -, -, -, -, e0, e1, -⟩ := idx_facts t
  funext a; apply Fin.ext
  match a with
  | ⟨0, _⟩ => show win3_2.index t (0 : Fin 2) * 256 + 1 * j.val = j.val; omega
  | ⟨1, _⟩ => show win3_2.index t (1 : Fin 2) * 1024 + 1 * i.val = i.val; omega
theorem emb_w3 (t : Fin cfg3.N) (k j : Fin 256) : ((cfg3.win 3).blk t).view.emb (ix2 k j) = ix2 k j := by
  obtain ⟨-, -, -, -, -, -, -, -, e0, e1, -⟩ := idx_facts t
  funext a; apply Fin.ext
  match a with
  | ⟨0, _⟩ => show win3_3.index t (0 : Fin 2) * 256 + 1 * k.val = k.val; omega
  | ⟨1, _⟩ => show win3_3.index t (1 : Fin 2) * 256 + 1 * j.val = j.val; omega
theorem emb_w4 (t : Fin cfg3.N) (k j : Fin 256) : ((cfg3.win 4).blk t).view.emb (ix2 k j) = ix2 k j := by
  obtain ⟨-, -, -, -, -, -, -, -, -, -, e0, e1, -⟩ := idx_facts t
  funext a; apply Fin.ext
  match a with
  | ⟨0, _⟩ => show win3_4.index t (0 : Fin 2) * 256 + 1 * k.val = k.val; omega
  | ⟨1, _⟩ => show win3_4.index t (1 : Fin 2) * 256 + 1 * j.val = j.val; omega
theorem emb_w5 (t : Fin cfg3.N) (j : Fin 256) : ((cfg3.win 5).blk t).view.emb (ix2 (0 : Fin 1) j) = ix2 (0 : Fin 1) j := by
  obtain ⟨-, -, -, -, -, -, -, -, -, -, -, -, e0, e1, -⟩ := idx_facts t
  funext a; apply Fin.ext
  match a with
  | ⟨0, _⟩ => show win3_5.index t (0 : Fin 2) * 1 + 1 * (0 : Fin 1).val = (0 : Fin 1).val; omega
  | ⟨1, _⟩ => show win3_5.index t (1 : Fin 2) * 256 + 1 * j.val = j.val; omega
theorem emb_w6 (t : Fin cfg3.N) (j : Fin 256) : ((cfg3.win 6).blk t).view.emb (ix2 (0 : Fin 1) j) = ix2 (0 : Fin 1) j := by
  obtain ⟨-, -, -, -, -, -, -, -, -, -, -, -, -, -, e0, e1, -⟩ := idx_facts t
  funext a; apply Fin.ext
  match a with
  | ⟨0, _⟩ => show win3_6.index t (0 : Fin 2) * 1 + 1 * (0 : Fin 1).val = (0 : Fin 1).val; omega
  | ⟨1, _⟩ => show win3_6.index t (1 : Fin 2) * 256 + 1 * j.val = j.val; omega
theorem emb_w7 (t : Fin cfg3.N) (j : Fin 256) : ((cfg3.win 7).blk t).view.emb (ix2 (0 : Fin 1) j) = ix2 (0 : Fin 1) j := by
  obtain ⟨-, -, -, -, -, -, -, -, -, -, -, -, -, -, -, -, e0, e1⟩ := idx_facts t
  funext a; apply Fin.ext
  match a with
  | ⟨0, _⟩ => show win3_7.index t (0 : Fin 2) * 1 + 1 * (0 : Fin 1).val = (0 : Fin 1).val; omega
  | ⟨1, _⟩ => show win3_7.index t (1 : Fin 2) * 256 + 1 * j.val = j.val; omega

/-- WHAT POINT t WRITES BACK is block t of the whole-array gradient of the arrays the launch finds. -/
theorem flushed_eq (c : Dev nD) (t : Fin cfg3.N) :
    (dat3 V c).flushed 8 t = ((cfg3.win 8).blk t).view.read (Elt Ideal)
      (GK (V c main_v34) (V c main_v0) (V c main_v2) (V c main_v1) (V c main_v3) (V c main_v4) (V c main_v5) (V c main_v6)) := by
  show (cfg3.win 8).cut (grid3.coords t) ((dat3 V c).after 8 t) = _
  rw [after3_8]
  funext y
  obtain ⟨r, i, rfl⟩ : ∃ (r : Fin 1024) (i : Fin 1024), y = ix2 r i := ⟨y 0, y 1, eq_ix2 y⟩
  have hN : cfg3.N = 16 := N_3
  have hb : t.val * 1024 + r.val < 16384 := by have := t.isLt; have := r.isLt; omega
  show out3_8 (iblk3 V c 0 t) (iblk3 V c 1 t) (iblk3 V c 2 t) (iblk3 V c 3 t) (iblk3 V c 4 t) (iblk3 V c 5 t) (iblk3 V c 6 t) (iblk3 V c 7 t) (ix2 r i)
      = GK (V c main_v34) (V c main_v0) (V c main_v2) (V c main_v1) (V c main_v3) (V c main_v4) (V c main_v5) (V c main_v6) (((cfg3.win 8).blk t).view.emb (ix2 r i))
  rw [emb_out t r i hb, GK_apply,
    Cert.BlockGrad.out3_8_apply (iblk3 V c 0 t) (iblk3 V c 1 t) (iblk3 V c 2 t) (iblk3 V c 3 t) (iblk3 V c 4 t) (iblk3 V c 5 t) (iblk3 V c 6 t) (iblk3 V c 7 t) r i]
  have e0 : ∀ k : Fin 1024, iblk3 V c 0 t (ix2 r k) = V c main_v34 (ix2 (⟨t.val * 1024 + r.val, hb⟩ : Fin 16384) k) := fun k => by
    show V c main_v34 (((cfg3.win 0).blk t).view.emb (ix2 r k)) = _
    rw [emb_in t r k hb]
  have e1 : ∀ (k : Fin 1024) (j : Fin 256), iblk3 V c 1 t (ix2 k j) = V c main_v0 (ix2 k j) := fun k j => by
    show V c main_v0 (((cfg3.win 1).blk t).view.emb (ix2 k j)) = _
    rw [emb_w1 t k j]
  have e2 : ∀ (j : Fin 256) (i' : Fin 1024), iblk3 V c 2 t (ix2 j i') = V c main_v2 (ix2 j i') := fun j i' => by
    show V c main_v2 (((cfg3.win 2).blk t).view.emb (ix2 j i')) = _
    rw [emb_w2 t j i']
  have e3 : ∀ (k j : Fin 256), iblk3 V c 3 t (ix2 k j) = V c main_v1 (ix2 k j) := fun k j => by
    show V c main_v1 (((cfg3.win 3).blk t).view.emb (ix2 k j)) = _
    rw [emb_w3 t k j]
  have e4 : ∀ (k j : Fin 256), iblk3 V c 4 t (ix2 k j) = V c main_v3 (ix2 k j) := fun k j => by
    show V c main_v3 (((cfg3.win 4).blk t).view.emb (ix2 k j)) = _
    rw [emb_w4 t k j]
  have e5 : ∀ (j : Fin 256), iblk3 V c 5 t (ix2 (0 : Fin 1) j) = V c main_v4 (ix2 (0 : Fin 1) j) := fun j => by
    show V c main_v4 (((cfg3.win 5).blk t).view.emb (ix2 (0 : Fin 1) j)) = _
    rw [emb_w5 t j]
  have e6 : ∀ (j : Fin 256), iblk3 V c 6 t (ix2 (0 : Fin 1) j) = V c main_v5 (ix2 (0 : Fin 1) j) := fun j => by
    show V c main_v5 (((cfg3.win 6).blk t).view.emb (ix2 (0 : Fin 1) j)) = _
    rw [emb_w6 t j]
  have e7 : ∀ (j : Fin 256), iblk3 V c 7 t (ix2 (0 : Fin 1) j) = V c main_v6 (ix2 (0 : Fin 1) j) := fun j => by
    show V c main_v6 (((cfg3.win 7).blk t).view.emb (ix2 (0 : Fin 1) j)) = _
    rw [emb_w7 t j]
  simp only [e0, e1, e2, e3, e4, e5, e6, e7]

/-- An index of the result array is in point t's block iff its row is among that block's 1024 rows. -/
theorem mem_blk (t : Fin cfg3.N) (i : S16384x1024.Idx) :
    i ∈ ((cfg3.win 8).blk t).view.set ↔ ∀ a : Fin 2, win3_8.index t a * S1024x1024.size a ≤ (i a).val ∧ (i a).val < win3_8.index t a * S1024x1024.size a + S1024x1024.size a := by
  show i ∈ ((View.whole main_v35).slice (win3_8.rect t)).set ↔ _
  rw [View.set_slice_whole, Rect.mem_set_unit]
  exact Iff.rfl

/-- The sixteen blocks tile the array: row ρ is in block ρ / 1024. -/
theorem cover (i : S16384x1024.Idx) : ∃ t : Fin cfg3.N, (cfg3.win 8).flush t = true ∧ i ∈ ((cfg3.win 8).blk t).view.set := by
  have hN : cfg3.N = 16 := N_3
  have h0 : (i 0).val < 16384 := (i 0).isLt
  have h1 : (i 1).val < 1024 := (i 1).isLt
  refine ⟨⟨(i 0).val / 1024, by omega⟩, flush3_8 _, ?_⟩
  rw [mem_blk]
  obtain ⟨-, -, e2, e3, -⟩ := idx_facts (⟨(i 0).val / 1024, by omega⟩ : Fin cfg3.N)
  intro a
  match a with
  | ⟨0, _⟩ => show win3_8.index _ (0 : Fin 2) * 1024 ≤ (i 0).val ∧ (i 0).val < win3_8.index _ (0 : Fin 2) * 1024 + 1024; rw [e2]; show (i 0).val / 1024 * 1024 ≤ (i 0).val ∧ (i 0).val < (i 0).val / 1024 * 1024 + 1024; omega
  | ⟨1, _⟩ => show win3_8.index _ (1 : Fin 2) * 1024 ≤ (i 1).val ∧ (i 1).val < win3_8.index _ (1 : Fin 2) * 1024 + 1024; rw [e3]; omega

/-- THE RESULT ARRAY after the launch: the whole-array gradient of the arrays the launch found. -/
theorem final (c : Dev nD) : (dat3 V c).arrAt 8 cfg3.N
    = GK (V c main_v34) (V c main_v0) (V c main_v2) (V c main_v1) (V c main_v3) (V c main_v4) (V c main_v5) (V c main_v6) :=
  (dat3 V c).arrAt_eq_of_cover 8 _ (fun t _ => flushed_eq V c t) cover

end Cert.KernelIdeal.Region3

end
-- ==== Proof.Region4.lean ====
/-
  Launch 4 of the gradient kernel, from blocks to the array.  The grid has sixteen points; point t reads rows
  1024·t … 1024·t + 1023 of the phase-space array (all 1024 columns) and the seven weight arrays whole, and writes
  rows 1024·t … 1024·t + 1023 of the result.  The body's value at a row is the one-sample analytic gradient of that
  row, so what point t writes back is block t of the whole-array gradient `GK` of the arrays as the launch finds them;
  the sixteen blocks tile the 16384 rows, so the result array ends holding `GK`.
-/
import proofs.«124128_j83270825935573_1_alg».proof.Proof.Gen.KernelIdeal.Frame
import proofs.«124128_j83270825935573_1_alg».proof.Proof.BlockGrad
import proofs.«124128_j83270825935573_1_alg».proof.Proof.GKDef
import Idealize.ShloMosaic.Lib.Pipeline.Value
import Idealize.ShloMosaic.Lib.ValueIdx

set_option maxRecDepth 16384

noncomputable section

namespace Cert.KernelIdeal.Region4

open Cert.KernelIdeal Cert.KernelIdeal.Gen Cert.GK
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the phase-space window and the result window sit at block row t, every
    weight window at the origin. -/
theorem idx_facts : ∀ t : Fin cfg4.N,
    win4_0.index t (0 : Fin 2) = t.val ∧ win4_0.index t (1 : Fin 2) = 0
    ∧ win4_8.index t (0 : Fin 2) = t.val ∧ win4_8.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Where point t's block of the phase-space window sits in its array: row 1024·t + r, the same column. -/
theorem emb_in (t : Fin cfg4.N) (r k : Fin 1024) (h : t.val * 1024 + r.val < 16384) :
    ((cfg4.win 0).blk t).view.emb (ix2 r k) = ix2 (⟨t.val * 1024 + r.val, h⟩ : Fin 16384) k := by
  obtain ⟨e0, e1, -⟩ := idx_facts t
  funext a; apply Fin.ext
  match a with
  | ⟨0, _⟩ => show win4_0.index t (0 : Fin 2) * 1024 + 1 * r.val = t.val * 1024 + r.val; omega
  | ⟨1, _⟩ => show win4_0.index t (1 : Fin 2) * 1024 + 1 * k.val = k.val; omega

/-- Where point t's block of the result window sits in its array. -/
theorem emb_out (t : Fin cfg4.N) (r i : Fin 1024) (h : t.val * 1024 + r.val < 16384) :
    ((cfg4.win 8).blk t).view.emb (ix2 r i) = ix2 (⟨t.val * 1024 + r.val, h⟩ : Fin 16384) i := by
  obtain ⟨-, -, e2, e3, -⟩ := idx_facts t
  funext a; apply Fin.ext
  match a with
  | ⟨0, _⟩ => show win4_8.index t (0 : Fin 2) * 1024 + 1 * r.val = t.val * 1024 + r.val; omega
  | ⟨1, _⟩ => show win4_8.index t (1 : Fin 2) * 1024 + 1 * i.val = i.val; omega

/-- A weight window's block is its whole array. -/
theorem emb_w1 (t : Fin cfg4.N) (k : Fin 1024) (j : Fin 256) : ((cfg4.win 1).blk t).view.emb (ix2 k j) = ix2 k j := by
  obtain ⟨-, -, -, -, e0, e1, -⟩ := idx_facts t
  funext a; apply Fin.ext
  match a with
  | ⟨0, _⟩ => show win4_1.index t (0 : Fin 2) * 1024 + 1 * k.val = k.val; omega
  | ⟨1, _⟩ => show win4_1.index t (1 : Fin 2) * 256 + 1 * j.val = j.val; omega
theorem emb_w2 (t : Fin cfg4.N) (j : Fin 256) (i : Fin 1024) : ((cfg4.win 2).blk t).view.emb (ix2 j i) = ix2 j i := by
  obtain ⟨-, -, -, -, -, -, e0, e1, -⟩ := idx_facts t
  funext a; apply Fin.ext
  match a with
  | ⟨0, _⟩ => show win4_2.index t (0 : Fin 2) * 256 + 1 * j.val = j.val; omega
  | ⟨1, _⟩ => show win4_2.index t (1 : Fin 2) * 1024 + 1 * i.val = i.val; omega
theorem emb_w3 (t : Fin cfg4.N) (k j : Fin 256) : ((cfg4.win 3).blk t).view.emb (ix2 k j) = ix2 k j := by
  obtain ⟨-, -, -, -, -, -, -, -, e0, e1, -⟩ := idx_facts t
  funext a; apply Fin.ext
  match a with
  | ⟨0, _⟩ => show win4_3.index t (0 : Fin 2) * 256 + 1 * k.val = k.val; omega
  | ⟨1, _⟩ => show win4_3.index t (1 : Fin 2) * 256 + 1 * j.val = j.val; omega
theorem emb_w4 (t : Fin cfg4.N) (k j : Fin 256) : ((cfg4.win 4).blk t).view.emb (ix2 k j) = ix2 k j := by
  obtain ⟨-, -, -, -, -, -, -, -, -, -, e0, e1, -⟩ := idx_facts t
  funext a; apply Fin.ext
  match a with
  | ⟨0, _⟩ => show win4_4.index t (0 : Fin 2) * 256 + 1 * k.val = k.val; omega
  | ⟨1, _⟩ => show win4_4.index t (1 : Fin 2) * 256 + 1 * j.val = j.val; omega
theorem emb_w5 (t : Fin cfg4.N) (j : Fin 256) : ((cfg4.win 5).blk t).view.emb (ix2 (0 : Fin 1) j) = ix2 (0 : Fin 1) j := by
  obtain ⟨-, -, -, -, -, -, -, -, -, -, -, -, e0, e1, -⟩ := idx_facts t
  funext a; apply Fin.ext
  match a with
  | ⟨0, _⟩ => show win4_5.index t (0 : Fin 2) * 1 + 1 * (0 : Fin 1).val = (0 : Fin 1).val; omega
  | ⟨1, _⟩ => show win4_5.index t (1 : Fin 2) * 256 + 1 * j.val = j.val; omega
theorem emb_w6 (t : Fin cfg4.N) (j : Fin 256) : ((cfg4.win 6).blk t).view.emb (ix2 (0 : Fin 1) j) = ix2 (0 : Fin 1) j := by
  obtain ⟨-, -, -, -, -, -, -, -, -, -, -, -, -, -, e0, e1, -⟩ := idx_facts t
  funext a; apply Fin.ext
  match a with
  | ⟨0, _⟩ => show win4_6.index t (0 : Fin 2) * 1 + 1 * (0 : Fin 1).val = (0 : Fin 1).val; omega
  | ⟨1, _⟩ => show win4_6.index t (1 : Fin 2) * 256 + 1 * j.val = j.val; omega
theorem emb_w7 (t : Fin cfg4.N) (j : Fin 256) : ((cfg4.win 7).blk t).view.emb (ix2 (0 : Fin 1) j) = ix2 (0 : Fin 1) j := by
  obtain ⟨-, -, -, -, -, -, -, -, -, -, -, -, -, -, -, -, e0, e1⟩ := idx_facts t
  funext a; apply Fin.ext
  match a with
  | ⟨0, _⟩ => show win4_7.index t (0 : Fin 2) * 1 + 1 * (0 : Fin 1).val = (0 : Fin 1).val; omega
  | ⟨1, _⟩ => show win4_7.index t (1 : Fin 2) * 256 + 1 * j.val = j.val; omega

/-- WHAT POINT t WRITES BACK is block t of the whole-array gradient of the arrays the launch finds. -/
theorem flushed_eq (c : Dev nD) (t : Fin cfg4.N) :
    (dat4 V c).flushed 8 t = ((cfg4.win 8).blk t).view.read (Elt Ideal)
      (GK (V c main_v41) (V c main_v0) (V c main_v2) (V c main_v1) (V c main_v3) (V c main_v4) (V c main_v5) (V c main_v6)) := by
  show (cfg4.win 8).cut (grid4.coords t) ((dat4 V c).after 8 t) = _
  rw [after4_8]
  funext y
  obtain ⟨r, i, rfl⟩ : ∃ (r : Fin 1024) (i : Fin 1024), y = ix2 r i := ⟨y 0, y 1, eq_ix2 y⟩
  have hN : cfg4.N = 16 := N_4
  have hb : t.val * 1024 + r.val < 16384 := by have := t.isLt; have := r.isLt; omega
  show out4_8 (iblk4 V c 0 t) (iblk4 V c 1 t) (iblk4 V c 2 t) (iblk4 V c 3 t) (iblk4 V c 4 t) (iblk4 V c 5 t) (iblk4 V c 6 t) (iblk4 V c 7 t) (ix2 r i)
      = GK (V c main_v41) (V c main_v0) (V c main_v2) (V c main_v1) (V c main_v3) (V c main_v4) (V c main_v5) (V c main_v6) (((cfg4.win 8).blk t).view.emb (ix2 r i))
  rw [emb_out t r i hb, GK_apply,
    Cert.BlockGrad.out4_8_apply (iblk4 V c 0 t) (iblk4 V c 1 t) (iblk4 V c 2 t) (iblk4 V c 3 t) (iblk4 V c 4 t) (iblk4 V c 5 t) (iblk4 V c 6 t) (iblk4 V c 7 t) r i]
  have e0 : ∀ k : Fin 1024, iblk4 V c 0 t (ix2 r k) = V c main_v41 (ix2 (⟨t.val * 1024 + r.val, hb⟩ : Fin 16384) k) := fun k => by
    show V c main_v41 (((cfg4.win 0).blk t).view.emb (ix2 r k)) = _
    rw [emb_in t r k hb]
  have e1 : ∀ (k : Fin 1024) (j : Fin 256), iblk4 V c 1 t (ix2 k j) = V c main_v0 (ix2 k j) := fun k j => by
    show V c main_v0 (((cfg4.win 1).blk t).view.emb (ix2 k j)) = _
    rw [emb_w1 t k j]
  have e2 : ∀ (j : Fin 256) (i' : Fin 1024), iblk4 V c 2 t (ix2 j i') = V c main_v2 (ix2 j i') := fun j i' => by
    show V c main_v2 (((cfg4.win 2).blk t).view.emb (ix2 j i')) = _
    rw [emb_w2 t j i']
  have e3 : ∀ (k j : Fin 256), iblk4 V c 3 t (ix2 k j) = V c main_v1 (ix2 k j) := fun k j => by
    show V c main_v1 (((cfg4.win 3).blk t).view.emb (ix2 k j)) = _
    rw [emb_w3 t k j]
  have e4 : ∀ (k j : Fin 256), iblk4 V c 4 t (ix2 k j) = V c main_v3 (ix2 k j) := fun k j => by
    show V c main_v3 (((cfg4.win 4).blk t).view.emb (ix2 k j)) = _
    rw [emb_w4 t k j]
  have e5 : ∀ (j : Fin 256), iblk4 V c 5 t (ix2 (0 : Fin 1) j) = V c main_v4 (ix2 (0 : Fin 1) j) := fun j => by
    show V c main_v4 (((cfg4.win 5).blk t).view.emb (ix2 (0 : Fin 1) j)) = _
    rw [emb_w5 t j]
  have e6 : ∀ (j : Fin 256), iblk4 V c 6 t (ix2 (0 : Fin 1) j) = V c main_v5 (ix2 (0 : Fin 1) j) := fun j => by
    show V c main_v5 (((cfg4.win 6).blk t).view.emb (ix2 (0 : Fin 1) j)) = _
    rw [emb_w6 t j]
  have e7 : ∀ (j : Fin 256), iblk4 V c 7 t (ix2 (0 : Fin 1) j) = V c main_v6 (ix2 (0 : Fin 1) j) := fun j => by
    show V c main_v6 (((cfg4.win 7).blk t).view.emb (ix2 (0 : Fin 1) j)) = _
    rw [emb_w7 t j]
  simp only [e0, e1, e2, e3, e4, e5, e6, e7]

/-- An index of the result array is in point t's block iff its row is among that block's 1024 rows. -/
theorem mem_blk (t : Fin cfg4.N) (i : S16384x1024.Idx) :
    i ∈ ((cfg4.win 8).blk t).view.set ↔ ∀ a : Fin 2, win4_8.index t a * S1024x1024.size a ≤ (i a).val ∧ (i a).val < win4_8.index t a * S1024x1024.size a + S1024x1024.size a := by
  show i ∈ ((View.whole main_v42).slice (win4_8.rect t)).set ↔ _
  rw [View.set_slice_whole, Rect.mem_set_unit]
  exact Iff.rfl

/-- The sixteen blocks tile the array: row ρ is in block ρ / 1024. -/
theorem cover (i : S16384x1024.Idx) : ∃ t : Fin cfg4.N, (cfg4.win 8).flush t = true ∧ i ∈ ((cfg4.win 8).blk t).view.set := by
  have hN : cfg4.N = 16 := N_4
  have h0 : (i 0).val < 16384 := (i 0).isLt
  have h1 : (i 1).val < 1024 := (i 1).isLt
  refine ⟨⟨(i 0).val / 1024, by omega⟩, flush4_8 _, ?_⟩
  rw [mem_blk]
  obtain ⟨-, -, e2, e3, -⟩ := idx_facts (⟨(i 0).val / 1024, by omega⟩ : Fin cfg4.N)
  intro a
  match a with
  | ⟨0, _⟩ => show win4_8.index _ (0 : Fin 2) * 1024 ≤ (i 0).val ∧ (i 0).val < win4_8.index _ (0 : Fin 2) * 1024 + 1024; rw [e2]; show (i 0).val / 1024 * 1024 ≤ (i 0).val ∧ (i 0).val < (i 0).val / 1024 * 1024 + 1024; omega
  | ⟨1, _⟩ => show win4_8.index _ (1 : Fin 2) * 1024 ≤ (i 1).val ∧ (i 1).val < win4_8.index _ (1 : Fin 2) * 1024 + 1024; rw [e3]; omega

/-- THE RESULT ARRAY after the launch: the whole-array gradient of the arrays the launch found. -/
theorem final (c : Dev nD) : (dat4 V c).arrAt 8 cfg4.N
    = GK (V c main_v41) (V c main_v0) (V c main_v2) (V c main_v1) (V c main_v3) (V c main_v4) (V c main_v5) (V c main_v6) :=
  (dat4 V c).arrAt_eq_of_cover 8 _ (fun t _ => flushed_eq V c t) cover

end Cert.KernelIdeal.Region4

end
-- ==== Proof.Region5.lean ====
/-
  Launch 5 of the gradient kernel, from blocks to the array.  The grid has sixteen points; point t reads rows
  1024·t … 1024·t + 1023 of the phase-space array (all 1024 columns) and the seven weight arrays whole, and writes
  rows 1024·t … 1024·t + 1023 of the result.  The body's value at a row is the one-sample analytic gradient of that
  row, so what point t writes back is block t of the whole-array gradient `GK` of the arrays as the launch finds them;
  the sixteen blocks tile the 16384 rows, so the result array ends holding `GK`.
-/
import proofs.«124128_j83270825935573_1_alg».proof.Proof.Gen.KernelIdeal.Frame
import proofs.«124128_j83270825935573_1_alg».proof.Proof.BlockGrad
import proofs.«124128_j83270825935573_1_alg».proof.Proof.GKDef
import Idealize.ShloMosaic.Lib.Pipeline.Value
import Idealize.ShloMosaic.Lib.ValueIdx

set_option maxRecDepth 16384

noncomputable section

namespace Cert.KernelIdeal.Region5

open Cert.KernelIdeal Cert.KernelIdeal.Gen Cert.GK
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the phase-space window and the result window sit at block row t, every
    weight window at the origin. -/
theorem idx_facts : ∀ t : Fin cfg5.N,
    win5_0.index t (0 : Fin 2) = t.val ∧ win5_0.index t (1 : Fin 2) = 0
    ∧ win5_8.index t (0 : Fin 2) = t.val ∧ win5_8.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

/-- Where point t's block of the phase-space window sits in its array: row 1024·t + r, the same column. -/
theorem emb_in (t : Fin cfg5.N) (r k : Fin 1024) (h : t.val * 1024 + r.val < 16384) :
    ((cfg5.win 0).blk t).view.emb (ix2 r k) = ix2 (⟨t.val * 1024 + r.val, h⟩ : Fin 16384) k := by
  obtain ⟨e0, e1, -⟩ := idx_facts t
  funext a; apply Fin.ext
  match a with
  | ⟨0, _⟩ => show win5_0.index t (0 : Fin 2) * 1024 + 1 * r.val = t.val * 1024 + r.val; omega
  | ⟨1, _⟩ => show win5_0.index t (1 : Fin 2) * 1024 + 1 * k.val = k.val; omega

/-- Where point t's block of the result window sits in its array. -/
theorem emb_out (t : Fin cfg5.N) (r i : Fin 1024) (h : t.val * 1024 + r.val < 16384) :
    ((cfg5.win 8).blk t).view.emb (ix2 r i) = ix2 (⟨t.val * 1024 + r.val, h⟩ : Fin 16384) i := by
  obtain ⟨-, -, e2, e3, -⟩ := idx_facts t
  funext a; apply Fin.ext
  match a with
  | ⟨0, _⟩ => show win5_8.index t (0 : Fin 2) * 1024 + 1 * r.val = t.val * 1024 + r.val; omega
  | ⟨1, _⟩ => show win5_8.index t (1 : Fin 2) * 1024 + 1 * i.val = i.val; omega

/-- A weight window's block is its whole array. -/
theorem emb_w1 (t : Fin cfg5.N) (k : Fin 1024) (j : Fin 256) : ((cfg5.win 1).blk t).view.emb (ix2 k j) = ix2 k j := by
  obtain ⟨-, -, -, -, e0, e1, -⟩ := idx_facts t
  funext a; apply Fin.ext
  match a with
  | ⟨0, _⟩ => show win5_1.index t (0 : Fin 2) * 1024 + 1 * k.val = k.val; omega
  | ⟨1, _⟩ => show win5_1.index t (1 : Fin 2) * 256 + 1 * j.val = j.val; omega
theorem emb_w2 (t : Fin cfg5.N) (j : Fin 256) (i : Fin 1024) : ((cfg5.win 2).blk t).view.emb (ix2 j i) = ix2 j i := by
  obtain ⟨-, -, -, -, -, -, e0, e1, -⟩ := idx_facts t
  funext a; apply Fin.ext
  match a with
  | ⟨0, _⟩ => show win5_2.index t (0 : Fin 2) * 256 + 1 * j.val = j.val; omega
  | ⟨1, _⟩ => show win5_2.index t (1 : Fin 2) * 1024 + 1 * i.val = i.val; omega
theorem emb_w3 (t : Fin cfg5.N) (k j : Fin 256) : ((cfg5.win 3).blk t).view.emb (ix2 k j) = ix2 k j := by
  obtain ⟨-, -, -, -, -, -, -, -, e0, e1, -⟩ := idx_facts t
  funext a; apply Fin.ext
  match a with
  | ⟨0, _⟩ => show win5_3.index t (0 : Fin 2) * 256 + 1 * k.val = k.val; omega
  | ⟨1, _⟩ => show win5_3.index t (1 : Fin 2) * 256 + 1 * j.val = j.val; omega
theorem emb_w4 (t : Fin cfg5.N) (k j : Fin 256) : ((cfg5.win 4).blk t).view.emb (ix2 k j) = ix2 k j := by
  obtain ⟨-, -, -, -, -, -, -, -, -, -, e0, e1, -⟩ := idx_facts t
  funext a; apply Fin.ext
  match a with
  | ⟨0, _⟩ => show win5_4.index t (0 : Fin 2) * 256 + 1 * k.val = k.val; omega
  | ⟨1, _⟩ => show win5_4.index t (1 : Fin 2) * 256 + 1 * j.val = j.val; omega
theorem emb_w5 (t : Fin cfg5.N) (j : Fin 256) : ((cfg5.win 5).blk t).view.emb (ix2 (0 : Fin 1) j) = ix2 (0 : Fin 1) j := by
  obtain ⟨-, -, -, -, -, -, -, -, -, -, -, -, e0, e1, -⟩ := idx_facts t
  funext a; apply Fin.ext
  match a with
  | ⟨0, _⟩ => show win5_5.index t (0 : Fin 2) * 1 + 1 * (0 : Fin 1).val = (0 : Fin 1).val; omega
  | ⟨1, _⟩ => show win5_5.index t (1 : Fin 2) * 256 + 1 * j.val = j.val; omega
theorem emb_w6 (t : Fin cfg5.N) (j : Fin 256) : ((cfg5.win 6).blk t).view.emb (ix2 (0 : Fin 1) j) = ix2 (0 : Fin 1) j := by
  obtain ⟨-, -, -, -, -, -, -, -, -, -, -, -, -, -, e0, e1, -⟩ := idx_facts t
  funext a; apply Fin.ext
  match a with
  | ⟨0, _⟩ => show win5_6.index t (0 : Fin 2) * 1 + 1 * (0 : Fin 1).val = (0 : Fin 1).val; omega
  | ⟨1, _⟩ => show win5_6.index t (1 : Fin 2) * 256 + 1 * j.val = j.val; omega
theorem emb_w7 (t : Fin cfg5.N) (j : Fin 256) : ((cfg5.win 7).blk t).view.emb (ix2 (0 : Fin 1) j) = ix2 (0 : Fin 1) j := by
  obtain ⟨-, -, -, -, -, -, -, -, -, -, -, -, -, -, -, -, e0, e1⟩ := idx_facts t
  funext a; apply Fin.ext
  match a with
  | ⟨0, _⟩ => show win5_7.index t (0 : Fin 2) * 1 + 1 * (0 : Fin 1).val = (0 : Fin 1).val; omega
  | ⟨1, _⟩ => show win5_7.index t (1 : Fin 2) * 256 + 1 * j.val = j.val; omega

/-- WHAT POINT t WRITES BACK is block t of the whole-array gradient of the arrays the launch finds. -/
theorem flushed_eq (c : Dev nD) (t : Fin cfg5.N) :
    (dat5 V c).flushed 8 t = ((cfg5.win 8).blk t).view.read (Elt Ideal)
      (GK (V c main_v47) (V c main_v0) (V c main_v2) (V c main_v1) (V c main_v3) (V c main_v4) (V c main_v5) (V c main_v6)) := by
  show (cfg5.win 8).cut (grid5.coords t) ((dat5 V c).after 8 t) = _
  rw [after5_8]
  funext y
  obtain ⟨r, i, rfl⟩ : ∃ (r : Fin 1024) (i : Fin 1024), y = ix2 r i := ⟨y 0, y 1, eq_ix2 y⟩
  have hN : cfg5.N = 16 := N_5
  have hb : t.val * 1024 + r.val < 16384 := by have := t.isLt; have := r.isLt; omega
  show out5_8 (iblk5 V c 0 t) (iblk5 V c 1 t) (iblk5 V c 2 t) (iblk5 V c 3 t) (iblk5 V c 4 t) (iblk5 V c 5 t) (iblk5 V c 6 t) (iblk5 V c 7 t) (ix2 r i)
      = GK (V c main_v47) (V c main_v0) (V c main_v2) (V c main_v1) (V c main_v3) (V c main_v4) (V c main_v5) (V c main_v6) (((cfg5.win 8).blk t).view.emb (ix2 r i))
  rw [emb_out t r i hb, GK_apply,
    Cert.BlockGrad.out5_8_apply (iblk5 V c 0 t) (iblk5 V c 1 t) (iblk5 V c 2 t) (iblk5 V c 3 t) (iblk5 V c 4 t) (iblk5 V c 5 t) (iblk5 V c 6 t) (iblk5 V c 7 t) r i]
  have e0 : ∀ k : Fin 1024, iblk5 V c 0 t (ix2 r k) = V c main_v47 (ix2 (⟨t.val * 1024 + r.val, hb⟩ : Fin 16384) k) := fun k => by
    show V c main_v47 (((cfg5.win 0).blk t).view.emb (ix2 r k)) = _
    rw [emb_in t r k hb]
  have e1 : ∀ (k : Fin 1024) (j : Fin 256), iblk5 V c 1 t (ix2 k j) = V c main_v0 (ix2 k j) := fun k j => by
    show V c main_v0 (((cfg5.win 1).blk t).view.emb (ix2 k j)) = _
    rw [emb_w1 t k j]
  have e2 : ∀ (j : Fin 256) (i' : Fin 1024), iblk5 V c 2 t (ix2 j i') = V c main_v2 (ix2 j i') := fun j i' => by
    show V c main_v2 (((cfg5.win 2).blk t).view.emb (ix2 j i')) = _
    rw [emb_w2 t j i']
  have e3 : ∀ (k j : Fin 256), iblk5 V c 3 t (ix2 k j) = V c main_v1 (ix2 k j) := fun k j => by
    show V c main_v1 (((cfg5.win 3).blk t).view.emb (ix2 k j)) = _
    rw [emb_w3 t k j]
  have e4 : ∀ (k j : Fin 256), iblk5 V c 4 t (ix2 k j) = V c main_v3 (ix2 k j) := fun k j => by
    show V c main_v3 (((cfg5.win 4).blk t).view.emb (ix2 k j)) = _
    rw [emb_w4 t k j]
  have e5 : ∀ (j : Fin 256), iblk5 V c 5 t (ix2 (0 : Fin 1) j) = V c main_v4 (ix2 (0 : Fin 1) j) := fun j => by
    show V c main_v4 (((cfg5.win 5).blk t).view.emb (ix2 (0 : Fin 1) j)) = _
    rw [emb_w5 t j]
  have e6 : ∀ (j : Fin 256), iblk5 V c 6 t (ix2 (0 : Fin 1) j) = V c main_v5 (ix2 (0 : Fin 1) j) := fun j => by
    show V c main_v5 (((cfg5.win 6).blk t).view.emb (ix2 (0 : Fin 1) j)) = _
    rw [emb_w6 t j]
  have e7 : ∀ (j : Fin 256), iblk5 V c 7 t (ix2 (0 : Fin 1) j) = V c main_v6 (ix2 (0 : Fin 1) j) := fun j => by
    show V c main_v6 (((cfg5.win 7).blk t).view.emb (ix2 (0 : Fin 1) j)) = _
    rw [emb_w7 t j]
  simp only [e0, e1, e2, e3, e4, e5, e6, e7]

/-- An index of the result array is in point t's block iff its row is among that block's 1024 rows. -/
theorem mem_blk (t : Fin cfg5.N) (i : S16384x1024.Idx) :
    i ∈ ((cfg5.win 8).blk t).view.set ↔ ∀ a : Fin 2, win5_8.index t a * S1024x1024.size a ≤ (i a).val ∧ (i a).val < win5_8.index t a * S1024x1024.size a + S1024x1024.size a := by
  show i ∈ ((View.whole main_v48).slice (win5_8.rect t)).set ↔ _
  rw [View.set_slice_whole, Rect.mem_set_unit]
  exact Iff.rfl

/-- The sixteen blocks tile the array: row ρ is in block ρ / 1024. -/
theorem cover (i : S16384x1024.Idx) : ∃ t : Fin cfg5.N, (cfg5.win 8).flush t = true ∧ i ∈ ((cfg5.win 8).blk t).view.set := by
  have hN : cfg5.N = 16 := N_5
  have h0 : (i 0).val < 16384 := (i 0).isLt
  have h1 : (i 1).val < 1024 := (i 1).isLt
  refine ⟨⟨(i 0).val / 1024, by omega⟩, flush5_8 _, ?_⟩
  rw [mem_blk]
  obtain ⟨-, -, e2, e3, -⟩ := idx_facts (⟨(i 0).val / 1024, by omega⟩ : Fin cfg5.N)
  intro a
  match a with
  | ⟨0, _⟩ => show win5_8.index _ (0 : Fin 2) * 1024 ≤ (i 0).val ∧ (i 0).val < win5_8.index _ (0 : Fin 2) * 1024 + 1024; rw [e2]; show (i 0).val / 1024 * 1024 ≤ (i 0).val ∧ (i 0).val < (i 0).val / 1024 * 1024 + 1024; omega
  | ⟨1, _⟩ => show win5_8.index _ (1 : Fin 2) * 1024 ≤ (i 1).val ∧ (i 1).val < win5_8.index _ (1 : Fin 2) * 1024 + 1024; rw [e3]; omega

/-- THE RESULT ARRAY after the launch: the whole-array gradient of the arrays the launch found. -/
theorem final (c : Dev nD) : (dat5 V c).arrAt 8 cfg5.N
    = GK (V c main_v47) (V c main_v0) (V c main_v2) (V c main_v1) (V c main_v3) (V c main_v4) (V c main_v5) (V c main_v6) :=
  (dat5 V c).arrAt_eq_of_cover 8 _ (fun t _ => flushed_eq V c t) cover

end Cert.KernelIdeal.Region5

end
-- ==== Proof.Chain1.lean ====
/-
  Leapfrog step 1 on the kernel program's side: launches 3, 4, 5, exactly as step 0 from the array step 0 left.
-/
import proofs.«124128_j83270825935573_1_alg».proof.Proof.Chain0
import proofs.«124128_j83270825935573_1_alg».proof.Proof.Region3
import proofs.«124128_j83270825935573_1_alg».proof.Proof.Region4
import proofs.«124128_j83270825935573_1_alg».proof.Proof.Region5

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

theorem b1_q (hpre : Cert.Pre_KernelIdeal m) (c : Dev nD) : W8 m ρ c (Proc.devRef .tc main_v32) = (Cert.Leap.lo (Z1 m c)) :=
  (W8_of_ne m ρ c main_v32 (by decide)).trans (a1_q m ρ hpre c)
theorem b1_p (hpre : Cert.Pre_KernelIdeal m) (c : Dev nD) : W8 m ρ c (Proc.devRef .tc main_v33) = (Cert.Leap.hi (Z1 m c)) :=
  (W8_of_ne m ρ c main_v33 (by decide)).trans (a1_p m ρ hpre c)

/-- Launch 3 leaves the reference's gradient of the array it was given. -/
theorem reg3 (hpre : Cert.Pre_KernelIdeal m) (c : Dev nD) :
    W8 m ρ c (Proc.devRef .tc main_v35) = Gm m c (W7 m ρ c (Proc.devRef .tc main_v34)) :=
  calc W8 m ρ c (Proc.devRef .tc main_v35)
      = (dat3 (V7 m ρ) c).arrAt 8 cfg3.N := W8_arr m ρ c 8
    _ = Cert.GK.GK (W7 m ρ c (Proc.devRef .tc main_v34)) (W7 m ρ c (Proc.devRef .tc main_v0)) (W7 m ρ c (Proc.devRef .tc main_v2)) (W7 m ρ c (Proc.devRef .tc main_v1)) (W7 m ρ c (Proc.devRef .tc main_v3)) (W7 m ρ c (Proc.devRef .tc main_v4)) (W7 m ρ c (Proc.devRef .tc main_v5)) (W7 m ρ c (Proc.devRef .tc main_v6)) := Cert.KernelIdeal.Region3.final (V7 m ρ) c
    _ = Cert.GK.GK (W7 m ρ c (Proc.devRef .tc main_v34)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := by rw [wk7_v0 m ρ c, wk7_v2 m ρ c, wk7_v1 m ρ c, wk7_v3 m ρ c, wk7_v4 m ρ c, wk7_v5 m ρ c, wk7_v6 m ρ c]
    _ = Gm m c (W7 m ρ c (Proc.devRef .tc main_v34)) := bridge m ρ hpre c _
theorem b1_g (hpre : Cert.Pre_KernelIdeal m) (c : Dev nD) : W8 m ρ c (Proc.devRef .tc main_v35) = (Gm m c) (Cert.Leap.cat (Cert.Leap.lo (Z1 m c)) (Cert.Leap.hi (Z1 m c))) := by
  rw [reg3 m ρ hpre c, a1_zc m ρ hpre c]
set_option maxHeartbeats 4000000 in
theorem c1_q (hpre : Cert.Pre_KernelIdeal m) (c : Dev nD) : W9 m ρ c (Proc.devRef .tc main_v32) = (Cert.Leap.lo (Z1 m c)) := by
  show StableHlo.after hostOps4 (W8 m ρ c) (Proc.devRef .tc main_v32) = _
  read_stretch
  exact b1_q m ρ hpre c
set_option maxHeartbeats 4000000 in
theorem c1_P1 (hpre : Cert.Pre_KernelIdeal m) (c : Dev nD) : W9 m ρ c (Proc.devRef .tc main_v40) = (Cert.Leap.p1 (Gm m c) (Cert.Leap.lo (Z1 m c)) (Cert.Leap.hi (Z1 m c))) := by
  show StableHlo.after hostOps4 (W8 m ρ c) (Proc.devRef .tc main_v40) = _
  read_stretch
  rw [b1_p m ρ hpre c, b1_g m ρ hpre c]
  rfl
set_option maxHeartbeats 4000000 in
theorem c1_c1 (hpre : Cert.Pre_KernelIdeal m) (c : Dev nD) : W9 m ρ c (Proc.devRef .tc main_v41) = Cert.Leap.cat (Cert.Leap.lo (Z1 m c)) (Cert.Leap.p1 (Gm m c) (Cert.Leap.lo (Z1 m c)) (Cert.Leap.hi (Z1 m c))) := by
  show StableHlo.after hostOps4 (W8 m ρ c) (Proc.devRef .tc main_v41) = _
  read_stretch
  rw [b1_q m ρ hpre c, b1_p m ρ hpre c, b1_g m ρ hpre c]
  rfl
theorem d1_q (hpre : Cert.Pre_KernelIdeal m) (c : Dev nD) : W10 m ρ c (Proc.devRef .tc main_v32) = (Cert.Leap.lo (Z1 m c)) :=
  (W10_of_ne m ρ c main_v32 (by decide)).trans (c1_q m ρ hpre c)
theorem d1_P1 (hpre : Cert.Pre_KernelIdeal m) (c : Dev nD) : W10 m ρ c (Proc.devRef .tc main_v40) = (Cert.Leap.p1 (Gm m c) (Cert.Leap.lo (Z1 m c)) (Cert.Leap.hi (Z1 m c))) :=
  (W10_of_ne m ρ c main_v40 (by decide)).trans (c1_P1 m ρ hpre c)

/-- Launch 4 leaves the reference's gradient of the array it was given. -/
theorem reg4 (hpre : Cert.Pre_KernelIdeal m) (c : Dev nD) :
    W10 m ρ c (Proc.devRef .tc main_v42) = Gm m c (W9 m ρ c (Proc.devRef .tc main_v41)) :=
  calc W10 m ρ c (Proc.devRef .tc main_v42)
      = (dat4 (V9 m ρ) c).arrAt 8 cfg4.N := W10_arr m ρ c 8
    _ = Cert.GK.GK (W9 m ρ c (Proc.devRef .tc main_v41)) (W9 m ρ c (Proc.devRef .tc main_v0)) (W9 m ρ c (Proc.devRef .tc main_v2)) (W9 m ρ c (Proc.devRef .tc main_v1)) (W9 m ρ c (Proc.devRef .tc main_v3)) (W9 m ρ c (Proc.devRef .tc main_v4)) (W9 m ρ c (Proc.devRef .tc main_v5)) (W9 m ρ c (Proc.devRef .tc main_v6)) := Cert.KernelIdeal.Region4.final (V9 m ρ) c
    _ = Cert.GK.GK (W9 m ρ c (Proc.devRef .tc main_v41)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := by rw [wk9_v0 m ρ c, wk9_v2 m ρ c, wk9_v1 m ρ c, wk9_v3 m ρ c, wk9_v4 m ρ c, wk9_v5 m ρ c, wk9_v6 m ρ c]
    _ = Gm m c (W9 m ρ c (Proc.devRef .tc main_v41)) := bridge m ρ hpre c _
theorem d1_g (hpre : Cert.Pre_KernelIdeal m) (c : Dev nD) : W10 m ρ c (Proc.devRef .tc main_v42) = (Gm m c) (Cert.Leap.cat (Cert.Leap.lo (Z1 m c)) (Cert.Leap.p1 (Gm m c) (Cert.Leap.lo (Z1 m c)) (Cert.Leap.hi (Z1 m c)))) := by
  rw [reg4 m ρ hpre c, c1_c1 m ρ hpre c]
set_option maxHeartbeats 4000000 in
theorem e1_P1 (hpre : Cert.Pre_KernelIdeal m) (c : Dev nD) : W11 m ρ c (Proc.devRef .tc main_v40) = (Cert.Leap.p1 (Gm m c) (Cert.Leap.lo (Z1 m c)) (Cert.Leap.hi (Z1 m c))) := by
  show StableHlo.after hostOps5 (W10 m ρ c) (Proc.devRef .tc main_v40) = _
  read_stretch
  exact d1_P1 m ρ hpre c
set_option maxHeartbeats 4000000 in
theorem e1_Q1 (hpre : Cert.Pre_KernelIdeal m) (c : Dev nD) : W11 m ρ c (Proc.devRef .tc main_v46) = (Cert.Leap.q1 (Gm m c) (Cert.Leap.lo (Z1 m c)) (Cert.Leap.hi (Z1 m c))) := by
  show StableHlo.after hostOps5 (W10 m ρ c) (Proc.devRef .tc main_v46) = _
  read_stretch
  rw [d1_q m ρ hpre c, d1_g m ρ hpre c]
  rfl
set_option maxHeartbeats 4000000 in
theorem e1_c2 (hpre : Cert.Pre_KernelIdeal m) (c : Dev nD) : W11 m ρ c (Proc.devRef .tc main_v47) = Cert.Leap.cat (Cert.Leap.q1 (Gm m c) (Cert.Leap.lo (Z1 m c)) (Cert.Leap.hi (Z1 m c))) (Cert.Leap.p1 (Gm m c) (Cert.Leap.lo (Z1 m c)) (Cert.Leap.hi (Z1 m c))) := by
  show StableHlo.after hostOps5 (W10 m ρ c) (Proc.devRef .tc main_v47) = _
  read_stretch
  rw [d1_q m ρ hpre c, d1_g m ρ hpre c, d1_P1 m ρ hpre c]
  rfl
theorem f1_P1 (hpre : Cert.Pre_KernelIdeal m) (c : Dev nD) : W12 m ρ c (Proc.devRef .tc main_v40) = (Cert.Leap.p1 (Gm m c) (Cert.Leap.lo (Z1 m c)) (Cert.Leap.hi (Z1 m c))) :=
  (W12_of_ne m ρ c main_v40 (by decide)).trans (e1_P1 m ρ hpre c)
theorem f1_Q1 (hpre : Cert.Pre_KernelIdeal m) (c : Dev nD) : W12 m ρ c (Proc.devRef .tc main_v46) = (Cert.Leap.q1 (Gm m c) (Cert.Leap.lo (Z1 m c)) (Cert.Leap.hi (Z1 m c))) :=
  (W12_of_ne m ρ c main_v46 (by decide)).trans (e1_Q1 m ρ hpre c)

/-- Launch 5 leaves the reference's gradient of the array it was given. -/
theorem reg5 (hpre : Cert.Pre_KernelIdeal m) (c : Dev nD) :
    W12 m ρ c (Proc.devRef .tc main_v48) = Gm m c (W11 m ρ c (Proc.devRef .tc main_v47)) :=
  calc W12 m ρ c (Proc.devRef .tc main_v48)
      = (dat5 (V11 m ρ) c).arrAt 8 cfg5.N := W12_arr m ρ c 8
    _ = Cert.GK.GK (W11 m ρ c (Proc.devRef .tc main_v47)) (W11 m ρ c (Proc.devRef .tc main_v0)) (W11 m ρ c (Proc.devRef .tc main_v2)) (W11 m ρ c (Proc.devRef .tc main_v1)) (W11 m ρ c (Proc.devRef .tc main_v3)) (W11 m ρ c (Proc.devRef .tc main_v4)) (W11 m ρ c (Proc.devRef .tc main_v5)) (W11 m ρ c (Proc.devRef .tc main_v6)) := Cert.KernelIdeal.Region5.final (V11 m ρ) c
    _ = Cert.GK.GK (W11 m ρ c (Proc.devRef .tc main_v47)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := by rw [wk11_v0 m ρ c, wk11_v2 m ρ c, wk11_v1 m ρ c, wk11_v3 m ρ c, wk11_v4 m ρ c, wk11_v5 m ρ c, wk11_v6 m ρ c]
    _ = Gm m c (W11 m ρ c (Proc.devRef .tc main_v47)) := bridge m ρ hpre c _
theorem f1_g (hpre : Cert.Pre_KernelIdeal m) (c : Dev nD) : W12 m ρ c (Proc.devRef .tc main_v48) = (Gm m c) (Cert.Leap.cat (Cert.Leap.q1 (Gm m c) (Cert.Leap.lo (Z1 m c)) (Cert.Leap.hi (Z1 m c))) (Cert.Leap.p1 (Gm m c) (Cert.Leap.lo (Z1 m c)) (Cert.Leap.hi (Z1 m c)))) := by
  rw [reg5 m ρ hpre c, e1_c2 m ρ hpre c]
set_option maxHeartbeats 4000000 in
theorem a2_q (hpre : Cert.Pre_KernelIdeal m) (c : Dev nD) : W13 m ρ c (Proc.devRef .tc main_v55) = Cert.Leap.lo (Z2 m c) := by
  show StableHlo.after hostOps6 (W12 m ρ c) (Proc.devRef .tc main_v55) = _
  read_stretch
  rw [f1_Q1 m ρ hpre c, f1_P1 m ρ hpre c, f1_g m ρ hpre c]
  rfl
set_option maxHeartbeats 4000000 in
theorem a2_p (hpre : Cert.Pre_KernelIdeal m) (c : Dev nD) : W13 m ρ c (Proc.devRef .tc main_v56) = Cert.Leap.hi (Z2 m c) := by
  show StableHlo.after hostOps6 (W12 m ρ c) (Proc.devRef .tc main_v56) = _
  read_stretch
  rw [f1_Q1 m ρ hpre c, f1_P1 m ρ hpre c, f1_g m ρ hpre c]
  rfl
set_option maxHeartbeats 4000000 in
theorem a2_zc (hpre : Cert.Pre_KernelIdeal m) (c : Dev nD) : W13 m ρ c (Proc.devRef .tc main_v57) = Cert.Leap.cat (Cert.Leap.lo (Z2 m c)) (Cert.Leap.hi (Z2 m c)) := by
  show StableHlo.after hostOps6 (W12 m ρ c) (Proc.devRef .tc main_v57) = _
  read_stretch
  rw [f1_Q1 m ρ hpre c, f1_P1 m ρ hpre c, f1_g m ρ hpre c]
  rfl

end Cert.KernelIdeal.Chain

end
-- ==== Proof.Region6.lean ====
/-
  Launch 6 of the gradient kernel, from blocks to the array.  The grid has sixteen points; point t reads rows
  1024·t … 1024·t + 1023 of the phase-space array (all 1024 columns) and the seven weight arrays whole, and writes
  rows 1024·t … 1024·t + 1023 of the result.  The body's value at a row is the one-sample analytic gradient of that
  row, so what point t writes back is block t of the whole-array gradient `GK` of the arrays as the launch finds them;
  the sixteen blocks tile the 16384 rows, so the result array ends holding `GK`.
-/
import proofs.«124128_j83270825935573_1_alg».proof.Proof.Gen.KernelIdeal.Frame
import proofs.«124128_j83270825935573_1_alg».proof.Proof.BlockGrad
import proofs.«124128_j83270825935573_1_alg».proof.Proof.GKDef
import Idealize.ShloMosaic.Lib.Pipeline.Value
import Idealize.ShloMosaic.Lib.ValueIdx

set_option maxRecDepth 16384

noncomputable section

namespace Cert.KernelIdeal.Region6

open Cert.KernelIdeal Cert.KernelIdeal.Gen Cert.GK
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the phase-space window and the result window sit at block row t, every
    weight window at the origin. -/
theorem idx_facts : ∀ t : Fin cfg6.N,
    win6_0.index t (0 : Fin 2) = t.val ∧ win6_0.index t (1 : Fin 2) = 0
    ∧ win6_8.index t (0 : Fin 2) = t.val ∧ win6_8.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-- Where point t's block of the phase-space window sits in its array: row 1024·t + r, the same column. -/
theorem emb_in (t : Fin cfg6.N) (r k : Fin 1024) (h : t.val * 1024 + r.val < 16384) :
    ((cfg6.win 0).blk t).view.emb (ix2 r k) = ix2 (⟨t.val * 1024 + r.val, h⟩ : Fin 16384) k := by
  obtain ⟨e0, e1, -⟩ := idx_facts t
  funext a; apply Fin.ext
  match a with
  | ⟨0, _⟩ => show win6_0.index t (0 : Fin 2) * 1024 + 1 * r.val = t.val * 1024 + r.val; omega
  | ⟨1, _⟩ => show win6_0.index t (1 : Fin 2) * 1024 + 1 * k.val = k.val; omega

/-- Where point t's block of the result window sits in its array. -/
theorem emb_out (t : Fin cfg6.N) (r i : Fin 1024) (h : t.val * 1024 + r.val < 16384) :
    ((cfg6.win 8).blk t).view.emb (ix2 r i) = ix2 (⟨t.val * 1024 + r.val, h⟩ : Fin 16384) i := by
  obtain ⟨-, -, e2, e3, -⟩ := idx_facts t
  funext a; apply Fin.ext
  match a with
  | ⟨0, _⟩ => show win6_8.index t (0 : Fin 2) * 1024 + 1 * r.val = t.val * 1024 + r.val; omega
  | ⟨1, _⟩ => show win6_8.index t (1 : Fin 2) * 1024 + 1 * i.val = i.val; omega

/-- A weight window's block is its whole array. -/
theorem emb_w1 (t : Fin cfg6.N) (k : Fin 1024) (j : Fin 256) : ((cfg6.win 1).blk t).view.emb (ix2 k j) = ix2 k j := by
  obtain ⟨-, -, -, -, e0, e1, -⟩ := idx_facts t
  funext a; apply Fin.ext
  match a with
  | ⟨0, _⟩ => show win6_1.index t (0 : Fin 2) * 1024 + 1 * k.val = k.val; omega
  | ⟨1, _⟩ => show win6_1.index t (1 : Fin 2) * 256 + 1 * j.val = j.val; omega
theorem emb_w2 (t : Fin cfg6.N) (j : Fin 256) (i : Fin 1024) : ((cfg6.win 2).blk t).view.emb (ix2 j i) = ix2 j i := by
  obtain ⟨-, -, -, -, -, -, e0, e1, -⟩ := idx_facts t
  funext a; apply Fin.ext
  match a with
  | ⟨0, _⟩ => show win6_2.index t (0 : Fin 2) * 256 + 1 * j.val = j.val; omega
  | ⟨1, _⟩ => show win6_2.index t (1 : Fin 2) * 1024 + 1 * i.val = i.val; omega
theorem emb_w3 (t : Fin cfg6.N) (k j : Fin 256) : ((cfg6.win 3).blk t).view.emb (ix2 k j) = ix2 k j := by
  obtain ⟨-, -, -, -, -, -, -, -, e0, e1, -⟩ := idx_facts t
  funext a; apply Fin.ext
  match a with
  | ⟨0, _⟩ => show win6_3.index t (0 : Fin 2) * 256 + 1 * k.val = k.val; omega
  | ⟨1, _⟩ => show win6_3.index t (1 : Fin 2) * 256 + 1 * j.val = j.val; omega
theorem emb_w4 (t : Fin cfg6.N) (k j : Fin 256) : ((cfg6.win 4).blk t).view.emb (ix2 k j) = ix2 k j := by
  obtain ⟨-, -, -, -, -, -, -, -, -, -, e0, e1, -⟩ := idx_facts t
  funext a; apply Fin.ext
  match a with
  | ⟨0, _⟩ => show win6_4.index t (0 : Fin 2) * 256 + 1 * k.val = k.val; omega
  | ⟨1, _⟩ => show win6_4.index t (1 : Fin 2) * 256 + 1 * j.val = j.val; omega
theorem emb_w5 (t : Fin cfg6.N) (j : Fin 256) : ((cfg6.win 5).blk t).view.emb (ix2 (0 : Fin 1) j) = ix2 (0 : Fin 1) j := by
  obtain ⟨-, -, -, -, -, -, -, -, -, -, -, -, e0, e1, -⟩ := idx_facts t
  funext a; apply Fin.ext
  match a with
  | ⟨0, _⟩ => show win6_5.index t (0 : Fin 2) * 1 + 1 * (0 : Fin 1).val = (0 : Fin 1).val; omega
  | ⟨1, _⟩ => show win6_5.index t (1 : Fin 2) * 256 + 1 * j.val = j.val; omega
theorem emb_w6 (t : Fin cfg6.N) (j : Fin 256) : ((cfg6.win 6).blk t).view.emb (ix2 (0 : Fin 1) j) = ix2 (0 : Fin 1) j := by
  obtain ⟨-, -, -, -, -, -, -, -, -, -, -, -, -, -, e0, e1, -⟩ := idx_facts t
  funext a; apply Fin.ext
  match a with
  | ⟨0, _⟩ => show win6_6.index t (0 : Fin 2) * 1 + 1 * (0 : Fin 1).val = (0 : Fin 1).val; omega
  | ⟨1, _⟩ => show win6_6.index t (1 : Fin 2) * 256 + 1 * j.val = j.val; omega
theorem emb_w7 (t : Fin cfg6.N) (j : Fin 256) : ((cfg6.win 7).blk t).view.emb (ix2 (0 : Fin 1) j) = ix2 (0 : Fin 1) j := by
  obtain ⟨-, -, -, -, -, -, -, -, -, -, -, -, -, -, -, -, e0, e1⟩ := idx_facts t
  funext a; apply Fin.ext
  match a with
  | ⟨0, _⟩ => show win6_7.index t (0 : Fin 2) * 1 + 1 * (0 : Fin 1).val = (0 : Fin 1).val; omega
  | ⟨1, _⟩ => show win6_7.index t (1 : Fin 2) * 256 + 1 * j.val = j.val; omega

/-- WHAT POINT t WRITES BACK is block t of the whole-array gradient of the arrays the launch finds. -/
theorem flushed_eq (c : Dev nD) (t : Fin cfg6.N) :
    (dat6 V c).flushed 8 t = ((cfg6.win 8).blk t).view.read (Elt Ideal)
      (GK (V c main_v57) (V c main_v0) (V c main_v2) (V c main_v1) (V c main_v3) (V c main_v4) (V c main_v5) (V c main_v6)) := by
  show (cfg6.win 8).cut (grid6.coords t) ((dat6 V c).after 8 t) = _
  rw [after6_8]
  funext y
  obtain ⟨r, i, rfl⟩ : ∃ (r : Fin 1024) (i : Fin 1024), y = ix2 r i := ⟨y 0, y 1, eq_ix2 y⟩
  have hN : cfg6.N = 16 := N_6
  have hb : t.val * 1024 + r.val < 16384 := by have := t.isLt; have := r.isLt; omega
  show out6_8 (iblk6 V c 0 t) (iblk6 V c 1 t) (iblk6 V c 2 t) (iblk6 V c 3 t) (iblk6 V c 4 t) (iblk6 V c 5 t) (iblk6 V c 6 t) (iblk6 V c 7 t) (ix2 r i)
      = GK (V c main_v57) (V c main_v0) (V c main_v2) (V c main_v1) (V c main_v3) (V c main_v4) (V c main_v5) (V c main_v6) (((cfg6.win 8).blk t).view.emb (ix2 r i))
  rw [emb_out t r i hb, GK_apply,
    Cert.BlockGrad.out6_8_apply (iblk6 V c 0 t) (iblk6 V c 1 t) (iblk6 V c 2 t) (iblk6 V c 3 t) (iblk6 V c 4 t) (iblk6 V c 5 t) (iblk6 V c 6 t) (iblk6 V c 7 t) r i]
  have e0 : ∀ k : Fin 1024, iblk6 V c 0 t (ix2 r k) = V c main_v57 (ix2 (⟨t.val * 1024 + r.val, hb⟩ : Fin 16384) k) := fun k => by
    show V c main_v57 (((cfg6.win 0).blk t).view.emb (ix2 r k)) = _
    rw [emb_in t r k hb]
  have e1 : ∀ (k : Fin 1024) (j : Fin 256), iblk6 V c 1 t (ix2 k j) = V c main_v0 (ix2 k j) := fun k j => by
    show V c main_v0 (((cfg6.win 1).blk t).view.emb (ix2 k j)) = _
    rw [emb_w1 t k j]
  have e2 : ∀ (j : Fin 256) (i' : Fin 1024), iblk6 V c 2 t (ix2 j i') = V c main_v2 (ix2 j i') := fun j i' => by
    show V c main_v2 (((cfg6.win 2).blk t).view.emb (ix2 j i')) = _
    rw [emb_w2 t j i']
  have e3 : ∀ (k j : Fin 256), iblk6 V c 3 t (ix2 k j) = V c main_v1 (ix2 k j) := fun k j => by
    show V c main_v1 (((cfg6.win 3).blk t).view.emb (ix2 k j)) = _
    rw [emb_w3 t k j]
  have e4 : ∀ (k j : Fin 256), iblk6 V c 4 t (ix2 k j) = V c main_v3 (ix2 k j) := fun k j => by
    show V c main_v3 (((cfg6.win 4).blk t).view.emb (ix2 k j)) = _
    rw [emb_w4 t k j]
  have e5 : ∀ (j : Fin 256), iblk6 V c 5 t (ix2 (0 : Fin 1) j) = V c main_v4 (ix2 (0 : Fin 1) j) := fun j => by
    show V c main_v4 (((cfg6.win 5).blk t).view.emb (ix2 (0 : Fin 1) j)) = _
    rw [emb_w5 t j]
  have e6 : ∀ (j : Fin 256), iblk6 V c 6 t (ix2 (0 : Fin 1) j) = V c main_v5 (ix2 (0 : Fin 1) j) := fun j => by
    show V c main_v5 (((cfg6.win 6).blk t).view.emb (ix2 (0 : Fin 1) j)) = _
    rw [emb_w6 t j]
  have e7 : ∀ (j : Fin 256), iblk6 V c 7 t (ix2 (0 : Fin 1) j) = V c main_v6 (ix2 (0 : Fin 1) j) := fun j => by
    show V c main_v6 (((cfg6.win 7).blk t).view.emb (ix2 (0 : Fin 1) j)) = _
    rw [emb_w7 t j]
  simp only [e0, e1, e2, e3, e4, e5, e6, e7]

/-- An index of the result array is in point t's block iff its row is among that block's 1024 rows. -/
theorem mem_blk (t : Fin cfg6.N) (i : S16384x1024.Idx) :
    i ∈ ((cfg6.win 8).blk t).view.set ↔ ∀ a : Fin 2, win6_8.index t a * S1024x1024.size a ≤ (i a).val ∧ (i a).val < win6_8.index t a * S1024x1024.size a + S1024x1024.size a := by
  show i ∈ ((View.whole main_v58).slice (win6_8.rect t)).set ↔ _
  rw [View.set_slice_whole, Rect.mem_set_unit]
  exact Iff.rfl

/-- The sixteen blocks tile the array: row ρ is in block ρ / 1024. -/
theorem cover (i : S16384x1024.Idx) : ∃ t : Fin cfg6.N, (cfg6.win 8).flush t = true ∧ i ∈ ((cfg6.win 8).blk t).view.set := by
  have hN : cfg6.N = 16 := N_6
  have h0 : (i 0).val < 16384 := (i 0).isLt
  have h1 : (i 1).val < 1024 := (i 1).isLt
  refine ⟨⟨(i 0).val / 1024, by omega⟩, flush6_8 _, ?_⟩
  rw [mem_blk]
  obtain ⟨-, -, e2, e3, -⟩ := idx_facts (⟨(i 0).val / 1024, by omega⟩ : Fin cfg6.N)
  intro a
  match a with
  | ⟨0, _⟩ => show win6_8.index _ (0 : Fin 2) * 1024 ≤ (i 0).val ∧ (i 0).val < win6_8.index _ (0 : Fin 2) * 1024 + 1024; rw [e2]; show (i 0).val / 1024 * 1024 ≤ (i 0).val ∧ (i 0).val < (i 0).val / 1024 * 1024 + 1024; omega
  | ⟨1, _⟩ => show win6_8.index _ (1 : Fin 2) * 1024 ≤ (i 1).val ∧ (i 1).val < win6_8.index _ (1 : Fin 2) * 1024 + 1024; rw [e3]; omega

/-- THE RESULT ARRAY after the launch: the whole-array gradient of the arrays the launch found. -/
theorem final (c : Dev nD) : (dat6 V c).arrAt 8 cfg6.N
    = GK (V c main_v57) (V c main_v0) (V c main_v2) (V c main_v1) (V c main_v3) (V c main_v4) (V c main_v5) (V c main_v6) :=
  (dat6 V c).arrAt_eq_of_cover 8 _ (fun t _ => flushed_eq V c t) cover

end Cert.KernelIdeal.Region6

end
-- ==== Proof.Region7.lean ====
/-
  Launch 7 of the gradient kernel, from blocks to the array.  The grid has sixteen points; point t reads rows
  1024·t … 1024·t + 1023 of the phase-space array (all 1024 columns) and the seven weight arrays whole, and writes
  rows 1024·t … 1024·t + 1023 of the result.  The body's value at a row is the one-sample analytic gradient of that
  row, so what point t writes back is block t of the whole-array gradient `GK` of the arrays as the launch finds them;
  the sixteen blocks tile the 16384 rows, so the result array ends holding `GK`.
-/
import proofs.«124128_j83270825935573_1_alg».proof.Proof.Gen.KernelIdeal.Frame
import proofs.«124128_j83270825935573_1_alg».proof.Proof.BlockGrad
import proofs.«124128_j83270825935573_1_alg».proof.Proof.GKDef
import Idealize.ShloMosaic.Lib.Pipeline.Value
import Idealize.ShloMosaic.Lib.ValueIdx

set_option maxRecDepth 16384

noncomputable section

namespace Cert.KernelIdeal.Region7

open Cert.KernelIdeal Cert.KernelIdeal.Gen Cert.GK
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the phase-space window and the result window sit at block row t, every
    weight window at the origin. -/
theorem idx_facts : ∀ t : Fin cfg7.N,
    win7_0.index t (0 : Fin 2) = t.val ∧ win7_0.index t (1 : Fin 2) = 0
    ∧ win7_8.index t (0 : Fin 2) = t.val ∧ win7_8.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0 :=
  (by decide +kernel : ∀ t : Fin grid7.N, _)

/-- Where point t's block of the phase-space window sits in its array: row 1024·t + r, the same column. -/
theorem emb_in (t : Fin cfg7.N) (r k : Fin 1024) (h : t.val * 1024 + r.val < 16384) :
    ((cfg7.win 0).blk t).view.emb (ix2 r k) = ix2 (⟨t.val * 1024 + r.val, h⟩ : Fin 16384) k := by
  obtain ⟨e0, e1, -⟩ := idx_facts t
  funext a; apply Fin.ext
  match a with
  | ⟨0, _⟩ => show win7_0.index t (0 : Fin 2) * 1024 + 1 * r.val = t.val * 1024 + r.val; omega
  | ⟨1, _⟩ => show win7_0.index t (1 : Fin 2) * 1024 + 1 * k.val = k.val; omega

/-- Where point t's block of the result window sits in its array. -/
theorem emb_out (t : Fin cfg7.N) (r i : Fin 1024) (h : t.val * 1024 + r.val < 16384) :
    ((cfg7.win 8).blk t).view.emb (ix2 r i) = ix2 (⟨t.val * 1024 + r.val, h⟩ : Fin 16384) i := by
  obtain ⟨-, -, e2, e3, -⟩ := idx_facts t
  funext a; apply Fin.ext
  match a with
  | ⟨0, _⟩ => show win7_8.index t (0 : Fin 2) * 1024 + 1 * r.val = t.val * 1024 + r.val; omega
  | ⟨1, _⟩ => show win7_8.index t (1 : Fin 2) * 1024 + 1 * i.val = i.val; omega

/-- A weight window's block is its whole array. -/
theorem emb_w1 (t : Fin cfg7.N) (k : Fin 1024) (j : Fin 256) : ((cfg7.win 1).blk t).view.emb (ix2 k j) = ix2 k j := by
  obtain ⟨-, -, -, -, e0, e1, -⟩ := idx_facts t
  funext a; apply Fin.ext
  match a with
  | ⟨0, _⟩ => show win7_1.index t (0 : Fin 2) * 1024 + 1 * k.val = k.val; omega
  | ⟨1, _⟩ => show win7_1.index t (1 : Fin 2) * 256 + 1 * j.val = j.val; omega
theorem emb_w2 (t : Fin cfg7.N) (j : Fin 256) (i : Fin 1024) : ((cfg7.win 2).blk t).view.emb (ix2 j i) = ix2 j i := by
  obtain ⟨-, -, -, -, -, -, e0, e1, -⟩ := idx_facts t
  funext a; apply Fin.ext
  match a with
  | ⟨0, _⟩ => show win7_2.index t (0 : Fin 2) * 256 + 1 * j.val = j.val; omega
  | ⟨1, _⟩ => show win7_2.index t (1 : Fin 2) * 1024 + 1 * i.val = i.val; omega
theorem emb_w3 (t : Fin cfg7.N) (k j : Fin 256) : ((cfg7.win 3).blk t).view.emb (ix2 k j) = ix2 k j := by
  obtain ⟨-, -, -, -, -, -, -, -, e0, e1, -⟩ := idx_facts t
  funext a; apply Fin.ext
  match a with
  | ⟨0, _⟩ => show win7_3.index t (0 : Fin 2) * 256 + 1 * k.val = k.val; omega
  | ⟨1, _⟩ => show win7_3.index t (1 : Fin 2) * 256 + 1 * j.val = j.val; omega
theorem emb_w4 (t : Fin cfg7.N) (k j : Fin 256) : ((cfg7.win 4).blk t).view.emb (ix2 k j) = ix2 k j := by
  obtain ⟨-, -, -, -, -, -, -, -, -, -, e0, e1, -⟩ := idx_facts t
  funext a; apply Fin.ext
  match a with
  | ⟨0, _⟩ => show win7_4.index t (0 : Fin 2) * 256 + 1 * k.val = k.val; omega
  | ⟨1, _⟩ => show win7_4.index t (1 : Fin 2) * 256 + 1 * j.val = j.val; omega
theorem emb_w5 (t : Fin cfg7.N) (j : Fin 256) : ((cfg7.win 5).blk t).view.emb (ix2 (0 : Fin 1) j) = ix2 (0 : Fin 1) j := by
  obtain ⟨-, -, -, -, -, -, -, -, -, -, -, -, e0, e1, -⟩ := idx_facts t
  funext a; apply Fin.ext
  match a with
  | ⟨0, _⟩ => show win7_5.index t (0 : Fin 2) * 1 + 1 * (0 : Fin 1).val = (0 : Fin 1).val; omega
  | ⟨1, _⟩ => show win7_5.index t (1 : Fin 2) * 256 + 1 * j.val = j.val; omega
theorem emb_w6 (t : Fin cfg7.N) (j : Fin 256) : ((cfg7.win 6).blk t).view.emb (ix2 (0 : Fin 1) j) = ix2 (0 : Fin 1) j := by
  obtain ⟨-, -, -, -, -, -, -, -, -, -, -, -, -, -, e0, e1, -⟩ := idx_facts t
  funext a; apply Fin.ext
  match a with
  | ⟨0, _⟩ => show win7_6.index t (0 : Fin 2) * 1 + 1 * (0 : Fin 1).val = (0 : Fin 1).val; omega
  | ⟨1, _⟩ => show win7_6.index t (1 : Fin 2) * 256 + 1 * j.val = j.val; omega
theorem emb_w7 (t : Fin cfg7.N) (j : Fin 256) : ((cfg7.win 7).blk t).view.emb (ix2 (0 : Fin 1) j) = ix2 (0 : Fin 1) j := by
  obtain ⟨-, -, -, -, -, -, -, -, -, -, -, -, -, -, -, -, e0, e1⟩ := idx_facts t
  funext a; apply Fin.ext
  match a with
  | ⟨0, _⟩ => show win7_7.index t (0 : Fin 2) * 1 + 1 * (0 : Fin 1).val = (0 : Fin 1).val; omega
  | ⟨1, _⟩ => show win7_7.index t (1 : Fin 2) * 256 + 1 * j.val = j.val; omega

/-- WHAT POINT t WRITES BACK is block t of the whole-array gradient of the arrays the launch finds. -/
theorem flushed_eq (c : Dev nD) (t : Fin cfg7.N) :
    (dat7 V c).flushed 8 t = ((cfg7.win 8).blk t).view.read (Elt Ideal)
      (GK (V c main_v64) (V c main_v0) (V c main_v2) (V c main_v1) (V c main_v3) (V c main_v4) (V c main_v5) (V c main_v6)) := by
  show (cfg7.win 8).cut (grid7.coords t) ((dat7 V c).after 8 t) = _
  rw [after7_8]
  funext y
  obtain ⟨r, i, rfl⟩ : ∃ (r : Fin 1024) (i : Fin 1024), y = ix2 r i := ⟨y 0, y 1, eq_ix2 y⟩
  have hN : cfg7.N = 16 := N_7
  have hb : t.val * 1024 + r.val < 16384 := by have := t.isLt; have := r.isLt; omega
  show out7_8 (iblk7 V c 0 t) (iblk7 V c 1 t) (iblk7 V c 2 t) (iblk7 V c 3 t) (iblk7 V c 4 t) (iblk7 V c 5 t) (iblk7 V c 6 t) (iblk7 V c 7 t) (ix2 r i)
      = GK (V c main_v64) (V c main_v0) (V c main_v2) (V c main_v1) (V c main_v3) (V c main_v4) (V c main_v5) (V c main_v6) (((cfg7.win 8).blk t).view.emb (ix2 r i))
  rw [emb_out t r i hb, GK_apply,
    Cert.BlockGrad.out7_8_apply (iblk7 V c 0 t) (iblk7 V c 1 t) (iblk7 V c 2 t) (iblk7 V c 3 t) (iblk7 V c 4 t) (iblk7 V c 5 t) (iblk7 V c 6 t) (iblk7 V c 7 t) r i]
  have e0 : ∀ k : Fin 1024, iblk7 V c 0 t (ix2 r k) = V c main_v64 (ix2 (⟨t.val * 1024 + r.val, hb⟩ : Fin 16384) k) := fun k => by
    show V c main_v64 (((cfg7.win 0).blk t).view.emb (ix2 r k)) = _
    rw [emb_in t r k hb]
  have e1 : ∀ (k : Fin 1024) (j : Fin 256), iblk7 V c 1 t (ix2 k j) = V c main_v0 (ix2 k j) := fun k j => by
    show V c main_v0 (((cfg7.win 1).blk t).view.emb (ix2 k j)) = _
    rw [emb_w1 t k j]
  have e2 : ∀ (j : Fin 256) (i' : Fin 1024), iblk7 V c 2 t (ix2 j i') = V c main_v2 (ix2 j i') := fun j i' => by
    show V c main_v2 (((cfg7.win 2).blk t).view.emb (ix2 j i')) = _
    rw [emb_w2 t j i']
  have e3 : ∀ (k j : Fin 256), iblk7 V c 3 t (ix2 k j) = V c main_v1 (ix2 k j) := fun k j => by
    show V c main_v1 (((cfg7.win 3).blk t).view.emb (ix2 k j)) = _
    rw [emb_w3 t k j]
  have e4 : ∀ (k j : Fin 256), iblk7 V c 4 t (ix2 k j) = V c main_v3 (ix2 k j) := fun k j => by
    show V c main_v3 (((cfg7.win 4).blk t).view.emb (ix2 k j)) = _
    rw [emb_w4 t k j]
  have e5 : ∀ (j : Fin 256), iblk7 V c 5 t (ix2 (0 : Fin 1) j) = V c main_v4 (ix2 (0 : Fin 1) j) := fun j => by
    show V c main_v4 (((cfg7.win 5).blk t).view.emb (ix2 (0 : Fin 1) j)) = _
    rw [emb_w5 t j]
  have e6 : ∀ (j : Fin 256), iblk7 V c 6 t (ix2 (0 : Fin 1) j) = V c main_v5 (ix2 (0 : Fin 1) j) := fun j => by
    show V c main_v5 (((cfg7.win 6).blk t).view.emb (ix2 (0 : Fin 1) j)) = _
    rw [emb_w6 t j]
  have e7 : ∀ (j : Fin 256), iblk7 V c 7 t (ix2 (0 : Fin 1) j) = V c main_v6 (ix2 (0 : Fin 1) j) := fun j => by
    show V c main_v6 (((cfg7.win 7).blk t).view.emb (ix2 (0 : Fin 1) j)) = _
    rw [emb_w7 t j]
  simp only [e0, e1, e2, e3, e4, e5, e6, e7]

/-- An index of the result array is in point t's block iff its row is among that block's 1024 rows. -/
theorem mem_blk (t : Fin cfg7.N) (i : S16384x1024.Idx) :
    i ∈ ((cfg7.win 8).blk t).view.set ↔ ∀ a : Fin 2, win7_8.index t a * S1024x1024.size a ≤ (i a).val ∧ (i a).val < win7_8.index t a * S1024x1024.size a + S1024x1024.size a := by
  show i ∈ ((View.whole main_v65).slice (win7_8.rect t)).set ↔ _
  rw [View.set_slice_whole, Rect.mem_set_unit]
  exact Iff.rfl

/-- The sixteen blocks tile the array: row ρ is in block ρ / 1024. -/
theorem cover (i : S16384x1024.Idx) : ∃ t : Fin cfg7.N, (cfg7.win 8).flush t = true ∧ i ∈ ((cfg7.win 8).blk t).view.set := by
  have hN : cfg7.N = 16 := N_7
  have h0 : (i 0).val < 16384 := (i 0).isLt
  have h1 : (i 1).val < 1024 := (i 1).isLt
  refine ⟨⟨(i 0).val / 1024, by omega⟩, flush7_8 _, ?_⟩
  rw [mem_blk]
  obtain ⟨-, -, e2, e3, -⟩ := idx_facts (⟨(i 0).val / 1024, by omega⟩ : Fin cfg7.N)
  intro a
  match a with
  | ⟨0, _⟩ => show win7_8.index _ (0 : Fin 2) * 1024 ≤ (i 0).val ∧ (i 0).val < win7_8.index _ (0 : Fin 2) * 1024 + 1024; rw [e2]; show (i 0).val / 1024 * 1024 ≤ (i 0).val ∧ (i 0).val < (i 0).val / 1024 * 1024 + 1024; omega
  | ⟨1, _⟩ => show win7_8.index _ (1 : Fin 2) * 1024 ≤ (i 1).val ∧ (i 1).val < win7_8.index _ (1 : Fin 2) * 1024 + 1024; rw [e3]; omega

/-- THE RESULT ARRAY after the launch: the whole-array gradient of the arrays the launch found. -/
theorem final (c : Dev nD) : (dat7 V c).arrAt 8 cfg7.N
    = GK (V c main_v64) (V c main_v0) (V c main_v2) (V c main_v1) (V c main_v3) (V c main_v4) (V c main_v5) (V c main_v6) :=
  (dat7 V c).arrAt_eq_of_cover 8 _ (fun t _ => flushed_eq V c t) cover

end Cert.KernelIdeal.Region7

end
-- ==== Proof.Region8.lean ====
/-
  Launch 8 of the gradient kernel, from blocks to the array.  The grid has sixteen points; point t reads rows
  1024·t … 1024·t + 1023 of the phase-space array (all 1024 columns) and the seven weight arrays whole, and writes
  rows 1024·t … 1024·t + 1023 of the result.  The body's value at a row is the one-sample analytic gradient of that
  row, so what point t writes back is block t of the whole-array gradient `GK` of the arrays as the launch finds them;
  the sixteen blocks tile the 16384 rows, so the result array ends holding `GK`.
-/
import proofs.«124128_j83270825935573_1_alg».proof.Proof.Gen.KernelIdeal.Frame
import proofs.«124128_j83270825935573_1_alg».proof.Proof.BlockGrad
import proofs.«124128_j83270825935573_1_alg».proof.Proof.GKDef
import Idealize.ShloMosaic.Lib.Pipeline.Value
import Idealize.ShloMosaic.Lib.ValueIdx

set_option maxRecDepth 16384

noncomputable section

namespace Cert.KernelIdeal.Region8

open Cert.KernelIdeal Cert.KernelIdeal.Gen Cert.GK
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the grid: the phase-space window and the result window sit at block row t, every
    weight window at the origin. -/
theorem idx_facts : ∀ t : Fin cfg8.N,
    win8_0.index t (0 : Fin 2) = t.val ∧ win8_0.index t (1 : Fin 2) = 0
    ∧ win8_8.index t (0 : Fin 2) = t.val ∧ win8_8.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0 :=
  (by decide +kernel : ∀ t : Fin grid8.N, _)

/-- Where point t's block of the phase-space window sits in its array: row 1024·t + r, the same column. -/
theorem emb_in (t : Fin cfg8.N) (r k : Fin 1024) (h : t.val * 1024 + r.val < 16384) :
    ((cfg8.win 0).blk t).view.emb (ix2 r k) = ix2 (⟨t.val * 1024 + r.val, h⟩ : Fin 16384) k := by
  obtain ⟨e0, e1, -⟩ := idx_facts t
  funext a; apply Fin.ext
  match a with
  | ⟨0, _⟩ => show win8_0.index t (0 : Fin 2) * 1024 + 1 * r.val = t.val * 1024 + r.val; omega
  | ⟨1, _⟩ => show win8_0.index t (1 : Fin 2) * 1024 + 1 * k.val = k.val; omega

/-- Where point t's block of the result window sits in its array. -/
theorem emb_out (t : Fin cfg8.N) (r i : Fin 1024) (h : t.val * 1024 + r.val < 16384) :
    ((cfg8.win 8).blk t).view.emb (ix2 r i) = ix2 (⟨t.val * 1024 + r.val, h⟩ : Fin 16384) i := by
  obtain ⟨-, -, e2, e3, -⟩ := idx_facts t
  funext a; apply Fin.ext
  match a with
  | ⟨0, _⟩ => show win8_8.index t (0 : Fin 2) * 1024 + 1 * r.val = t.val * 1024 + r.val; omega
  | ⟨1, _⟩ => show win8_8.index t (1 : Fin 2) * 1024 + 1 * i.val = i.val; omega

/-- A weight window's block is its whole array. -/
theorem emb_w1 (t : Fin cfg8.N) (k : Fin 1024) (j : Fin 256) : ((cfg8.win 1).blk t).view.emb (ix2 k j) = ix2 k j := by
  obtain ⟨-, -, -, -, e0, e1, -⟩ := idx_facts t
  funext a; apply Fin.ext
  match a with
  | ⟨0, _⟩ => show win8_1.index t (0 : Fin 2) * 1024 + 1 * k.val = k.val; omega
  | ⟨1, _⟩ => show win8_1.index t (1 : Fin 2) * 256 + 1 * j.val = j.val; omega
theorem emb_w2 (t : Fin cfg8.N) (j : Fin 256) (i : Fin 1024) : ((cfg8.win 2).blk t).view.emb (ix2 j i) = ix2 j i := by
  obtain ⟨-, -, -, -, -, -, e0, e1, -⟩ := idx_facts t
  funext a; apply Fin.ext
  match a with
  | ⟨0, _⟩ => show win8_2.index t (0 : Fin 2) * 256 + 1 * j.val = j.val; omega
  | ⟨1, _⟩ => show win8_2.index t (1 : Fin 2) * 1024 + 1 * i.val = i.val; omega
theorem emb_w3 (t : Fin cfg8.N) (k j : Fin 256) : ((cfg8.win 3).blk t).view.emb (ix2 k j) = ix2 k j := by
  obtain ⟨-, -, -, -, -, -, -, -, e0, e1, -⟩ := idx_facts t
  funext a; apply Fin.ext
  match a with
  | ⟨0, _⟩ => show win8_3.index t (0 : Fin 2) * 256 + 1 * k.val = k.val; omega
  | ⟨1, _⟩ => show win8_3.index t (1 : Fin 2) * 256 + 1 * j.val = j.val; omega
theorem emb_w4 (t : Fin cfg8.N) (k j : Fin 256) : ((cfg8.win 4).blk t).view.emb (ix2 k j) = ix2 k j := by
  obtain ⟨-, -, -, -, -, -, -, -, -, -, e0, e1, -⟩ := idx_facts t
  funext a; apply Fin.ext
  match a with
  | ⟨0, _⟩ => show win8_4.index t (0 : Fin 2) * 256 + 1 * k.val = k.val; omega
  | ⟨1, _⟩ => show win8_4.index t (1 : Fin 2) * 256 + 1 * j.val = j.val; omega
theorem emb_w5 (t : Fin cfg8.N) (j : Fin 256) : ((cfg8.win 5).blk t).view.emb (ix2 (0 : Fin 1) j) = ix2 (0 : Fin 1) j := by
  obtain ⟨-, -, -, -, -, -, -, -, -, -, -, -, e0, e1, -⟩ := idx_facts t
  funext a; apply Fin.ext
  match a with
  | ⟨0, _⟩ => show win8_5.index t (0 : Fin 2) * 1 + 1 * (0 : Fin 1).val = (0 : Fin 1).val; omega
  | ⟨1, _⟩ => show win8_5.index t (1 : Fin 2) * 256 + 1 * j.val = j.val; omega
theorem emb_w6 (t : Fin cfg8.N) (j : Fin 256) : ((cfg8.win 6).blk t).view.emb (ix2 (0 : Fin 1) j) = ix2 (0 : Fin 1) j := by
  obtain ⟨-, -, -, -, -, -, -, -, -, -, -, -, -, -, e0, e1, -⟩ := idx_facts t
  funext a; apply Fin.ext
  match a with
  | ⟨0, _⟩ => show win8_6.index t (0 : Fin 2) * 1 + 1 * (0 : Fin 1).val = (0 : Fin 1).val; omega
  | ⟨1, _⟩ => show win8_6.index t (1 : Fin 2) * 256 + 1 * j.val = j.val; omega
theorem emb_w7 (t : Fin cfg8.N) (j : Fin 256) : ((cfg8.win 7).blk t).view.emb (ix2 (0 : Fin 1) j) = ix2 (0 : Fin 1) j := by
  obtain ⟨-, -, -, -, -, -, -, -, -, -, -, -, -, -, -, -, e0, e1⟩ := idx_facts t
  funext a; apply Fin.ext
  match a with
  | ⟨0, _⟩ => show win8_7.index t (0 : Fin 2) * 1 + 1 * (0 : Fin 1).val = (0 : Fin 1).val; omega
  | ⟨1, _⟩ => show win8_7.index t (1 : Fin 2) * 256 + 1 * j.val = j.val; omega

/-- WHAT POINT t WRITES BACK is block t of the whole-array gradient of the arrays the launch finds. -/
theorem flushed_eq (c : Dev nD) (t : Fin cfg8.N) :
    (dat8 V c).flushed 8 t = ((cfg8.win 8).blk t).view.read (Elt Ideal)
      (GK (V c main_v70) (V c main_v0) (V c main_v2) (V c main_v1) (V c main_v3) (V c main_v4) (V c main_v5) (V c main_v6)) := by
  show (cfg8.win 8).cut (grid8.coords t) ((dat8 V c).after 8 t) = _
  rw [after8_8]
  funext y
  obtain ⟨r, i, rfl⟩ : ∃ (r : Fin 1024) (i : Fin 1024), y = ix2 r i := ⟨y 0, y 1, eq_ix2 y⟩
  have hN : cfg8.N = 16 := N_8
  have hb : t.val * 1024 + r.val < 16384 := by have := t.isLt; have := r.isLt; omega
  show out8_8 (iblk8 V c 0 t) (iblk8 V c 1 t) (iblk8 V c 2 t) (iblk8 V c 3 t) (iblk8 V c 4 t) (iblk8 V c 5 t) (iblk8 V c 6 t) (iblk8 V c 7 t) (ix2 r i)
      = GK (V c main_v70) (V c main_v0) (V c main_v2) (V c main_v1) (V c main_v3) (V c main_v4) (V c main_v5) (V c main_v6) (((cfg8.win 8).blk t).view.emb (ix2 r i))
  rw [emb_out t r i hb, GK_apply,
    Cert.BlockGrad.out8_8_apply (iblk8 V c 0 t) (iblk8 V c 1 t) (iblk8 V c 2 t) (iblk8 V c 3 t) (iblk8 V c 4 t) (iblk8 V c 5 t) (iblk8 V c 6 t) (iblk8 V c 7 t) r i]
  have e0 : ∀ k : Fin 1024, iblk8 V c 0 t (ix2 r k) = V c main_v70 (ix2 (⟨t.val * 1024 + r.val, hb⟩ : Fin 16384) k) := fun k => by
    show V c main_v70 (((cfg8.win 0).blk t).view.emb (ix2 r k)) = _
    rw [emb_in t r k hb]
  have e1 : ∀ (k : Fin 1024) (j : Fin 256), iblk8 V c 1 t (ix2 k j) = V c main_v0 (ix2 k j) := fun k j => by
    show V c main_v0 (((cfg8.win 1).blk t).view.emb (ix2 k j)) = _
    rw [emb_w1 t k j]
  have e2 : ∀ (j : Fin 256) (i' : Fin 1024), iblk8 V c 2 t (ix2 j i') = V c main_v2 (ix2 j i') := fun j i' => by
    show V c main_v2 (((cfg8.win 2).blk t).view.emb (ix2 j i')) = _
    rw [emb_w2 t j i']
  have e3 : ∀ (k j : Fin 256), iblk8 V c 3 t (ix2 k j) = V c main_v1 (ix2 k j) := fun k j => by
    show V c main_v1 (((cfg8.win 3).blk t).view.emb (ix2 k j)) = _
    rw [emb_w3 t k j]
  have e4 : ∀ (k j : Fin 256), iblk8 V c 4 t (ix2 k j) = V c main_v3 (ix2 k j) := fun k j => by
    show V c main_v3 (((cfg8.win 4).blk t).view.emb (ix2 k j)) = _
    rw [emb_w4 t k j]
  have e5 : ∀ (j : Fin 256), iblk8 V c 5 t (ix2 (0 : Fin 1) j) = V c main_v4 (ix2 (0 : Fin 1) j) := fun j => by
    show V c main_v4 (((cfg8.win 5).blk t).view.emb (ix2 (0 : Fin 1) j)) = _
    rw [emb_w5 t j]
  have e6 : ∀ (j : Fin 256), iblk8 V c 6 t (ix2 (0 : Fin 1) j) = V c main_v5 (ix2 (0 : Fin 1) j) := fun j => by
    show V c main_v5 (((cfg8.win 6).blk t).view.emb (ix2 (0 : Fin 1) j)) = _
    rw [emb_w6 t j]
  have e7 : ∀ (j : Fin 256), iblk8 V c 7 t (ix2 (0 : Fin 1) j) = V c main_v6 (ix2 (0 : Fin 1) j) := fun j => by
    show V c main_v6 (((cfg8.win 7).blk t).view.emb (ix2 (0 : Fin 1) j)) = _
    rw [emb_w7 t j]
  simp only [e0, e1, e2, e3, e4, e5, e6, e7]

/-- An index of the result array is in point t's block iff its row is among that block's 1024 rows. -/
theorem mem_blk (t : Fin cfg8.N) (i : S16384x1024.Idx) :
    i ∈ ((cfg8.win 8).blk t).view.set ↔ ∀ a : Fin 2, win8_8.index t a * S1024x1024.size a ≤ (i a).val ∧ (i a).val < win8_8.index t a * S1024x1024.size a + S1024x1024.size a := by
  show i ∈ ((View.whole main_v71).slice (win8_8.rect t)).set ↔ _
  rw [View.set_slice_whole, Rect.mem_set_unit]
  exact Iff.rfl

/-- The sixteen blocks tile the array: row ρ is in block ρ / 1024. -/
theorem cover (i : S16384x1024.Idx) : ∃ t : Fin cfg8.N, (cfg8.win 8).flush t = true ∧ i ∈ ((cfg8.win 8).blk t).view.set := by
  have hN : cfg8.N = 16 := N_8
  have h0 : (i 0).val < 16384 := (i 0).isLt
  have h1 : (i 1).val < 1024 := (i 1).isLt
  refine ⟨⟨(i 0).val / 1024, by omega⟩, flush8_8 _, ?_⟩
  rw [mem_blk]
  obtain ⟨-, -, e2, e3, -⟩ := idx_facts (⟨(i 0).val / 1024, by omega⟩ : Fin cfg8.N)
  intro a
  match a with
  | ⟨0, _⟩ => show win8_8.index _ (0 : Fin 2) * 1024 ≤ (i 0).val ∧ (i 0).val < win8_8.index _ (0 : Fin 2) * 1024 + 1024; rw [e2]; show (i 0).val / 1024 * 1024 ≤ (i 0).val ∧ (i 0).val < (i 0).val / 1024 * 1024 + 1024; omega
  | ⟨1, _⟩ => show win8_8.index _ (1 : Fin 2) * 1024 ≤ (i 1).val ∧ (i 1).val < win8_8.index _ (1 : Fin 2) * 1024 + 1024; rw [e3]; omega

/-- THE RESULT ARRAY after the launch: the whole-array gradient of the arrays the launch found. -/
theorem final (c : Dev nD) : (dat8 V c).arrAt 8 cfg8.N
    = GK (V c main_v70) (V c main_v0) (V c main_v2) (V c main_v1) (V c main_v3) (V c main_v4) (V c main_v5) (V c main_v6) :=
  (dat8 V c).arrAt_eq_of_cover 8 _ (fun t _ => flushed_eq V c t) cover

end Cert.KernelIdeal.Region8

end
-- ==== Proof.Chain2.lean ====
/-
  Leapfrog step 2 on the kernel program's side: launches 6, 7, 8, then the last stretch, whose result is the positions
  of the array after three steps.
-/
import proofs.«124128_j83270825935573_1_alg».proof.Proof.Chain1
import proofs.«124128_j83270825935573_1_alg».proof.Proof.Region6
import proofs.«124128_j83270825935573_1_alg».proof.Proof.Region7
import proofs.«124128_j83270825935573_1_alg».proof.Proof.Region8

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

theorem b2_q (hpre : Cert.Pre_KernelIdeal m) (c : Dev nD) : W14 m ρ c (Proc.devRef .tc main_v55) = (Cert.Leap.lo (Z2 m c)) :=
  (W14_of_ne m ρ c main_v55 (by decide)).trans (a2_q m ρ hpre c)
theorem b2_p (hpre : Cert.Pre_KernelIdeal m) (c : Dev nD) : W14 m ρ c (Proc.devRef .tc main_v56) = (Cert.Leap.hi (Z2 m c)) :=
  (W14_of_ne m ρ c main_v56 (by decide)).trans (a2_p m ρ hpre c)

/-- Launch 6 leaves the reference's gradient of the array it was given. -/
theorem reg6 (hpre : Cert.Pre_KernelIdeal m) (c : Dev nD) :
    W14 m ρ c (Proc.devRef .tc main_v58) = Gm m c (W13 m ρ c (Proc.devRef .tc main_v57)) :=
  calc W14 m ρ c (Proc.devRef .tc main_v58)
      = (dat6 (V13 m ρ) c).arrAt 8 cfg6.N := W14_arr m ρ c 8
    _ = Cert.GK.GK (W13 m ρ c (Proc.devRef .tc main_v57)) (W13 m ρ c (Proc.devRef .tc main_v0)) (W13 m ρ c (Proc.devRef .tc main_v2)) (W13 m ρ c (Proc.devRef .tc main_v1)) (W13 m ρ c (Proc.devRef .tc main_v3)) (W13 m ρ c (Proc.devRef .tc main_v4)) (W13 m ρ c (Proc.devRef .tc main_v5)) (W13 m ρ c (Proc.devRef .tc main_v6)) := Cert.KernelIdeal.Region6.final (V13 m ρ) c
    _ = Cert.GK.GK (W13 m ρ c (Proc.devRef .tc main_v57)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := by rw [wk13_v0 m ρ c, wk13_v2 m ρ c, wk13_v1 m ρ c, wk13_v3 m ρ c, wk13_v4 m ρ c, wk13_v5 m ρ c, wk13_v6 m ρ c]
    _ = Gm m c (W13 m ρ c (Proc.devRef .tc main_v57)) := bridge m ρ hpre c _
theorem b2_g (hpre : Cert.Pre_KernelIdeal m) (c : Dev nD) : W14 m ρ c (Proc.devRef .tc main_v58) = (Gm m c) (Cert.Leap.cat (Cert.Leap.lo (Z2 m c)) (Cert.Leap.hi (Z2 m c))) := by
  rw [reg6 m ρ hpre c, a2_zc m ρ hpre c]
set_option maxHeartbeats 4000000 in
theorem c2_q (hpre : Cert.Pre_KernelIdeal m) (c : Dev nD) : W15 m ρ c (Proc.devRef .tc main_v55) = (Cert.Leap.lo (Z2 m c)) := by
  show StableHlo.after hostOps7 (W14 m ρ c) (Proc.devRef .tc main_v55) = _
  read_stretch
  exact b2_q m ρ hpre c
set_option maxHeartbeats 4000000 in
theorem c2_P1 (hpre : Cert.Pre_KernelIdeal m) (c : Dev nD) : W15 m ρ c (Proc.devRef .tc main_v63) = (Cert.Leap.p1 (Gm m c) (Cert.Leap.lo (Z2 m c)) (Cert.Leap.hi (Z2 m c))) := by
  show StableHlo.after hostOps7 (W14 m ρ c) (Proc.devRef .tc main_v63) = _
  read_stretch
  rw [b2_p m ρ hpre c, b2_g m ρ hpre c]
  rfl
set_option maxHeartbeats 4000000 in
theorem c2_c1 (hpre : Cert.Pre_KernelIdeal m) (c : Dev nD) : W15 m ρ c (Proc.devRef .tc main_v64) = Cert.Leap.cat (Cert.Leap.lo (Z2 m c)) (Cert.Leap.p1 (Gm m c) (Cert.Leap.lo (Z2 m c)) (Cert.Leap.hi (Z2 m c))) := by
  show StableHlo.after hostOps7 (W14 m ρ c) (Proc.devRef .tc main_v64) = _
  read_stretch
  rw [b2_q m ρ hpre c, b2_p m ρ hpre c, b2_g m ρ hpre c]
  rfl
theorem d2_q (hpre : Cert.Pre_KernelIdeal m) (c : Dev nD) : W16 m ρ c (Proc.devRef .tc main_v55) = (Cert.Leap.lo (Z2 m c)) :=
  (W16_of_ne m ρ c main_v55 (by decide)).trans (c2_q m ρ hpre c)
theorem d2_P1 (hpre : Cert.Pre_KernelIdeal m) (c : Dev nD) : W16 m ρ c (Proc.devRef .tc main_v63) = (Cert.Leap.p1 (Gm m c) (Cert.Leap.lo (Z2 m c)) (Cert.Leap.hi (Z2 m c))) :=
  (W16_of_ne m ρ c main_v63 (by decide)).trans (c2_P1 m ρ hpre c)

/-- Launch 7 leaves the reference's gradient of the array it was given. -/
theorem reg7 (hpre : Cert.Pre_KernelIdeal m) (c : Dev nD) :
    W16 m ρ c (Proc.devRef .tc main_v65) = Gm m c (W15 m ρ c (Proc.devRef .tc main_v64)) :=
  calc W16 m ρ c (Proc.devRef .tc main_v65)
      = (dat7 (V15 m ρ) c).arrAt 8 cfg7.N := W16_arr m ρ c 8
    _ = Cert.GK.GK (W15 m ρ c (Proc.devRef .tc main_v64)) (W15 m ρ c (Proc.devRef .tc main_v0)) (W15 m ρ c (Proc.devRef .tc main_v2)) (W15 m ρ c (Proc.devRef .tc main_v1)) (W15 m ρ c (Proc.devRef .tc main_v3)) (W15 m ρ c (Proc.devRef .tc main_v4)) (W15 m ρ c (Proc.devRef .tc main_v5)) (W15 m ρ c (Proc.devRef .tc main_v6)) := Cert.KernelIdeal.Region7.final (V15 m ρ) c
    _ = Cert.GK.GK (W15 m ρ c (Proc.devRef .tc main_v64)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := by rw [wk15_v0 m ρ c, wk15_v2 m ρ c, wk15_v1 m ρ c, wk15_v3 m ρ c, wk15_v4 m ρ c, wk15_v5 m ρ c, wk15_v6 m ρ c]
    _ = Gm m c (W15 m ρ c (Proc.devRef .tc main_v64)) := bridge m ρ hpre c _
theorem d2_g (hpre : Cert.Pre_KernelIdeal m) (c : Dev nD) : W16 m ρ c (Proc.devRef .tc main_v65) = (Gm m c) (Cert.Leap.cat (Cert.Leap.lo (Z2 m c)) (Cert.Leap.p1 (Gm m c) (Cert.Leap.lo (Z2 m c)) (Cert.Leap.hi (Z2 m c)))) := by
  rw [reg7 m ρ hpre c, c2_c1 m ρ hpre c]
set_option maxHeartbeats 4000000 in
theorem e2_P1 (hpre : Cert.Pre_KernelIdeal m) (c : Dev nD) : W17 m ρ c (Proc.devRef .tc main_v63) = (Cert.Leap.p1 (Gm m c) (Cert.Leap.lo (Z2 m c)) (Cert.Leap.hi (Z2 m c))) := by
  show StableHlo.after hostOps8 (W16 m ρ c) (Proc.devRef .tc main_v63) = _
  read_stretch
  exact d2_P1 m ρ hpre c
set_option maxHeartbeats 4000000 in
theorem e2_Q1 (hpre : Cert.Pre_KernelIdeal m) (c : Dev nD) : W17 m ρ c (Proc.devRef .tc main_v69) = (Cert.Leap.q1 (Gm m c) (Cert.Leap.lo (Z2 m c)) (Cert.Leap.hi (Z2 m c))) := by
  show StableHlo.after hostOps8 (W16 m ρ c) (Proc.devRef .tc main_v69) = _
  read_stretch
  rw [d2_q m ρ hpre c, d2_g m ρ hpre c]
  rfl
set_option maxHeartbeats 4000000 in
theorem e2_c2 (hpre : Cert.Pre_KernelIdeal m) (c : Dev nD) : W17 m ρ c (Proc.devRef .tc main_v70) = Cert.Leap.cat (Cert.Leap.q1 (Gm m c) (Cert.Leap.lo (Z2 m c)) (Cert.Leap.hi (Z2 m c))) (Cert.Leap.p1 (Gm m c) (Cert.Leap.lo (Z2 m c)) (Cert.Leap.hi (Z2 m c))) := by
  show StableHlo.after hostOps8 (W16 m ρ c) (Proc.devRef .tc main_v70) = _
  read_stretch
  rw [d2_q m ρ hpre c, d2_g m ρ hpre c, d2_P1 m ρ hpre c]
  rfl
theorem f2_P1 (hpre : Cert.Pre_KernelIdeal m) (c : Dev nD) : W18 m ρ c (Proc.devRef .tc main_v63) = (Cert.Leap.p1 (Gm m c) (Cert.Leap.lo (Z2 m c)) (Cert.Leap.hi (Z2 m c))) :=
  (W18_of_ne m ρ c main_v63 (by decide)).trans (e2_P1 m ρ hpre c)
theorem f2_Q1 (hpre : Cert.Pre_KernelIdeal m) (c : Dev nD) : W18 m ρ c (Proc.devRef .tc main_v69) = (Cert.Leap.q1 (Gm m c) (Cert.Leap.lo (Z2 m c)) (Cert.Leap.hi (Z2 m c))) :=
  (W18_of_ne m ρ c main_v69 (by decide)).trans (e2_Q1 m ρ hpre c)

/-- Launch 8 leaves the reference's gradient of the array it was given. -/
theorem reg8 (hpre : Cert.Pre_KernelIdeal m) (c : Dev nD) :
    W18 m ρ c (Proc.devRef .tc main_v71) = Gm m c (W17 m ρ c (Proc.devRef .tc main_v70)) :=
  calc W18 m ρ c (Proc.devRef .tc main_v71)
      = (dat8 (V17 m ρ) c).arrAt 8 cfg8.N := W18_arr m ρ c 8
    _ = Cert.GK.GK (W17 m ρ c (Proc.devRef .tc main_v70)) (W17 m ρ c (Proc.devRef .tc main_v0)) (W17 m ρ c (Proc.devRef .tc main_v2)) (W17 m ρ c (Proc.devRef .tc main_v1)) (W17 m ρ c (Proc.devRef .tc main_v3)) (W17 m ρ c (Proc.devRef .tc main_v4)) (W17 m ρ c (Proc.devRef .tc main_v5)) (W17 m ρ c (Proc.devRef .tc main_v6)) := Cert.KernelIdeal.Region8.final (V17 m ρ) c
    _ = Cert.GK.GK (W17 m ρ c (Proc.devRef .tc main_v70)) (W1 m ρ c (Proc.devRef .tc main_v0)) (W1 m ρ c (Proc.devRef .tc main_v2)) (W1 m ρ c (Proc.devRef .tc main_v1)) (W1 m ρ c (Proc.devRef .tc main_v3)) (W1 m ρ c (Proc.devRef .tc main_v4)) (W1 m ρ c (Proc.devRef .tc main_v5)) (W1 m ρ c (Proc.devRef .tc main_v6)) := by rw [wk17_v0 m ρ c, wk17_v2 m ρ c, wk17_v1 m ρ c, wk17_v3 m ρ c, wk17_v4 m ρ c, wk17_v5 m ρ c, wk17_v6 m ρ c]
    _ = Gm m c (W17 m ρ c (Proc.devRef .tc main_v70)) := bridge m ρ hpre c _
theorem f2_g (hpre : Cert.Pre_KernelIdeal m) (c : Dev nD) : W18 m ρ c (Proc.devRef .tc main_v71) = (Gm m c) (Cert.Leap.cat (Cert.Leap.q1 (Gm m c) (Cert.Leap.lo (Z2 m c)) (Cert.Leap.hi (Z2 m c))) (Cert.Leap.p1 (Gm m c) (Cert.Leap.lo (Z2 m c)) (Cert.Leap.hi (Z2 m c)))) := by
  rw [reg8 m ρ hpre c, e2_c2 m ρ hpre c]
set_option maxHeartbeats 4000000 in
theorem result_eq (hpre : Cert.Pre_KernelIdeal m) (c : Dev nD) : W19 m ρ c (Proc.devRef .tc main_v78) = Cert.Leap.lo (Z3 m c) := by
  show StableHlo.after hostOps9 (W18 m ρ c) (Proc.devRef .tc main_v78) = _
  read_stretch
  rw [f2_Q1 m ρ hpre c, f2_P1 m ρ hpre c, f2_g m ρ hpre c]
  rfl

end Cert.KernelIdeal.Chain

end
-- ==== Proof.RefChain.lean ====
/-
  The reference's run, read as the leapfrog integrator over its own gradient.  The run's named intermediate arrays
  are, in order: the initial phase-space array z ‖ 0 and its two halves; inside each gradient call the two hidden
  layers and the two cotangent factors; after each gradient call the updated momenta or positions; after each leapfrog
  step the next phase-space array and its halves.  A gradient call is the reference's gradient of the array it starts
  from, and a leapfrog step is the abstract integrator's step at that gradient: both are proved once over named stages,
  each stage given by its one defining operation, and then read off the run's names three times.
-/
import proofs.«124128_j83270825935573_1_alg».proof.Proof.Gen.ReferenceIdeal.Run
import proofs.«124128_j83270825935573_1_alg».proof.Proof.RefGradDef
import proofs.«124128_j83270825935573_1_alg».proof.Proof.Leap

noncomputable section

namespace Cert.RefChain

open Cert.ReferenceIdeal Cert.ReferenceIdeal.Gen Cert.ReferenceIdeal.Value Cert.Leap Cert.RefGrad
open Idealize.ShloMosaic Idealize.ShloMosaic.TcCoe Idealize.SL.Sem Idealize.ShloMosaic.StableHlo

variable {F : FTy → Type} [FloatOps F]

/-- The reference's gradient at the weights a valuation holds in the argument buffers. -/
def Gr (V0 : Valuation τ sig (Elt F)) (zp : FVec F S16384x1024 .f32) : FVec F S16384x1024 .f32 :=
  refGrad zp (V0 (Proc.devRef .tc main_arg1)) (V0 (Proc.devRef .tc main_arg2)) (V0 (Proc.devRef .tc main_arg3))
    (V0 (Proc.devRef .tc main_arg4)) (V0 (Proc.devRef .tc main_arg5))

variable (V0 : Valuation τ sig (Elt F))

/-! ## One gradient call and one leapfrog step, over named stages -/

/-- A gradient call from its named stages: the two hidden layers, the two cotangent factors, the final contraction. -/
theorem call_eq (zp : FVec F S16384x1024 .f32) (h1 h2 d2 d1 : FVec F S16384x256 .f32)
    (e1 : h1 = refH1 zp (V0 (Proc.devRef .tc main_arg1)) (V0 (Proc.devRef .tc main_arg2)))
    (e2 : h2 = refH2 h1 (V0 (Proc.devRef .tc main_arg3)) (V0 (Proc.devRef .tc main_arg4)))
    (e3 : d2 = refD2 h2 (V0 (Proc.devRef .tc main_arg5)))
    (e4 : d1 = refD1 d2 h2 h1 (V0 (Proc.devRef .tc main_arg3))) :
    refOut d1 h1 (V0 (Proc.devRef .tc main_arg1)) = Gr V0 zp := by
  subst e1 e2 e3 e4
  rfl

/-- A leapfrog step from its named stages: the halves q, p of the phase-space array, then three gradient calls, after
    the first the momenta pA, after the second the positions qB, after the third the next array. -/
theorem step_eq (zp : FVec F S16384x1024 .f32) (q p : FVec F S16384x512 .f32) (hq : q = lo zp) (hp : p = hi zp)
    (h1a h2a d2a d1a : FVec F S16384x256 .f32)
    (ea1 : h1a = refH1 (cat q p) (V0 (Proc.devRef .tc main_arg1)) (V0 (Proc.devRef .tc main_arg2)))
    (ea2 : h2a = refH2 h1a (V0 (Proc.devRef .tc main_arg3)) (V0 (Proc.devRef .tc main_arg4)))
    (ea3 : d2a = refD2 h2a (V0 (Proc.devRef .tc main_arg5)))
    (ea4 : d1a = refD1 d2a h2a h1a (V0 (Proc.devRef .tc main_arg3)))
    (pA : FVec F S16384x512 .f32) (epA : pA = halfStep p (refOut d1a h1a (V0 (Proc.devRef .tc main_arg1))))
    (h1b h2b d2b d1b : FVec F S16384x256 .f32)
    (eb1 : h1b = refH1 (cat q pA) (V0 (Proc.devRef .tc main_arg1)) (V0 (Proc.devRef .tc main_arg2)))
    (eb2 : h2b = refH2 h1b (V0 (Proc.devRef .tc main_arg3)) (V0 (Proc.devRef .tc main_arg4)))
    (eb3 : d2b = refD2 h2b (V0 (Proc.devRef .tc main_arg5)))
    (eb4 : d1b = refD1 d2b h2b h1b (V0 (Proc.devRef .tc main_arg3)))
    (qB : FVec F S16384x512 .f32) (eqB : qB = fullStep q (refOut d1b h1b (V0 (Proc.devRef .tc main_arg1))))
    (h1c h2c d2c d1c : FVec F S16384x256 .f32)
    (ec1 : h1c = refH1 (cat qB pA) (V0 (Proc.devRef .tc main_arg1)) (V0 (Proc.devRef .tc main_arg2)))
    (ec2 : h2c = refH2 h1c (V0 (Proc.devRef .tc main_arg3)) (V0 (Proc.devRef .tc main_arg4)))
    (ec3 : d2c = refD2 h2c (V0 (Proc.devRef .tc main_arg5)))
    (ec4 : d1c = refD1 d2c h2c h1c (V0 (Proc.devRef .tc main_arg3))) :
    cat qB (halfStep pA (refOut d1c h1c (V0 (Proc.devRef .tc main_arg1)))) = step (Gr V0) zp := by
  have ca : refOut d1a h1a (V0 (Proc.devRef .tc main_arg1)) = Gr V0 (cat q p) := call_eq V0 _ _ _ _ _ ea1 ea2 ea3 ea4
  have hpA : pA = p1 (Gr V0) q p := epA.trans (congrArg (halfStep p) ca)
  have cb : refOut d1b h1b (V0 (Proc.devRef .tc main_arg1)) = Gr V0 (cat q pA) := call_eq V0 _ _ _ _ _ eb1 eb2 eb3 eb4
  have hqB : qB = q1 (Gr V0) q p := by rw [eqB, cb, hpA]; rfl
  have cc : refOut d1c h1c (V0 (Proc.devRef .tc main_arg1)) = Gr V0 (cat qB pA) := call_eq V0 _ _ _ _ _ ec1 ec2 ec3 ec4
  rw [cc, hqB, hpA, hq, hp]
  rfl

/-! ## The run's three steps -/

set_option maxHeartbeats 400000 in
/-- After the first step. -/
theorem v108_eq : res_main_v108 V0 = step (Gr V0) (res_main_v1 V0) :=
  step_eq V0 (res_main_v1 V0) (res_main_v2 V0) (res_main_v3 V0) rfl rfl
    (res_main_v9 V0) (res_main_v16 V0) (res_main_v26 V0) (res_main_v30 V0) rfl rfl rfl rfl
    (res_main_v38 V0) rfl
    (res_main_v44 V0) (res_main_v51 V0) (res_main_v61 V0) (res_main_v65 V0) rfl rfl rfl rfl
    (res_main_v72 V0) rfl
    (res_main_v78 V0) (res_main_v85 V0) (res_main_v95 V0) (res_main_v99 V0) rfl rfl rfl rfl

set_option maxHeartbeats 400000 in
/-- After the second step. -/
theorem v215_eq : res_main_v215 V0 = step (Gr V0) (res_main_v108 V0) :=
  step_eq V0 (res_main_v108 V0) (res_main_v109 V0) (res_main_v110 V0) rfl rfl
    (res_main_v116 V0) (res_main_v123 V0) (res_main_v133 V0) (res_main_v137 V0) rfl rfl rfl rfl
    (res_main_v145 V0) rfl
    (res_main_v151 V0) (res_main_v158 V0) (res_main_v168 V0) (res_main_v172 V0) rfl rfl rfl rfl
    (res_main_v179 V0) rfl
    (res_main_v185 V0) (res_main_v192 V0) (res_main_v202 V0) (res_main_v206 V0) rfl rfl rfl rfl

set_option maxHeartbeats 400000 in
/-- After the third step (the run does not name this array). -/
theorem last_eq :
    cat (res_main_v286 V0) (halfStep (res_main_v252 V0)
        (refOut (res_main_v313 V0) (res_main_v292 V0) (V0 (Proc.devRef .tc main_arg1))))
      = step (Gr V0) (res_main_v215 V0) :=
  step_eq V0 (res_main_v215 V0) (res_main_v216 V0) (res_main_v217 V0) rfl rfl
    (res_main_v223 V0) (res_main_v230 V0) (res_main_v240 V0) (res_main_v244 V0) rfl rfl rfl rfl
    (res_main_v252 V0) rfl
    (res_main_v258 V0) (res_main_v265 V0) (res_main_v275 V0) (res_main_v279 V0) rfl rfl rfl rfl
    (res_main_v286 V0) rfl
    (res_main_v292 V0) (res_main_v299 V0) (res_main_v309 V0) (res_main_v313 V0) rfl rfl rfl rfl

/-- The initial phase-space array: the positions beside zero momenta. -/
theorem v1_eq : res_main_v1 V0 = cat (V0 (Proc.devRef .tc main_arg0)) zeros := rfl

set_option maxHeartbeats 400000 in
/-- The run's result is the integrator's result at the reference's gradient. -/
theorem result_eq :
    lo (cat (res_main_v286 V0) (halfStep (res_main_v252 V0)
        (refOut (res_main_v313 V0) (res_main_v292 V0) (V0 (Proc.devRef .tc main_arg1)))))
      = whole (Gr V0) (V0 (Proc.devRef .tc main_arg0)) := by
  rw [last_eq, v215_eq, v108_eq, v1_eq]
  rfl

/-- The reference's run: the result array is the integrator's result at the reference's gradient of the launch
    contents; the arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v323) = whole (Gr (launchContents m c)) (launchContents m c (Proc.devRef .tc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq (launchContents m c)), (h c).2⟩)
    (Cert.ReferenceIdeal.Value.run (F := F) m ρ)

end Cert.RefChain

end
-- ==== Proof.lean ====
/-
  Three leapfrog steps of a Hamiltonian flow whose energy is a two-hidden-layer tanh network: the kernel program computes
  the gradient of the summed energy analytically, tile by tile, in nine launches; the reference differentiates the
  network automatically.  On the extended reals the two gradients are one function of the phase-space array as soon as
  the weights W2 and W3 are finite: both run the same two layers forward, and back through a tanh of value a the first
  multiplies the cotangent g by (1 − a·a) where the second forms g·(1 − a) + (g·(1 − a))·a — equal for real g and a,
  and every g met is a finite sum of products of reals because a tanh value is always real.  Everything around the
  gradient — slicing positions and momenta, the half and full steps, concatenating — is the same operations in both
  programs, so both results are the same integrator applied to the same gradient.

  The frames of the two kernel programs are the generated ones; the reference's frame is its generated run with the
  result dropped; no rewrite was applied in idealizing, so there is nothing to preserve.
-/
import proofs.«124128_j83270825935573_1_alg».proof.Defs
import proofs.«124128_j83270825935573_1_alg».proof.Proof.Gen.Kernel
import proofs.«124128_j83270825935573_1_alg».proof.Proof.Gen.Kernel.Skeleton
import proofs.«124128_j83270825935573_1_alg».proof.Proof.Gen.Kernel.Launch
import proofs.«124128_j83270825935573_1_alg».proof.Proof.Gen.Kernel.Points
import proofs.«124128_j83270825935573_1_alg».proof.Proof.Gen.Kernel.Frame
import proofs.«124128_j83270825935573_1_alg».proof.Proof.Gen.KernelIdeal
import proofs.«124128_j83270825935573_1_alg».proof.Proof.Gen.KernelIdeal.Skeleton
import proofs.«124128_j83270825935573_1_alg».proof.Proof.Gen.KernelIdeal.Launch
import proofs.«124128_j83270825935573_1_alg».proof.Proof.Gen.KernelIdeal.Points
import proofs.«124128_j83270825935573_1_alg».proof.Proof.Gen.KernelIdeal.Frame
import proofs.«124128_j83270825935573_1_alg».proof.Proof.Gen.ReferenceIdeal
import proofs.«124128_j83270825935573_1_alg».proof.Proof.Gen.ReferenceIdeal.Run
import proofs.«124128_j83270825935573_1_alg».proof.Proof.Gen.Pre_finite_inputs
import proofs.«124128_j83270825935573_1_alg».proof.Proof.KernelRun
import proofs.«124128_j83270825935573_1_alg».proof.Proof.Chain2
import proofs.«124128_j83270825935573_1_alg».proof.Proof.RefChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments the reference's gradient at its launch weights is the kernel side's. -/
theorem grad_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.RefChain.Gr (F := Ideal) (StableHlo.launchContents m' c) = Cert.KernelIdeal.Chain.Gm m c := by
  funext zp
  unfold Cert.RefChain.Gr Cert.KernelIdeal.Chain.Gm
  have e1 : StableHlo.launchContents m' c (Proc.devRef .tc Cert.ReferenceIdeal.main_arg1)
      = m ((c.tc : Thread Cert.KernelIdeal.nD Cert.KernelIdeal.τ).loc Cert.KernelIdeal.main_arg1) := h1
  have e2 : StableHlo.launchContents m' c (Proc.devRef .tc Cert.ReferenceIdeal.main_arg2)
      = m ((c.tc : Thread Cert.KernelIdeal.nD Cert.KernelIdeal.τ).loc Cert.KernelIdeal.main_arg2) := h2
  have e3 : StableHlo.launchContents m' c (Proc.devRef .tc Cert.ReferenceIdeal.main_arg3)
      = m ((c.tc : Thread Cert.KernelIdeal.nD Cert.KernelIdeal.τ).loc Cert.KernelIdeal.main_arg3) := h3
  have e4 : StableHlo.launchContents m' c (Proc.devRef .tc Cert.ReferenceIdeal.main_arg4)
      = m ((c.tc : Thread Cert.KernelIdeal.nD Cert.KernelIdeal.τ).loc Cert.KernelIdeal.main_arg4) := h4
  have e5 : StableHlo.launchContents m' c (Proc.devRef .tc Cert.ReferenceIdeal.main_arg5)
      = m ((c.tc : Thread Cert.KernelIdeal.nD Cert.KernelIdeal.τ).loc Cert.KernelIdeal.main_arg5) := h5
  rw [e1, e2, e3, e4, e5]

/-- Both idealized programs end at the integrator's result over one gradient function. -/
theorem algebraic : Cert.algebraic_KernelIdeal_ReferenceIdeal := by
  intro m ρ m' ρ' hpre hagree
  refine ⟨fun c => Cert.Leap.lo (Cert.KernelIdeal.Chain.Z3 m c), ?_, ?_⟩
  · exact (θ_run Cert.KernelIdeal.defs _ _).mono
      (fun r h c => ⟨(h c).1.trans (Cert.KernelIdeal.Chain.result_eq m ρ hpre c), (h c).2⟩)
      (Cert.KernelIdeal.Whole.run_main (F := Ideal) m ρ)
  · refine (θ_run Cert.ReferenceIdeal.defs _ _).mono (fun r h c => ⟨(h c).1.trans ?_, (h c).2⟩)
      (Cert.RefChain.run (F := Ideal) m' ρ')
    obtain ⟨h0, h1, h2, h3, h4, h5, -⟩ := hagree c
    have e0 : StableHlo.launchContents m' c (Proc.devRef .tc Cert.ReferenceIdeal.main_arg0)
        = m ((c.tc : Thread Cert.KernelIdeal.nD Cert.KernelIdeal.τ).loc Cert.KernelIdeal.main_arg0) := h0
    rw [grad_agree m m' c h1 h2 h3 h4 h5, e0]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
